-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x512000 : Shape := ⟨2, ![2, 512000]⟩
abbrev S3x128x128 : Shape := ⟨3, ![3, 128, 128]⟩
abbrev S3x128 : Shape := ⟨2, ![3, 128]⟩
abbrev S3 : Shape := ⟨1, ![3]⟩
abbrev S128x384 : Shape := ⟨2, ![128, 384]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg7 : FVec F S3 .f32) (main_arg8 : FVec F S128x384 .f32) (main_arg9 : FVec F S128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3 .f32 := Host.absf main_arg7
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  let main_v24 : FVec F S128x384 .f32 := Host.absf main_arg8
  let main_cst_8 : FVec F S_ .f32 := constant S_ .f32 0x7F800000#32
  let main_v25 : FVec F S128x384 .f32 := broadcastInDim S128x384 ![] bcast_S_S128x384 main_cst_8
  let main_v26 : IVec S128x384 1 := cmpf .olt main_v24 main_v25
  let main_c_9 : IVec S_ 1 := constantI S_ 1 1#1
  let main_v27 : IVec S_ 1 := (fun x v => Host.reduce IntOp.andi x v reducesTo_S128x384_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x512000 32) (main_arg2 : IVec S2x512000 32) (main_arg3 : IVec S2x512000 32) (main_arg4 : FVec F S3x128x128 .f32) (main_arg5 : FVec F S3x128 .f32) (main_arg6 : FVec F S3x128x128 .f32) (main_arg7 : FVec F S3 .f32) (main_arg8 : FVec F S128x384 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg4
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg5
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg6
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg7 main_arg8 main_arg9 main_v13 main_v16
-- ==== Kernel.lean ====
abbrev S50000x128 : Shape := ⟨2, ![50000, 128]⟩
abbrev S2x512000 : Shape := ⟨2, ![2, 512000]⟩
abbrev S3x128x128 : Shape := ⟨3, ![3, 128, 128]⟩
abbrev S3x128 : Shape := ⟨2, ![3, 128]⟩
abbrev S3 : Shape := ⟨1, ![3]⟩
abbrev S128x384 : Shape := ⟨2, ![128, 384]⟩
abbrev S128 : Shape := ⟨1, ![128]⟩
abbrev S1x512000 : Shape := ⟨2, ![1, 512000]⟩
abbrev S512000 : Shape := ⟨1, ![512000]⟩
abbrev S_ : Shape := ⟨0, ![]⟩
abbrev S512000x1 : Shape := ⟨2, ![512000, 1]⟩
abbrev S512000x128 : Shape := ⟨2, ![512000, 128]⟩
abbrev S50000 : Shape := ⟨1, ![50000]⟩
abbrev S50000x1 : Shape := ⟨2, ![50000, 1]⟩
abbrev S50000x3 : Shape := ⟨2, ![50000, 3]⟩
abbrev S384x128 : Shape := ⟨2, ![384, 128]⟩
abbrev S384 : Shape := ⟨1, ![384]⟩
abbrev S384x1 : Shape := ⟨2, ![384, 1]⟩
abbrev S2000x128 : Shape := ⟨2, ![2000, 128]⟩
abbrev S2000x3 : Shape := ⟨2, ![2000, 3]⟩
abbrev S2000x1 : Shape := ⟨2, ![2000, 1]⟩
abbrev S1x128x128 : Shape := ⟨3, ![1, 128, 128]⟩
abbrev S128x128 : Shape := ⟨2, ![128, 128]⟩
abbrev S1x128 : Shape := ⟨2, ![1, 128]⟩
abbrev S2000 : Shape := ⟨1, ![2000]⟩
abbrev S2000x384 : Shape := ⟨2, ![2000, 384]⟩

abbrev nBuf : Space → Nat
  | .hbm => 117
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S2x512000, .i32⟩
  | .hbm, ⟨2, _⟩ => ⟨S2x512000, .i32⟩
  | .hbm, ⟨3, _⟩ => ⟨S2x512000, .i32⟩
  | .hbm, ⟨4, _⟩ => ⟨S3x128x128, .f32⟩
  | .hbm, ⟨5, _⟩ => ⟨S3x128, .f32⟩
  | .hbm, ⟨6, _⟩ => ⟨S3x128x128, .f32⟩
  | .hbm, ⟨7, _⟩ => ⟨S3, .f32⟩
  | .hbm, ⟨8, _⟩ => ⟨S128x384, .f32⟩
  | .hbm, ⟨9, _⟩ => ⟨S128, .f32⟩
  | .hbm, ⟨10, _⟩ => ⟨S50000x128, .bf16⟩
  | .hbm, ⟨11, _⟩ => ⟨S1x512000, .i32⟩
  | .hbm, ⟨12, _⟩ => ⟨S512000, .i32⟩
  | .hbm, ⟨13, _⟩ => ⟨S1x512000, .i32⟩
  | .hbm, ⟨14, _⟩ => ⟨S512000, .i32⟩
  | .hbm, ⟨15, _⟩ => ⟨S_, .i32⟩
  | .hbm, ⟨16, _⟩ => ⟨S512000, .i32⟩
  | .hbm, ⟨17, _⟩ => ⟨S512000, .i1⟩
  | .hbm, ⟨18, _⟩ => ⟨S_, .i32⟩
  | .hbm, ⟨19, _⟩ => ⟨S512000, .i32⟩
  | .hbm, ⟨20, _⟩ => ⟨S512000, .i32⟩
  | .hbm, ⟨21, _⟩ => ⟨S512000, .i32⟩
  | .hbm, ⟨22, _⟩ => ⟨S512000x1, .i32⟩
  | .hbm, ⟨23, _⟩ => ⟨S512000x128, .bf16⟩
  | .hbm, ⟨24, _⟩ => ⟨S512000x128, .f32⟩
  | .hbm, ⟨25, _⟩ => ⟨S_, .f32⟩
  | .hbm, ⟨26, _⟩ => ⟨S50000x128, .f32⟩
  | .hbm, ⟨27, _⟩ => ⟨S512000x1, .i32⟩
  | .hbm, ⟨28, _⟩ => ⟨S50000x128, .f32⟩
  | .hbm, ⟨29, _⟩ => ⟨S_, .f32⟩
  | .hbm, ⟨30, _⟩ => ⟨S512000, .f32⟩
  | .hbm, ⟨31, _⟩ => ⟨S_, .f32⟩
  | .hbm, ⟨32, _⟩ => ⟨S50000, .f32⟩
  | .hbm, ⟨33, _⟩ => ⟨S512000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S50000x128, .bf16⟩
  | .hbm, ⟨42, _⟩ => ⟨S1x512000, .i32⟩
  | .hbm, ⟨43, _⟩ => ⟨S512000, .i32⟩
  | .hbm, ⟨44, _⟩ => ⟨S1x512000, .i32⟩
  | .hbm, ⟨45, _⟩ => ⟨S512000, .i32⟩
  | .hbm, ⟨46, _⟩ => ⟨S_, .i32⟩
  | .hbm, ⟨47, _⟩ => ⟨S512000, .i32⟩
  | .hbm, ⟨48, _⟩ => ⟨S512000, .i1⟩
  | .hbm, ⟨49, _⟩ => ⟨S_, .i32⟩
  | .hbm, ⟨50, _⟩ => ⟨S512000, .i32⟩
  | .hbm, ⟨51, _⟩ => ⟨S512000, .i32⟩
  | .hbm, ⟨52, _⟩ => ⟨S512000, .i32⟩
  | .hbm, ⟨53, _⟩ => ⟨S512000x1, .i32⟩
  | .hbm, ⟨54, _⟩ => ⟨S512000x128, .bf16⟩
  | .hbm, ⟨55, _⟩ => ⟨S512000x128, .f32⟩
  | .hbm, ⟨56, _⟩ => ⟨S_, .f32⟩
  | .hbm, ⟨57, _⟩ => ⟨S50000x128, .f32⟩
  | .hbm, ⟨58, _⟩ => ⟨S512000x1, .i32⟩
  | .hbm, ⟨59, _⟩ => ⟨S50000x128, .f32⟩
  | .hbm, ⟨60, _⟩ => ⟨S_, .f32⟩
  | .hbm, ⟨61, _⟩ => ⟨S512000, .f32⟩
  | .hbm, ⟨62, _⟩ => ⟨S_, .f32⟩
  | .hbm, ⟨63, _⟩ => ⟨S50000, .f32⟩
  | .hbm, ⟨64, _⟩ => ⟨S512000x1, .i32⟩
  | .hbm, ⟨65, _⟩ => ⟨S50000, .f32⟩
  | .hbm, ⟨66, _⟩ => ⟨S_, .f32⟩
  | .hbm, ⟨67, _⟩ => ⟨S50000, .f32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x128, .bf16⟩
  | .hbm, ⟨73, _⟩ => ⟨S1x512000, .i32⟩
  | .hbm, ⟨74, _⟩ => ⟨S512000, .i32⟩
  | .hbm, ⟨75, _⟩ => ⟨S1x512000, .i32⟩
  | .hbm, ⟨76, _⟩ => ⟨S512000, .i32⟩
  | .hbm, ⟨77, _⟩ => ⟨S_, .i32⟩
  | .hbm, ⟨78, _⟩ => ⟨S512000, .i32⟩
  | .hbm, ⟨79, _⟩ => ⟨S512000, .i1⟩
  | .hbm, ⟨80, _⟩ => ⟨S_, .i32⟩
  | .hbm, ⟨81, _⟩ => ⟨S512000, .i32⟩
  | .hbm, ⟨82, _⟩ => ⟨S512000, .i32⟩
  | .hbm, ⟨83, _⟩ => ⟨S512000, .i32⟩
  | .hbm, ⟨84, _⟩ => ⟨S512000x1, .i32⟩
  | .hbm, ⟨85, _⟩ => ⟨S512000x128, .bf16⟩
  | .hbm, ⟨86, _⟩ => ⟨S512000x128, .f32⟩
  | .hbm, ⟨87, _⟩ => ⟨S_, .f32⟩
  | .hbm, ⟨88, _⟩ => ⟨S50000x128, .f32⟩
  | .hbm, ⟨89, _⟩ => ⟨S512000x1, .i32⟩
  | .hbm, ⟨90, _⟩ => ⟨S50000x128, .f32⟩
  | .hbm, ⟨91, _⟩ => ⟨S_, .f32⟩
  | .hbm, ⟨92, _⟩ => ⟨S512000, .f32⟩
  | .hbm, ⟨93, _⟩ => ⟨S_, .f32⟩
  | .hbm, ⟨94, _⟩ => ⟨S50000, .f32⟩
  | .hbm, ⟨95, _⟩ => ⟨S512000x1, .i32⟩
  | .hbm, ⟨96, _⟩ => ⟨S50000, .f32⟩
  | .hbm, ⟨97, _⟩ => ⟨S_, .f32⟩
  | .hbm, ⟨98, _⟩ => ⟨S50000, .f32⟩
  | .hbm, ⟨99, _⟩ => ⟨S50000, .f32⟩
  | .hbm, ⟨100, _⟩ => ⟨S_, .f32⟩
  | .hbm, ⟨101, _⟩ => ⟨S50000, .f32⟩
  | .hbm, ⟨102, _⟩ => ⟨S50000, .f32⟩
  | .hbm, ⟨103, _⟩ => ⟨S50000x128, .bf16⟩
  | .hbm, ⟨104, _⟩ => ⟨S50000x1, .f32⟩
  | .hbm, ⟨105, _⟩ => ⟨S50000x1, .f32⟩
  | .hbm, ⟨106, _⟩ => ⟨S50000x1, .f32⟩
  | .hbm, ⟨107, _⟩ => ⟨S50000x3, .f32⟩
  | .hbm, ⟨108, _⟩ => ⟨S3x128x128, .f32⟩
  | .hbm, ⟨109, _⟩ => ⟨S3x128x128, .f32⟩
  | .hbm, ⟨110, _⟩ => ⟨S384x128, .f32⟩
  | .hbm, ⟨111, _⟩ => ⟨S3x128, .f32⟩
  | .hbm, ⟨112, _⟩ => ⟨S384, .f32⟩
  | .hbm, ⟨113, _⟩ => ⟨S384x1, .f32⟩
  | .hbm, ⟨114, _⟩ => ⟨S384x128, .f32⟩
  | .hbm, ⟨115, _⟩ => ⟨S384x128, .f32⟩
  | .hbm, ⟨116, _⟩ => ⟨S50000x128, .f32⟩
  | .local _ .vmem, ⟨0, _⟩ => ⟨S2000x128, .bf16⟩
  | .local _ .vmem, ⟨1, _⟩ => ⟨S2000x128, .bf16⟩
  | .local _ .vmem, ⟨2, _⟩ => ⟨S2000x128, .bf16⟩
  | .local _ .vmem, ⟨3, _⟩ => ⟨S2000x128, .bf16⟩
  | .local _ .vmem, ⟨4, _⟩ => ⟨S2000x128, .bf16⟩
  | .local _ .vmem, ⟨5, _⟩ => ⟨S2000x128, .bf16⟩
  | .local _ .vmem, ⟨6, _⟩ => ⟨S2000x3, .f32⟩
  | .local _ .vmem, ⟨7, _⟩ => ⟨S2000x3, .f32⟩
  | .local _ .vmem, ⟨8, _⟩ => ⟨S2000x128, .f32⟩
  | .local _ .vmem, ⟨9, _⟩ => ⟨S2000x128, .f32⟩
  | .local _ .vmem, ⟨10, _⟩ => ⟨S3x128x128, .f32⟩
  | .local _ .vmem, ⟨11, _⟩ => ⟨S3x128, .f32⟩
  | .local _ .vmem, ⟨12, _⟩ => ⟨S3x128x128, .f32⟩
  | .local _ .vmem, ⟨13, _⟩ => ⟨S384x128, .f32⟩
  | .local _ .vmem, ⟨14, _⟩ => ⟨S128, .f32⟩
  | .local _ .vmem, ⟨15, _⟩ => ⟨S2000x128, .f32⟩
  | .local _ .vmem, ⟨16, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_cst_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_12 : Ref sig .tc := ⟨.hbm, 77, rfl⟩
abbrev main_v53 : Ref sig .tc := ⟨.hbm, 78, rfl⟩
abbrev main_v54 : Ref sig .tc := ⟨.hbm, 79, rfl⟩
abbrev main_c_13 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_14 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_15 : Ref sig .tc := ⟨.hbm, 91, rfl⟩
abbrev main_v64 : Ref sig .tc := ⟨.hbm, 92, rfl⟩
abbrev main_cst_16 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_17 : Ref sig .tc := ⟨.hbm, 97, rfl⟩
abbrev main_v68 : Ref sig .tc := ⟨.hbm, 98, rfl⟩
abbrev main_v69 : Ref sig .tc := ⟨.hbm, 99, rfl⟩
abbrev main_cst_18 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  slices_S2x512000_S1x512000_0_0 : S2x512000.Slices ![0, 0] S1x512000
  shapeCasts_S1x512000_S512000 : S1x512000.ShapeCasts S512000
  slices_S2x512000_S1x512000_1_0 : S2x512000.Slices ![1, 0] S1x512000
  bcast_S_S512000 : S_.BroadcastsInDim S512000 (![] : Fin 0 → Fin S512000.rank)
  bcast_S512000_S512000x1_0 : S512000.BroadcastsInDim S512000x1 (![0] : Fin 1 → Fin S512000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  concatenates_S50000x1_S50000x1_S50000x1_S50000x3_d1 : Shape.Concatenates [S50000x1, S50000x1, S50000x1] S50000x3 1
  transposes_S3x128x128_S3x128x128_0_2_1 : S3x128x128.Transposes [0, 2, 1] S3x128x128
  transposes_S128x384_S384x128_1_0 : S128x384.Transposes [1, 0] S384x128
  bcast_S3_S3x128_0 : S3.BroadcastsInDim S3x128 (![0] : Fin 1 → Fin S3x128.rank)
  shapeCasts_S3x128_S384 : S3x128.ShapeCasts S384
  bcast_S384_S384x1_0 : S384.BroadcastsInDim S384x1 (![0] : Fin 1 → Fin S384x1.rank)
  bcast_S384x1_S384x128_0_1 : S384x1.BroadcastsInDim S384x128 (![0, 1] : Fin 2 → Fin S384x128.rank)
  inb_S2000x128_S2000x128_0_0 : ∀ a, (![0, 0] : Fin 2 → Nat) a + S2000x128.size a ≤ S2000x128.size a
  h_S2000x128 : 0 < S2000x128.numel
  inb_S2000x3_S2000x3_0_0 : ∀ a, (![0, 0] : Fin 2 → Nat) a + S2000x3.size a ≤ S2000x3.size a
  h_S2000x3 : 0 < S2000x3.numel
  shapeCasts_S2000x3_S2000x3 : S2000x3.ShapeCasts S2000x3
  inb_S128_S128_0 : ∀ a, (![0] : Fin 1 → Nat) a + S128.size a ≤ S128.size a
  h_S128 : 0 < S128.numel
  shapeCasts_S2000x128_S2000x128 : S2000x128.ShapeCasts S2000x128
  slices_S2000x3_o0_0_S2000x1 : S2000x3.Slices ![0, 0] S2000x1
  broadcasts_S2000x1_S2000x128 : S2000x1.Broadcasts S2000x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128_S1x128_0_0 : ∀ a, (![0, 0] : Fin 2 → Nat) a + S1x128.size a ≤ S3x128.size a
  h_S1x128 : 0 < S1x128.numel
  shapeCasts_S1x128_S128 : S1x128.ShapeCasts S128
  shapeCasts_S128_S1x128 : S128.ShapeCasts S1x128
  broadcasts_S1x128_S2000x128 : S1x128.Broadcasts S2000x128
  reduces_S2000x128_S2000 : S2000x128.Reduces [1] S2000
  shapeCasts_S2000_S2000x1 : S2000.ShapeCasts S2000x1
  slices_S2000x3_o0_1_S2000x1 : S2000x3.Slices ![0, 1] S2000x1
  inb_S3x128x128_S1x128x128_1_0_0 : ∀ a, (![1, 0, 0] : Fin 3 → Nat) a + S1x128x128.size a ≤ S3x128x128.size a
  inb_S3x128_S1x128_1_0 : ∀ a, (![1, 0] : Fin 2 → Nat) a + S1x128.size a ≤ S3x128.size a
  slices_S2000x3_o0_2_S2000x1 : S2000x3.Slices ![0, 2] S2000x1
  inb_S3x128x128_S1x128x128_2_0_0 : ∀ a, (![2, 0, 0] : Fin 3 → Nat) a + S1x128x128.size a ≤ S3x128x128.size a
  inb_S3x128_S1x128_2_0 : ∀ a, (![2, 0] : Fin 2 → Nat) a + S1x128.size a ≤ S3x128.size a
  concatenates_S2000x128_S2000x128_S2000x128_S2000x384_d1 : Shape.Concatenates [S2000x128, S2000x128, S2000x128] S2000x384 1
  inb_S384x128_S384x128_0_0 : ∀ a, (![0, 0] : Fin 2 → Nat) a + S384x128.size a ≤ S384x128.size a
  h_S384x128 : 0 < S384x128.numel
  shapeCasts_S384x128_S384x128 : S384x128.ShapeCasts S384x128
  gather_S50000x128_S512000x1_S512000x128_1_0_n_n_0_1_1128_wf : GatherDims.WF S50000x128 S512000x1 S512000x128 [1] [0] [] [0] [] 1 ![1, 128]
  scatter_S50000x128_S512000x1_S512000x128_1_0_0_1_wf : ScatterDims.WF S50000x128 S512000x1 S512000x128 [1] [0] [0] 1
  scatter_S50000_S512000x1_S512000_n_0_0_1_wf : ScatterDims.WF S50000 S512000x1 S512000 [] [0] [0] 1
  dot_S2000x128_S128x128_S2000x128_1_0_0_1_n_n_wf : DotDims.WF S2000x128 S128x128 S2000x128 [1] [0] [0] [1] [] []
  dot_S2000x384_S384x128_S2000x128_1_0_0_1_n_n_wf : DotDims.WF S2000x384 S384x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .bf16 = 32 ∨ (Rect.block (s := S50000x128) S2000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .bf16 = 32 ∨ (Rect.block (s := S50000x128) S2000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .bf16 = 32 ∨ (Rect.block (s := S50000x128) S2000x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x3.size a ≤ S50000x3.size a
  hwx0_3 : ∀ i : grid0.Coords, EltTy.bits .f32 = 32 ∨ (Rect.block (s := S50000x3) S2000x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x128x128.size a ≤ S3x128x128.size a
  hwx0_5 : ∀ i : grid0.Coords, EltTy.bits .f32 = 32 ∨ (Rect.block (s := S3x128x128) S3x128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x128.size a ≤ S3x128.size a
  hwx0_6 : ∀ i : grid0.Coords, EltTy.bits .f32 = 32 ∨ (Rect.block (s := S3x128) S3x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x128x128.size a ≤ S3x128x128.size a
  hwx0_7 : ∀ i : grid0.Coords, EltTy.bits .f32 = 32 ∨ (Rect.block (s := S3x128x128) S3x128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S384x128.size a ≤ S384x128.size a
  hwx0_8 : ∀ i : grid0.Coords, EltTy.bits .f32 = 32 ∨ (Rect.block (s := S384x128) S384x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S50000x128.size a
  hwx0_10 : ∀ i : grid0.Coords, EltTy.bits .f32 = 32 ∨ (Rect.block (s := S50000x128) S2000x128.size (cc0_transform_10 i) (hinb0_10 i)).WholeWords (EltTy.packing .f32)

variable [Facts₀]

def gather_S50000x128_S512000x1_S512000x128_1_0_n_n_0_1_1128 : GatherDims S50000x128 S512000x1 S512000x128 where
  offsetDims := [1]
  collapsedSliceDims := [0]
  operandBatchingDims := []
  startIndicesBatchingDims := []
  startIndexMap := [0]
  indexVectorDim := 1
  sliceSizes := ![1, 128]
  wf := gather_S50000x128_S512000x1_S512000x128_1_0_n_n_0_1_1128_wf
def scatter_S50000x128_S512000x1_S512000x128_1_0_0_1 : ScatterDims S50000x128 S512000x1 S512000x128 where
  updateWindowDims := [1]
  insertedWindowDims := [0]
  scatterDimsToOperandDims := [0]
  indexVectorDim := 1
  wf := scatter_S50000x128_S512000x1_S512000x128_1_0_0_1_wf
def scatter_S50000_S512000x1_S512000_n_0_0_1 : ScatterDims S50000 S512000x1 S512000 where
  updateWindowDims := []
  insertedWindowDims := [0]
  scatterDimsToOperandDims := [0]
  indexVectorDim := 1
  wf := scatter_S50000_S512000x1_S512000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x384_S384x128_S2000x128_1_0_0_1_n_n : DotDims S2000x384 S384x128 S2000x128 where
  lhsContracting := [1]
  rhsContracting := [0]
  lhsNonContracting := [0]
  rhsNonContracting := [1]
  lhsBatch := []
  rhsBatch := []
  wf := dot_S2000x384_S384x128_S2000x128_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v48) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v72) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v76) S2000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S2000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v77) S3x128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S3x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v78) S3x128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v84) S384x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v85) S2000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x512000 : Shape := ⟨2, ![2, 512000]⟩
abbrev S3x128x128 : Shape := ⟨3, ![3, 128, 128]⟩
abbrev S3x128 : Shape := ⟨2, ![3, 128]⟩
abbrev S3 : Shape := ⟨1, ![3]⟩
abbrev S128x384 : Shape := ⟨2, ![128, 384]⟩
abbrev S128 : Shape := ⟨1, ![128]⟩
abbrev S1x128x128 : Shape := ⟨3, ![1, 128, 128]⟩
abbrev S128x128 : Shape := ⟨2, ![128, 128]⟩
abbrev S1x128 : Shape := ⟨2, ![1, 128]⟩
abbrev S1x512000 : Shape := ⟨2, ![1, 512000]⟩
abbrev S512000 : Shape := ⟨1, ![512000]⟩
abbrev S_ : Shape := ⟨0, ![]⟩
abbrev S512000x1 : Shape := ⟨2, ![512000, 1]⟩
abbrev S512000x128 : Shape := ⟨2, ![512000, 128]⟩
abbrev S50000 : Shape := ⟨1, ![50000]⟩
abbrev S50000x1 : Shape := ⟨2, ![50000, 1]⟩
abbrev S1 : Shape := ⟨1, ![1]⟩
abbrev S50000x384 : Shape := ⟨2, ![50000, 384]⟩
abbrev S384x128 : Shape := ⟨2, ![384, 128]⟩

abbrev nBuf : Space → Nat
  | .hbm => 187
  | .vmem => 0
  | .smem => 0
  | _ => 0

abbrev hbmTy0_0 (i : Nat) : BufTy := match i % 128 with
  | 0 => ⟨S50000x128, .f32⟩
  | 1 => ⟨S2x512000, .i32⟩
  | 2 => ⟨S2x512000, .i32⟩
  | 3 => ⟨S2x512000, .i32⟩
  | 4 => ⟨S3x128x128, .f32⟩
  | 5 => ⟨S3x128, .f32⟩
  | 6 => ⟨S3x128x128, .f32⟩
  | 7 => ⟨S3, .f32⟩
  | 8 => ⟨S128x384, .f32⟩
  | 9 => ⟨S128, .f32⟩
  | 10 => ⟨S1x128x128, .f32⟩
  | 11 => ⟨S128x128, .f32⟩
  | 12 => ⟨S1x128, .f32⟩
  | 13 => ⟨S128, .f32⟩
  | 14 => ⟨S1x128x128, .f32⟩
  | 15 => ⟨S128x128, .f32⟩
  | 16 => ⟨S1x512000, .i32⟩
  | 17 => ⟨S512000, .i32⟩
  | 18 => ⟨S1x512000, .i32⟩
  | 19 => ⟨S512000, .i32⟩
  | 20 => ⟨S_, .i32⟩
  | 21 => ⟨S512000, .i32⟩
  | 22 => ⟨S512000, .i1⟩
  | 23 => ⟨S_, .i32⟩
  | 24 => ⟨S512000, .i32⟩
  | 25 => ⟨S512000, .i32⟩
  | 26 => ⟨S512000, .i32⟩
  | 27 => ⟨S512000x1, .i32⟩
  | 28 => ⟨S512000x128, .f32⟩
  | 29 => ⟨S_, .f32⟩
  | 30 => ⟨S50000x128, .f32⟩
  | 31 => ⟨S512000x1, .i32⟩
  | 32 => ⟨S50000x128, .f32⟩
  | 33 => ⟨S_, .f32⟩
  | 34 => ⟨S512000, .f32⟩
  | 35 => ⟨S_, .f32⟩
  | 36 => ⟨S50000, .f32⟩
  | 37 => ⟨S512000x1, .i32⟩
  | 38 => ⟨S50000, .f32⟩
  | 39 => ⟨S_, .f32⟩
  | 40 => ⟨S50000, .f32⟩
  | 41 => ⟨S50000, .f32⟩
  | 42 => ⟨S50000x1, .f32⟩
  | 43 => ⟨S50000x128, .f32⟩
  | 44 => ⟨S50000x128, .f32⟩
  | 45 => ⟨S128x128, .f32⟩
  | 46 => ⟨S50000x128, .f32⟩
  | 47 => ⟨S1x128, .f32⟩
  | 48 => ⟨S50000x128, .f32⟩
  | 49 => ⟨S50000x128, .f32⟩
  | 50 => ⟨S128x128, .f32⟩
  | 51 => ⟨S50000x128, .f32⟩
  | 52 => ⟨S50000x128, .f32⟩
  | 53 => ⟨S50000x128, .f32⟩
  | 54 => ⟨S_, .f32⟩
  | 55 => ⟨S50000, .f32⟩
  | 56 => ⟨S50000x1, .f32⟩
  | 57 => ⟨S50000x1, .f32⟩
  | 58 => ⟨S_, .f32⟩
  | 59 => ⟨S50000x1, .f32⟩
  | 60 => ⟨S50000x1, .f32⟩
  | 61 => ⟨S50000x128, .f32⟩
  | 62 => ⟨S50000x128, .f32⟩
  | 63 => ⟨S1, .f32⟩
  | 64 => ⟨S_, .f32⟩
  | 65 => ⟨S50000x128, .f32⟩
  | 66 => ⟨S50000x128, .f32⟩
  | 67 => ⟨S1x128x128, .f32⟩
  | 68 => ⟨S128x128, .f32⟩
  | 69 => ⟨S1x128, .f32⟩
  | 70 => ⟨S128, .f32⟩
  | 71 => ⟨S1x128x128, .f32⟩
  | 72 => ⟨S128x128, .f32⟩
  | 73 => ⟨S1x512000, .i32⟩
  | 74 => ⟨S512000, .i32⟩
  | 75 => ⟨S1x512000, .i32⟩
  | 76 => ⟨S512000, .i32⟩
  | 77 => ⟨S_, .i32⟩
  | 78 => ⟨S512000, .i32⟩
  | 79 => ⟨S512000, .i1⟩
  | 80 => ⟨S_, .i32⟩
  | 81 => ⟨S512000, .i32⟩
  | 82 => ⟨S512000, .i32⟩
  | 83 => ⟨S512000, .i32⟩
  | 84 => ⟨S512000x1, .i32⟩
  | 85 => ⟨S512000x128, .f32⟩
  | 86 => ⟨S_, .f32⟩
  | 87 => ⟨S50000x128, .f32⟩
  | 88 => ⟨S512000x1, .i32⟩
  | 89 => ⟨S50000x128, .f32⟩
  | 90 => ⟨S_, .f32⟩
  | 91 => ⟨S512000, .f32⟩
  | 92 => ⟨S_, .f32⟩
  | 93 => ⟨S50000, .f32⟩
  | 94 => ⟨S512000x1, .i32⟩
  | 95 => ⟨S50000, .f32⟩
  | 96 => ⟨S_, .f32⟩
  | 97 => ⟨S50000, .f32⟩
  | 98 => ⟨S50000, .f32⟩
  | 99 => ⟨S50000x1, .f32⟩
  | 100 => ⟨S50000x128, .f32⟩
  | 101 => ⟨S50000x128, .f32⟩
  | 102 => ⟨S128x128, .f32⟩
  | 103 => ⟨S50000x128, .f32⟩
  | 104 => ⟨S1x128, .f32⟩
  | 105 => ⟨S50000x128, .f32⟩
  | 106 => ⟨S50000x128, .f32⟩
  | 107 => ⟨S128x128, .f32⟩
  | 108 => ⟨S50000x128, .f32⟩
  | 109 => ⟨S50000x128, .f32⟩
  | 110 => ⟨S50000x128, .f32⟩
  | 111 => ⟨S_, .f32⟩
  | 112 => ⟨S50000, .f32⟩
  | 113 => ⟨S50000x1, .f32⟩
  | 114 => ⟨S50000x1, .f32⟩
  | 115 => ⟨S_, .f32⟩
  | 116 => ⟨S50000x1, .f32⟩
  | 117 => ⟨S50000x1, .f32⟩
  | 118 => ⟨S50000x128, .f32⟩
  | 119 => ⟨S50000x128, .f32⟩
  | 120 => ⟨S1, .f32⟩
  | 121 => ⟨S_, .f32⟩
  | 122 => ⟨S50000x128, .f32⟩
  | 123 => ⟨S50000x128, .f32⟩
  | 124 => ⟨S1x128x128, .f32⟩
  | 125 => ⟨S128x128, .f32⟩
  | 126 => ⟨S1x128, .f32⟩
  | 127 => ⟨S128, .f32⟩
  | _ => ⟨S50000x128, .f32⟩

abbrev hbmTy0_1 (i : Nat) : BufTy := match i % 128 with
  | 0 => ⟨S1x128x128, .f32⟩
  | 1 => ⟨S128x128, .f32⟩
  | 2 => ⟨S1x512000, .i32⟩
  | 3 => ⟨S512000, .i32⟩
  | 4 => ⟨S1x512000, .i32⟩
  | 5 => ⟨S512000, .i32⟩
  | 6 => ⟨S_, .i32⟩
  | 7 => ⟨S512000, .i32⟩
  | 8 => ⟨S512000, .i1⟩
  | 9 => ⟨S_, .i32⟩
  | 10 => ⟨S512000, .i32⟩
  | 11 => ⟨S512000, .i32⟩
  | 12 => ⟨S512000, .i32⟩
  | 13 => ⟨S512000x1, .i32⟩
  | 14 => ⟨S512000x128, .f32⟩
  | 15 => ⟨S_, .f32⟩
  | 16 => ⟨S50000x128, .f32⟩
  | 17 => ⟨S512000x1, .i32⟩
  | 18 => ⟨S50000x128, .f32⟩
  | 19 => ⟨S_, .f32⟩
  | 20 => ⟨S512000, .f32⟩
  | 21 => ⟨S_, .f32⟩
  | 22 => ⟨S50000, .f32⟩
  | 23 => ⟨S512000x1, .i32⟩
  | 24 => ⟨S50000, .f32⟩
  | 25 => ⟨S_, .f32⟩
  | 26 => ⟨S50000, .f32⟩
  | 27 => ⟨S50000, .f32⟩
  | 28 => ⟨S50000x1, .f32⟩
  | 29 => ⟨S50000x128, .f32⟩
  | 30 => ⟨S50000x128, .f32⟩
  | 31 => ⟨S128x128, .f32⟩
  | 32 => ⟨S50000x128, .f32⟩
  | 33 => ⟨S1x128, .f32⟩
  | 34 => ⟨S50000x128, .f32⟩
  | 35 => ⟨S50000x128, .f32⟩
  | 36 => ⟨S128x128, .f32⟩
  | 37 => ⟨S50000x128, .f32⟩
  | 38 => ⟨S50000x128, .f32⟩
  | 39 => ⟨S50000x128, .f32⟩
  | 40 => ⟨S_, .f32⟩
  | 41 => ⟨S50000, .f32⟩
  | 42 => ⟨S50000x1, .f32⟩
  | 43 => ⟨S50000x1, .f32⟩
  | 44 => ⟨S_, .f32⟩
  | 45 => ⟨S50000x1, .f32⟩
  | 46 => ⟨S50000x1, .f32⟩
  | 47 => ⟨S50000x128, .f32⟩
  | 48 => ⟨S50000x128, .f32⟩
  | 49 => ⟨S1, .f32⟩
  | 50 => ⟨S_, .f32⟩
  | 51 => ⟨S50000x128, .f32⟩
  | 52 => ⟨S50000x128, .f32⟩
  | 53 => ⟨S50000x384, .f32⟩
  | 54 => ⟨S384x128, .f32⟩
  | 55 => ⟨S50000x128, .f32⟩
  | 56 => ⟨S1x128, .f32⟩
  | 57 => ⟨S50000x128, .f32⟩
  | 58 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call0_v0 : Ref sig .tc := ⟨.hbm, 53, rfl⟩
abbrev main_call0_cst : Ref sig .tc := ⟨.hbm, 54, rfl⟩
abbrev main_call0_v1 : Ref sig .tc := ⟨.hbm, 55, rfl⟩
abbrev main_call0_v2 : Ref sig .tc := ⟨.hbm, 56, rfl⟩
abbrev main_v37 : Ref sig .tc := ⟨.hbm, 57, rfl⟩
abbrev main_cst_4 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_5 : Ref sig .tc := ⟨.hbm, 77, rfl⟩
abbrev main_v56 : Ref sig .tc := ⟨.hbm, 78, rfl⟩
abbrev main_v57 : Ref sig .tc := ⟨.hbm, 79, rfl⟩
abbrev main_c_6 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_7 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_8 : Ref sig .tc := ⟨.hbm, 90, rfl⟩
abbrev main_v66 : Ref sig .tc := ⟨.hbm, 91, rfl⟩
abbrev main_cst_9 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_10 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_call1_v0 : Ref sig .tc := ⟨.hbm, 110, rfl⟩
abbrev main_call1_cst : Ref sig .tc := ⟨.hbm, 111, rfl⟩
abbrev main_call1_v1 : Ref sig .tc := ⟨.hbm, 112, rfl⟩
abbrev main_call1_v2 : Ref sig .tc := ⟨.hbm, 113, rfl⟩
abbrev main_v83 : Ref sig .tc := ⟨.hbm, 114, rfl⟩
abbrev main_cst_11 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_c_12 : Ref sig .tc := ⟨.hbm, 134, rfl⟩
abbrev main_v102 : Ref sig .tc := ⟨.hbm, 135, rfl⟩
abbrev main_v103 : Ref sig .tc := ⟨.hbm, 136, rfl⟩
abbrev main_c_13 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_14 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_cst_15 : Ref sig .tc := ⟨.hbm, 147, rfl⟩
abbrev main_v112 : Ref sig .tc := ⟨.hbm, 148, rfl⟩
abbrev main_cst_16 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_cst_17 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_call2_v0 : Ref sig .tc := ⟨.hbm, 167, rfl⟩
abbrev main_call2_cst : Ref sig .tc := ⟨.hbm, 168, rfl⟩
abbrev main_call2_v1 : Ref sig .tc := ⟨.hbm, 169, rfl⟩
abbrev main_call2_v2 : Ref sig .tc := ⟨.hbm, 170, rfl⟩
abbrev main_v129 : Ref sig .tc := ⟨.hbm, 171, rfl⟩
abbrev main_cst_18 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩

abbrev nD : Nat := 1
abbrev τ : Topo := Topo.v7x

variable {F : FTy → Type} [FloatOps F]

class Facts₀ : Prop where
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S2x512000_S1x512000_0_0 : S2x512000.Slices ![0, 0] S1x512000
  shapeCasts_S1x512000_S512000 : S1x512000.ShapeCasts S512000
  slices_S2x512000_S1x512000_1_0 : S2x512000.Slices ![1, 0] S1x512000
  bcast_S_S512000 : S_.BroadcastsInDim S512000 (![] : Fin 0 → Fin S512000.rank)
  bcast_S512000_S512000x1_0 : S512000.BroadcastsInDim S512000x1 (![0] : Fin 1 → Fin S512000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  slices_S3_S1_0 : S3.Slices ![0] S1
  shapeCasts_S1_S_ : S1.ShapeCasts S_
  slices_S3x128x128_S1x128x128_1_0_0 : S3x128x128.Slices ![1, 0, 0] S1x128x128
  slices_S3x128_S1x128_1_0 : S3x128.Slices ![1, 0] S1x128
  slices_S3_S1_1 : S3.Slices ![1] S1
  slices_S3x128x128_S1x128x128_2_0_0 : S3x128x128.Slices ![2, 0, 0] S1x128x128
  slices_S3x128_S1x128_2_0 : S3x128.Slices ![2, 0] S1x128
  slices_S3_S1_2 : S3.Slices ![2] S1
  concatenates_S50000x128_S50000x128_S50000x128_S50000x384_d1 : Shape.Concatenates [S50000x128, S50000x128, S50000x128] S50000x384 1
  transposes_S128x384_S384x128_1_0 : S128x384.Transposes [1, 0] S384x128
  gather_S50000x128_S512000x1_S512000x128_1_0_n_n_0_1_1128_wf : GatherDims.WF S50000x128 S512000x1 S512000x128 [1] [0] [] [0] [] 1 ![1, 128]
  scatter_S50000x128_S512000x1_S512000x128_1_0_0_1_wf : ScatterDims.WF S50000x128 S512000x1 S512000x128 [1] [0] [0] 1
  scatter_S50000_S512000x1_S512000_n_0_0_1_wf : ScatterDims.WF S50000 S512000x1 S512000 [] [0] [0] 1
  dot_S50000x128_S128x128_S50000x128_1_0_0_1_n_n_wf : DotDims.WF S50000x128 S128x128 S50000x128 [1] [0] [0] [1] [] []
  dot_S50000x384_S384x128_S50000x128_1_0_0_1_n_n_wf : DotDims.WF S50000x384 S384x128 S50000x128 [1] [0] [0] [1] [] []

variable [Facts₀]

def gather_S50000x128_S512000x1_S512000x128_1_0_n_n_0_1_1128 : GatherDims S50000x128 S512000x1 S512000x128 where
  offsetDims := [1]
  collapsedSliceDims := [0]
  operandBatchingDims := []
  startIndicesBatchingDims := []
  startIndexMap := [0]
  indexVectorDim := 1
  sliceSizes := ![1, 128]
  wf := gather_S50000x128_S512000x1_S512000x128_1_0_n_n_0_1_1128_wf
def scatter_S50000x128_S512000x1_S512000x128_1_0_0_1 : ScatterDims S50000x128 S512000x1 S512000x128 where
  updateWindowDims := [1]
  insertedWindowDims := [0]
  scatterDimsToOperandDims := [0]
  indexVectorDim := 1
  wf := scatter_S50000x128_S512000x1_S512000x128_1_0_0_1_wf
def scatter_S50000_S512000x1_S512000_n_0_0_1 : ScatterDims S50000 S512000x1 S512000 where
  updateWindowDims := []
  insertedWindowDims := [0]
  scatterDimsToOperandDims := [0]
  indexVectorDim := 1
  wf := scatter_S50000_S512000x1_S512000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf

class Facts : Prop extends Facts₀ where

variable [Facts]
-- ==== Proof.Entry.lean ====
/-
  The arrays as the one region of the kernel's @main finds them.

  @main is 106 host operations and then the region. The host operations write only their own
  result buffers (the three segment sums and their counts, the packed reciprocal counts, the
  transposed weights, the attention-scaled output weights): none writes an argument array, so the
  region finds every argument as launched. Window `w`'s block at grid point `t` is the rectangle
  of its array the index map names there; an input window's staging buffer holds that block at
  every point, whether the pipeline fetched it at that point or left it in place.
-/
import proofs.«149329_j48928267436146_2_alg».proof.Proof.Gen.Kernel.Launch
import proofs.«149329_j48928267436146_2_alg».proof.Proof.Gen.Kernel.Skeleton
import proofs.«149329_j48928267436146_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Entry

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the region -/

/-- Core `c`'s buffers when the region is entered: the launch contents after the host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not. -/
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not. -/
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

end Cert.Kernel.Entry

end
-- ==== Proof.Body.lean ====
/-
  What one grid point's body leaves in the output window's buffer, and the body's triple.

  The body reads its ten input buffers through literal rectangles (the three bf16 segment-sum
  blocks, the packed reciprocal counts, the node block, one 128×128 slab of each transposed weight
  per edge type, one bias row per edge type, the scaled output weights, the output bias) and stores
  ONE value over the whole output buffer: the payload `k0_pay1` of what the two printed parts
  return. So after the body the output buffer is that payload of the loads, whatever it held before.
-/
import proofs.«149329_j48928267436146_2_alg».proof.Proof.Entry

set_option maxRecDepth 16384

noncomputable section

namespace Cert.Kernel.Body

open Cert.Kernel Cert.Kernel.Gen Cert.Kernel.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's rectangles -/

/-- A whole 2000×128 block. -/
abbrev rRows : Rect S2000x128 := Rect.unit (s := S2000x128) ![0, 0] S2000x128.size inb_S2000x128_S2000x128_0_0
/-- The whole 2000×3 block of reciprocal counts. -/
abbrev rInv : Rect S2000x3 := Rect.unit (s := S2000x3) ![0, 0] S2000x3.size inb_S2000x3_S2000x3_0_0
/-- The output bias. -/
abbrev rBias : Rect S128 := Rect.unit (s := S128) ![0] S128.size inb_S128_S128_0
/-- Edge type 0, 1, 2's 128×128 slab of a stack of three. -/
abbrev rSlab0 : Rect S3x128x128 := Rect.unit (s := S3x128x128) ![0, 0, 0] S1x128x128.size inb_S3x128x128_S1x128x128_0_0_0
abbrev rSlab1 : Rect S3x128x128 := Rect.unit (s := S3x128x128) ![1, 0, 0] S1x128x128.size inb_S3x128x128_S1x128x128_1_0_0
abbrev rSlab2 : Rect S3x128x128 := Rect.unit (s := S3x128x128) ![2, 0, 0] S1x128x128.size inb_S3x128x128_S1x128x128_2_0_0
/-- Edge type 0, 1, 2's row of the three bias rows. -/
abbrev rRow0 : Rect S3x128 := Rect.unit (s := S3x128) ![0, 0] S1x128.size inb_S3x128_S1x128_0_0
abbrev rRow1 : Rect S3x128 := Rect.unit (s := S3x128) ![1, 0] S1x128.size inb_S3x128_S1x128_1_0
abbrev rRow2 : Rect S3x128 := Rect.unit (s := S3x128) ![2, 0] S1x128.size inb_S3x128_S1x128_2_0
/-- The whole 384×128 output weight. -/
abbrev rOutW : Rect S384x128 := Rect.unit (s := S384x128) ![0, 0] S384x128.size inb_S384x128_S384x128_0_0

/-! ## What the body stores -/

/-- The value the body stores over the whole output block, from the ten input blocks: the payload of the
    printed parts' returns, each a payload of the loads. `a0 a1 a2` are the segment-sum blocks, `ic` the
    reciprocal counts, `x` the node block, `wl`/`wr` the transposed weights, `bl` the biases, `wc` the scaled
    output weights, `bc` the output bias. -/
def stored (a0 a1 a2 : Vec F S2000x128 .bf16) (ic : Vec F S2000x3 .f32) (x : Vec F S2000x128 .f32)
    (wl : Vec F S3x128x128 .f32) (bl : Vec F S3x128 .f32) (wr : Vec F S3x128x128 .f32) (wc : Vec F S384x128 .f32)
    (bc : Vec F S128 .f32) : FVec F S2000x128 .f32 :=
  k0_pay1 (k0_pay2 (View.ld x rRows)) (View.ld bc rBias)
    (k0_pay4 (View.ld x rRows) (View.ld ic rInv) (View.ld a0 rRows) (View.ld wl rSlab0) (View.ld wr rSlab0) (View.ld bl rRow0))
    (k0_pay7 (k0_pay2 (View.ld x rRows)) (k0_pay5 (View.ld a1 rRows)) (k0_pay6 (View.ld ic rInv)) (View.ld wl rSlab1) (View.ld wr rSlab1) (View.ld bl rRow1))
    (k0_pay8 (k0_pay3 (View.ld ic rInv)) (View.ld a2 rRows)) (k0_pay9 (View.ld wl rSlab2)) (k0_pay10 (View.ld wr rSlab2))
    (View.ld bl rRow2) (View.ld wc rOutW)

/-- The output buffer after the body: its one store as a piece. -/
def out10 (a0 a1 a2 : Vec F S2000x128 .bf16) (ic : Vec F S2000x3 .f32) (x : Vec F S2000x128 .f32)
    (wl : Vec F S3x128x128 .f32) (bl : Vec F S3x128 .f32) (wr : Vec F S3x128x128 .f32) (wc : Vec F S384x128 .f32)
    (bc : Vec F S128 .f32) : Vec F S2000x128 .f32 :=
  View.canon [⟨rRows, stored a0 a1 a2 ic x wl bl wr wc bc⟩]

/-- The one store covers the buffer. -/
theorem cover10 (p0 : Vec F S2000x128 .f32) (y : S2000x128.Idx) :
    ∃ pc ∈ ([⟨rRows, p0⟩] : List (View.Piece (Elt F) S2000x128 .f32)), y ∈ pc.1.set :=
  View.cover_of_tiled [⟨rRows, p0⟩] S2000x128.size (by rfl) y

/-! ## The body's triple -/

set_option maxHeartbeats 4000000 in
/-- The body on whole staging buffers, the inputs' at contents `a0 … bc` and the output's at anything, runs to the
    continuation with the inputs' as they were and the output's at `out10` of the inputs'. -/
theorem sound_kernel (c : Dev nD) (E : Set ℕ) (i : grid0.Coords)
    (arg1 : Memref sig .tc .vmem S2000x128 .bf16) (harg1 : arg1.IsWhole)
    (arg2 : Memref sig .tc .vmem S2000x128 .bf16) (harg2 : arg2.IsWhole)
    (arg3 : Memref sig .tc .vmem S2000x128 .bf16) (harg3 : arg3.IsWhole)
    (arg4 : Memref sig .tc .vmem S2000x3 .f32) (harg4 : arg4.IsWhole)
    (arg5 : Memref sig .tc .vmem S2000x128 .f32) (harg5 : arg5.IsWhole)
    (arg6 : Memref sig .tc .vmem S3x128x128 .f32) (harg6 : arg6.IsWhole)
    (arg7 : Memref sig .tc .vmem S3x128 .f32) (harg7 : arg7.IsWhole)
    (arg8 : Memref sig .tc .vmem S3x128x128 .f32) (harg8 : arg8.IsWhole)
    (arg9 : Memref sig .tc .vmem S384x128 .f32) (harg9 : arg9.IsWhole)
    (arg10 : Memref sig .tc .vmem S128 .f32) (harg10 : arg10.IsWhole)
    (arg11 : Memref sig .tc .vmem S2000x128 .f32) (harg11 : arg11.IsWhole)
    (a0 a1 a2 : Vec F S2000x128 .bf16) (ic : Vec F S2000x3 .f32) (x : Vec F S2000x128 .f32)
    (wl : Vec F S3x128x128 .f32) (bl : Vec F S3x128 .f32) (wr : Vec F S3x128x128 .f32) (wc : Vec F S384x128 .f32)
    (bc : Vec F S128 .f32) (K : PUnit → sProp 𝕄) :
    iprop(owns (c : Thread nD τ) arg1 fullShare a0 ∗ owns (c : Thread nD τ) arg2 fullShare a1 ∗ owns (c : Thread nD τ) arg3 fullShare a2 ∗ owns (c : Thread nD τ) arg4 fullShare ic ∗ owns (c : Thread nD τ) arg5 fullShare x ∗ owns (c : Thread nD τ) arg6 fullShare wl ∗ owns (c : Thread nD τ) arg7 fullShare bl ∗ owns (c : Thread nD τ) arg8 fullShare wr ∗ owns (c : Thread nD τ) arg9 fullShare wc ∗ owns (c : Thread nD τ) arg10 fullShare bc
        ∗ (∃ d, owns (c : Thread nD τ) arg11 fullShare d)
        ∗ (iprop(owns (c : Thread nD τ) arg1 fullShare a0 ∗ owns (c : Thread nD τ) arg2 fullShare a1 ∗ owns (c : Thread nD τ) arg3 fullShare a2 ∗ owns (c : Thread nD τ) arg4 fullShare ic ∗ owns (c : Thread nD τ) arg5 fullShare x ∗ owns (c : Thread nD τ) arg6 fullShare wl ∗ owns (c : Thread nD τ) arg7 fullShare bl ∗ owns (c : Thread nD τ) arg8 fullShare wr ∗ owns (c : Thread nD τ) arg9 fullShare wc ∗ owns (c : Thread nD τ) arg10 fullShare bc
            ∗ owns (c : Thread nD τ) arg11 fullShare (out10 a0 a1 a2 ic x wl bl wr wc bc)) -∗ K ⟨⟩))
      ⊢ wp frame (wpE (defs₀ (F := F)) Variants.none c none) E
          (cc0__combine_kernel i arg1 harg1 arg2 harg2 arg3 harg3 arg4 harg4 arg5 harg5 arg6 harg6 arg7 harg7 arg8 harg8 arg9 harg9 arg10 harg10 arg11 harg11) K := by
  simp only [cc0__combine_kernel_eq_skeleton]; unfold cc0__combine_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover10 _)

end Cert.Kernel.Body

end
-- ==== Proof.Run.lean ====
/-
  The kernel's run, at the word level: the proof data of its one pipeline, the body obligation at every grid
  point, the launch, and the frame.

  After the body at point `t` every input buffer still holds its block and the output buffer holds
  the stored value of the ten input blocks at `t`. The launch theorem then gives: every weakly fair
  execution of @main terminates without a fault, the output array ends at what the write-backs of
  those buffers make it, and every other unscoped buffer — the arguments among them — ends as the
  region found it, which for an argument is as launched.
-/
import proofs.«149329_j48928267436146_2_alg».proof.Proof.Body

set_option maxRecDepth 16384

noncomputable section

namespace Cert.Kernel.Run

open Cert.Kernel Cert.Kernel.Gen Cert.Kernel.Entry Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The pipeline's proof data on core `c`: the arrays as the region finds them; after the body at point `t` each
    input's buffer at its block and the output's at the stored value of the input blocks; the invariant holds the
    scoped rest and the generator register untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = out10 (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 4000000 in
/-- The body at any point: the inputs' buffers hold their blocks, so the body's triple applies; the invariant
    and the core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters: every weakly fair execution of @main terminates, every array of the pipeline
    ends at what the write-backs make it, every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the run terminates, faults nowhere, and the ten argument arrays end as launched — a staged argument
    (the node features, the biases, the output bias) read off its window's array, which an input window never
    changes; the others are buffers no window stages. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 4).trans ((((dats m) 0 c).arrAt_in 4 rfl _).trans ((A_eq m c 4).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 6).trans ((((dats m) 0 c).arrAt_in 6 rfl _).trans ((A_eq m c 6).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 9).trans ((((dats m) 0 c).arrAt_in 9 rfl _).trans ((A_eq m c 9).trans (V_main_arg9 m c)))⟩) (run_main m ρ)

end Cert.Kernel.Run

end
-- ==== Proof.EntryIdeal.lean ====
/-
  The arrays as the one region of the idealized kernel's @main finds them.

  @main is 106 host operations and then the region. The host operations write only their own
  result buffers (the three segment sums and their counts, the packed reciprocal counts, the
  transposed weights, the attention-scaled output weights): none writes an argument array, so the
  region finds every argument as launched. Window `w`'s block at grid point `t` is the rectangle
  of its array the index map names there; an input window's staging buffer holds that block at
  every point, whether the pipeline fetched it at that point or left it in place.
-/
import proofs.«149329_j48928267436146_2_alg».proof.Proof.Gen.KernelIdeal.Launch
import proofs.«149329_j48928267436146_2_alg».proof.Proof.Gen.KernelIdeal.Skeleton
import proofs.«149329_j48928267436146_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Entry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the region -/

/-- Core `c`'s buffers when the region is entered: the launch contents after the host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not. -/
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not. -/
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Entry

end
-- ==== Proof.BodyIdeal.lean ====
/-
  What one grid point's body leaves in the output window's buffer, and the body's triple.

  The body reads its ten input buffers through literal rectangles (the three bf16 segment-sum
  blocks, the packed reciprocal counts, the node block, one 128×128 slab of each transposed weight
  per edge type, one bias row per edge type, the scaled output weights, the output bias) and stores
  ONE value over the whole output buffer: the payload `k0_pay1` of what the two printed parts
  return. So after the body the output buffer is that payload of the loads, whatever it held before.
-/
import proofs.«149329_j48928267436146_2_alg».proof.Proof.EntryIdeal

set_option maxRecDepth 16384

noncomputable section

namespace Cert.KernelIdeal.Body

open Cert.KernelIdeal Cert.KernelIdeal.Gen Cert.KernelIdeal.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's rectangles -/

/-- A whole 2000×128 block. -/
abbrev rRows : Rect S2000x128 := Rect.unit (s := S2000x128) ![0, 0] S2000x128.size inb_S2000x128_S2000x128_0_0
/-- The whole 2000×3 block of reciprocal counts. -/
abbrev rInv : Rect S2000x3 := Rect.unit (s := S2000x3) ![0, 0] S2000x3.size inb_S2000x3_S2000x3_0_0
/-- The output bias. -/
abbrev rBias : Rect S128 := Rect.unit (s := S128) ![0] S128.size inb_S128_S128_0
/-- Edge type 0, 1, 2's 128×128 slab of a stack of three. -/
abbrev rSlab0 : Rect S3x128x128 := Rect.unit (s := S3x128x128) ![0, 0, 0] S1x128x128.size inb_S3x128x128_S1x128x128_0_0_0
abbrev rSlab1 : Rect S3x128x128 := Rect.unit (s := S3x128x128) ![1, 0, 0] S1x128x128.size inb_S3x128x128_S1x128x128_1_0_0
abbrev rSlab2 : Rect S3x128x128 := Rect.unit (s := S3x128x128) ![2, 0, 0] S1x128x128.size inb_S3x128x128_S1x128x128_2_0_0
/-- Edge type 0, 1, 2's row of the three bias rows. -/
abbrev rRow0 : Rect S3x128 := Rect.unit (s := S3x128) ![0, 0] S1x128.size inb_S3x128_S1x128_0_0
abbrev rRow1 : Rect S3x128 := Rect.unit (s := S3x128) ![1, 0] S1x128.size inb_S3x128_S1x128_1_0
abbrev rRow2 : Rect S3x128 := Rect.unit (s := S3x128) ![2, 0] S1x128.size inb_S3x128_S1x128_2_0
/-- The whole 384×128 output weight. -/
abbrev rOutW : Rect S384x128 := Rect.unit (s := S384x128) ![0, 0] S384x128.size inb_S384x128_S384x128_0_0

/-! ## What the body stores -/

/-- The value the body stores over the whole output block, from the ten input blocks: the payload of the
    printed parts' returns, each a payload of the loads. `a0 a1 a2` are the segment-sum blocks, `ic` the
    reciprocal counts, `x` the node block, `wl`/`wr` the transposed weights, `bl` the biases, `wc` the scaled
    output weights, `bc` the output bias. -/
def stored (a0 a1 a2 : Vec F S2000x128 .bf16) (ic : Vec F S2000x3 .f32) (x : Vec F S2000x128 .f32)
    (wl : Vec F S3x128x128 .f32) (bl : Vec F S3x128 .f32) (wr : Vec F S3x128x128 .f32) (wc : Vec F S384x128 .f32)
    (bc : Vec F S128 .f32) : FVec F S2000x128 .f32 :=
  k0_pay1 (k0_pay2 (View.ld x rRows)) (View.ld bc rBias)
    (k0_pay4 (View.ld x rRows) (View.ld ic rInv) (View.ld a0 rRows) (View.ld wl rSlab0) (View.ld wr rSlab0) (View.ld bl rRow0))
    (k0_pay7 (k0_pay2 (View.ld x rRows)) (k0_pay5 (View.ld a1 rRows)) (k0_pay6 (View.ld ic rInv)) (View.ld wl rSlab1) (View.ld wr rSlab1) (View.ld bl rRow1))
    (k0_pay8 (k0_pay3 (View.ld ic rInv)) (View.ld a2 rRows)) (k0_pay9 (View.ld wl rSlab2)) (k0_pay10 (View.ld wr rSlab2))
    (View.ld bl rRow2) (View.ld wc rOutW)

/-- The output buffer after the body: its one store as a piece. -/
def out10 (a0 a1 a2 : Vec F S2000x128 .bf16) (ic : Vec F S2000x3 .f32) (x : Vec F S2000x128 .f32)
    (wl : Vec F S3x128x128 .f32) (bl : Vec F S3x128 .f32) (wr : Vec F S3x128x128 .f32) (wc : Vec F S384x128 .f32)
    (bc : Vec F S128 .f32) : Vec F S2000x128 .f32 :=
  View.canon [⟨rRows, stored a0 a1 a2 ic x wl bl wr wc bc⟩]

/-- The one store covers the buffer. -/
theorem cover10 (p0 : Vec F S2000x128 .f32) (y : S2000x128.Idx) :
    ∃ pc ∈ ([⟨rRows, p0⟩] : List (View.Piece (Elt F) S2000x128 .f32)), y ∈ pc.1.set :=
  View.cover_of_tiled [⟨rRows, p0⟩] S2000x128.size (by rfl) y

/-! ## The body's triple -/

set_option maxHeartbeats 4000000 in
/-- The body on whole staging buffers, the inputs' at contents `a0 … bc` and the output's at anything, runs to the
    continuation with the inputs' as they were and the output's at `out10` of the inputs'. -/
theorem sound_kernel (c : Dev nD) (E : Set ℕ) (i : grid0.Coords)
    (arg1 : Memref sig .tc .vmem S2000x128 .bf16) (harg1 : arg1.IsWhole)
    (arg2 : Memref sig .tc .vmem S2000x128 .bf16) (harg2 : arg2.IsWhole)
    (arg3 : Memref sig .tc .vmem S2000x128 .bf16) (harg3 : arg3.IsWhole)
    (arg4 : Memref sig .tc .vmem S2000x3 .f32) (harg4 : arg4.IsWhole)
    (arg5 : Memref sig .tc .vmem S2000x128 .f32) (harg5 : arg5.IsWhole)
    (arg6 : Memref sig .tc .vmem S3x128x128 .f32) (harg6 : arg6.IsWhole)
    (arg7 : Memref sig .tc .vmem S3x128 .f32) (harg7 : arg7.IsWhole)
    (arg8 : Memref sig .tc .vmem S3x128x128 .f32) (harg8 : arg8.IsWhole)
    (arg9 : Memref sig .tc .vmem S384x128 .f32) (harg9 : arg9.IsWhole)
    (arg10 : Memref sig .tc .vmem S128 .f32) (harg10 : arg10.IsWhole)
    (arg11 : Memref sig .tc .vmem S2000x128 .f32) (harg11 : arg11.IsWhole)
    (a0 a1 a2 : Vec F S2000x128 .bf16) (ic : Vec F S2000x3 .f32) (x : Vec F S2000x128 .f32)
    (wl : Vec F S3x128x128 .f32) (bl : Vec F S3x128 .f32) (wr : Vec F S3x128x128 .f32) (wc : Vec F S384x128 .f32)
    (bc : Vec F S128 .f32) (K : PUnit → sProp 𝕄) :
    iprop(owns (c : Thread nD τ) arg1 fullShare a0 ∗ owns (c : Thread nD τ) arg2 fullShare a1 ∗ owns (c : Thread nD τ) arg3 fullShare a2 ∗ owns (c : Thread nD τ) arg4 fullShare ic ∗ owns (c : Thread nD τ) arg5 fullShare x ∗ owns (c : Thread nD τ) arg6 fullShare wl ∗ owns (c : Thread nD τ) arg7 fullShare bl ∗ owns (c : Thread nD τ) arg8 fullShare wr ∗ owns (c : Thread nD τ) arg9 fullShare wc ∗ owns (c : Thread nD τ) arg10 fullShare bc
        ∗ (∃ d, owns (c : Thread nD τ) arg11 fullShare d)
        ∗ (iprop(owns (c : Thread nD τ) arg1 fullShare a0 ∗ owns (c : Thread nD τ) arg2 fullShare a1 ∗ owns (c : Thread nD τ) arg3 fullShare a2 ∗ owns (c : Thread nD τ) arg4 fullShare ic ∗ owns (c : Thread nD τ) arg5 fullShare x ∗ owns (c : Thread nD τ) arg6 fullShare wl ∗ owns (c : Thread nD τ) arg7 fullShare bl ∗ owns (c : Thread nD τ) arg8 fullShare wr ∗ owns (c : Thread nD τ) arg9 fullShare wc ∗ owns (c : Thread nD τ) arg10 fullShare bc
            ∗ owns (c : Thread nD τ) arg11 fullShare (out10 a0 a1 a2 ic x wl bl wr wc bc)) -∗ K ⟨⟩))
      ⊢ wp frame (wpE (defs₀ (F := F)) Variants.none c none) E
          (cc0__combine_kernel i arg1 harg1 arg2 harg2 arg3 harg3 arg4 harg4 arg5 harg5 arg6 harg6 arg7 harg7 arg8 harg8 arg9 harg9 arg10 harg10 arg11 harg11) K := by
  simp only [cc0__combine_kernel_eq_skeleton]; unfold cc0__combine_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover10 _)

end Cert.KernelIdeal.Body

end
-- ==== Proof.RunIdeal.lean ====
/-
  The idealized kernel's run: the proof data of its one pipeline, the body obligation at every grid
  point, the launch, and the frame.

  After the body at point `t` every input buffer still holds its block and the output buffer holds
  the stored value of the ten input blocks at `t`. The launch theorem then gives: every weakly fair
  execution of @main terminates without a fault, the output array ends at what the write-backs of
  those buffers make it, and every other unscoped buffer — the arguments among them — ends as the
  region found it, which for an argument is as launched.
-/
import proofs.«149329_j48928267436146_2_alg».proof.Proof.BodyIdeal

set_option maxRecDepth 16384

noncomputable section

namespace Cert.KernelIdeal.Run

open Cert.KernelIdeal Cert.KernelIdeal.Gen Cert.KernelIdeal.Entry Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The pipeline's proof data on core `c`: the arrays as the region finds them; after the body at point `t` each
    input's buffer at its block and the output's at the stored value of the input blocks; the invariant holds the
    scoped rest and the generator register untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = out10 (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 4000000 in
/-- The body at any point: the inputs' buffers hold their blocks, so the body's triple applies; the invariant
    and the core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters: every weakly fair execution of @main terminates, every array of the pipeline
    ends at what the write-backs make it, every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the run terminates, faults nowhere, and the ten argument arrays end as launched — a staged argument
    (the node features, the biases, the output bias) read off its window's array, which an input window never
    changes; the others are buffers no window stages. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 4).trans ((((dats m) 0 c).arrAt_in 4 rfl _).trans ((A_eq m c 4).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 6).trans ((((dats m) 0 c).arrAt_in 6 rfl _).trans ((A_eq m c 6).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 9).trans ((((dats m) 0 c).arrAt_in 9 rfl _).trans ((A_eq m c 9).trans (V_main_arg9 m c)))⟩) (run_main m ρ)

end Cert.KernelIdeal.Run

end
-- ==== Proof.SageSpec.lean ====
/-
  The relational-graph layer both programs compute, as two functions of the same data, and the
  law that joins them.

  Data (extended reals): `A e n k` the sum over edge type `e`'s edges into node `n` of the source
  node's feature `k`; `C e n` the number of those edges; `X n k` the node features; `WL e j k`,
  `BL e j`, `WR e j k` the neighbour weights, their bias and the root weights of edge type `e`;
  `AT e` its attention factor; `WC o q`, `BC o` the combining weights over the 3·128 concatenated
  features and their bias.

  For each edge type the layer takes the mean of the incoming features, `A / max C 1`, maps it
  by `WL`, adds the bias and the root term `X · WRᵀ`, and divides each node's row by its Euclidean
  norm (at least 1e-12). The reference divides the sums by the clamped count and scales each edge
  type's normalised rows by its attention factor before combining; the kernel multiplies the sums
  by the reciprocal of the clamped count and folds the attention factor into the combining weights.

  The two agree on ALL extended reals: a clamped count is at least one, so never zero, and off zero
  the quotient `a / c` is `a · c⁻¹` = `a · (1 / c)`; and moving a factor from one side of a product
  to the other is commutativity and associativity of the product. Nothing here uses finiteness.
-/
import Idealize.ShloMosaic.PureOps.Ideal
import Idealize.ShloMosaic.PureOps.Ideal.Laws
import Idealize.ShloMosaic.Lib.IdealHost

noncomputable section

namespace Cert.SageSpec

open Idealize.ShloMosaic

/-- The lower clamp of a row's norm: the f32 nearest 1e-12, as its exact binary value. -/
abbrev eps : EReal := Ideal.ofBits .f32 0x2B8CBCCC#32

/-- Column `q` of the three concatenated 128-wide pieces lies in piece `seg q`, -/
def seg (q : Fin 384) : Fin 3 := ⟨q.val / 128, by have := q.isLt; omega⟩
/-- at column `off q` of it. -/
def off (q : Fin 384) : Fin 128 := ⟨q.val % 128, Nat.mod_lt _ (by decide)⟩

section
variable (A : Fin 3 → Fin 50000 → Fin 128 → EReal) (C : Fin 3 → Fin 50000 → EReal)
  (X : Fin 50000 → Fin 128 → EReal) (WL WR : Fin 3 → Fin 128 → Fin 128 → EReal) (BL : Fin 3 → Fin 128 → EReal)
  (AT : Fin 3 → EReal) (WC : Fin 128 → Fin 384 → EReal) (BC : Fin 128 → EReal)

/-- A node's clamped in-degree: at least one. -/
def deg (e : Fin 3) (n : Fin 50000) : EReal := max (C e n) 1

/-- The mean of the incoming features as the reference takes it: the sum over the clamped count. -/
def meanR (e : Fin 3) (n : Fin 50000) (k : Fin 128) : EReal := Ideal.div (A e n k) (deg C e n)

/-- The mean as the kernel takes it: the sum times the reciprocal of the clamped count. -/
def meanK (e : Fin 3) (n : Fin 50000) (k : Fin 128) : EReal := A e n k * Ideal.div 1 (deg C e n)

/-- One edge type's layer output before normalisation, from a mean `M`: neighbours, bias, root. -/
def hid (M : Fin 3 → Fin 50000 → Fin 128 → EReal) (e : Fin 3) (n : Fin 50000) (j : Fin 128) : EReal :=
  ((∑ k : Fin 128, M e n k * WL e j k) + BL e j) + ∑ k : Fin 128, X n k * WR e j k

/-- A row divided by its Euclidean norm, the norm clamped below at `eps`. -/
def unit (h : Fin 3 → Fin 50000 → Fin 128 → EReal) (e : Fin 3) (n : Fin 50000) (j : Fin 128) : EReal :=
  Ideal.div (h e n j) (max (Ideal.sqrt (∑ j' : Fin 128, h e n j' * h e n j')) eps)

/-- The reference's result: normalised rows scaled by the attention factor, concatenated, combined. -/
def outR (n : Fin 50000) (o : Fin 128) : EReal :=
  (∑ q : Fin 384, (unit (hid X WL WR BL (meanR A C)) (seg q) n (off q) * AT (seg q)) * WC o q) + BC o

/-- The kernel's result: normalised rows concatenated, combined by weights that carry the attention factor. -/
def outK (n : Fin 50000) (o : Fin 128) : EReal :=
  (∑ q : Fin 384, unit (hid X WL WR BL (meanK A C)) (seg q) n (off q) * (WC o q * AT (seg q))) + BC o

/-- A clamped count is not zero. -/
theorem deg_ne_zero (e : Fin 3) (n : Fin 50000) : deg C e n ≠ 0 := by
  have h : (1 : EReal) ≤ deg C e n := le_max_right _ _
  intro h0
  rw [h0] at h
  exact absurd h (by norm_num)

/-- The two means are one: off zero, a quotient is the product with the reciprocal. -/
theorem meanK_eq_meanR : meanK A C = meanR A C := by
  funext e n k
  exact Ideal.mul_one_div (deg_ne_zero C e n)

/-- The two results are one function: the means agree, and in each term of the combining sum the attention
    factor moves from the left factor to the right one. -/
theorem outK_eq_outR : outK A C X WL WR BL AT WC BC = outR A C X WL WR BL AT WC BC := by
  funext n o
  unfold outK outR
  rw [meanK_eq_meanR]
  congr 1
  refine Finset.sum_congr rfl fun q _ => ?_
  rw [mul_assoc, mul_comm (AT (seg q))]

end

end Cert.SageSpec

end
-- ==== Proof.SageRow.lean ====
/-
  The layer one node at a time.

  Every step of the layer acts on one node's row: the result at node `n` depends only on row `n` of
  the segment sums, the counts and the features. These are the same functions as in the
  specification, written for a single row, so that a block of rows of an array can be compared with
  the rows of the array itself.
-/
import proofs.«149329_j48928267436146_2_alg».proof.Proof.SageSpec

noncomputable section

namespace Cert.SageSpec

open Idealize.ShloMosaic

/-- One edge type's layer output for one node, before normalisation: from the node's mean row `mrow`, its own
    features `x`, and the edge type's weights `wl j k`, `wr j k` and bias `b j`. -/
def rowHid (mrow x : Fin 128 → EReal) (wl wr : Fin 128 → Fin 128 → EReal) (b : Fin 128 → EReal) (j : Fin 128) : EReal :=
  ((∑ k : Fin 128, mrow k * wl j k) + b j) + ∑ k : Fin 128, x k * wr j k

/-- A row divided by its Euclidean norm, the norm clamped below at `eps`. -/
def rowUnit (h : Fin 128 → EReal) (j : Fin 128) : EReal :=
  Ideal.div (h j) (max (Ideal.sqrt (∑ j' : Fin 128, h j' * h j')) eps)

/-- The kernel's result for one node: its three normalised rows side by side, combined by weights `wcs q o` that
    already carry the attention factors, plus the bias. -/
def rowOutK (mrow : Fin 3 → Fin 128 → EReal) (x : Fin 128 → EReal) (WL WR : Fin 3 → Fin 128 → Fin 128 → EReal)
    (BL : Fin 3 → Fin 128 → EReal) (wcs : Fin 384 → Fin 128 → EReal) (BC : Fin 128 → EReal) (o : Fin 128) : EReal :=
  (∑ q : Fin 384, rowUnit (rowHid (mrow (seg q)) x (WL (seg q)) (WR (seg q)) (BL (seg q))) (off q) * wcs q o) + BC o

/-- The kernel's result at node `n` is the one-node function of row `n` of its data. -/
theorem outK_eq_row (A : Fin 3 → Fin 50000 → Fin 128 → EReal) (C : Fin 3 → Fin 50000 → EReal)
    (X : Fin 50000 → Fin 128 → EReal) (WL WR : Fin 3 → Fin 128 → Fin 128 → EReal) (BL : Fin 3 → Fin 128 → EReal)
    (AT : Fin 3 → EReal) (WC : Fin 128 → Fin 384 → EReal) (BC : Fin 128 → EReal) (n : Fin 50000) (o : Fin 128) :
    outK A C X WL WR BL AT WC BC n o
      = rowOutK (fun e k => A e n k * Ideal.div 1 (max (C e n) 1)) (X n) WL WR BL (fun q o => WC o q * AT (seg q)) BC o := rfl

end Cert.SageSpec

end
-- ==== Proof.LibColumn.lean ====
/-
  A column broadcast along the lanes, read by coordinates.
-/
import Idealize.ShloMosaic.Lib.Pipeline.Value
import Idealize.ShloMosaic.Lib.ValueIdx

namespace Idealize.ShloMosaic.ValueIdx

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LayerIdeal.lean ====
/-
  The body's arithmetic in three named pieces, and each piece read at an index on the extended reals.

  Every edge type's part of the body is the same three steps on a block of 2000 rows:
  the mean block (a segment-sum block times one column of the reciprocal counts), the 128×128 slab
  of a stacked weight, and the normalised rows: (mean · slab + bias) + (features · slab), each row
  divided by its norm clamped at 1e-12. The last step concatenates the three normalised blocks and
  multiplies by the 384×128 output weights, plus the output bias. The printed payloads are
  compositions of these pieces. On the extended reals a change of float format is the identity, a
  matrix product into a zero accumulator is the plain sum of products, and a lane sum from zero is
  the plain sum, so each piece reads as the one-node functions of the specification.
-/
import proofs.«149329_j48928267436146_2_alg».proof.Proof.Gen.KernelIdeal.Skeleton
import proofs.«149329_j48928267436146_2_alg».proof.Proof.SageRow
import proofs.«149329_j48928267436146_2_alg».proof.Proof.LibColumn
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Layer

open Cert.KernelIdeal Cert.KernelIdeal.Gen Cert.SageSpec
open Idealize.ShloMosaic Idealize.ShloMosaic.ValueIdx

/-! ## The pieces, at any instance -/

section AnyInstance
variable {F : FTy → Type} [FloatOps F]

/-- The mean block: a segment-sum block times column `o` of the reciprocal counts, row by row. -/
def meanBlk (o : Nat) (ho : S2000x3.Slices ![0, o] S2000x1) (a : Vec F S2000x128 .bf16) (ic : FVec F S2000x3 .f32) :
    FVec F S2000x128 .bf16 :=
  truncf .bf16 (mulf (extf .f32 (shapeCast S2000x128 a shapeCasts_S2000x128_S2000x128) bitsLt_bf16_f32)
    (broadcastTo S2000x128 (extractStridedSlice S2000x1 ![0, o] ic ho) broadcasts_S2000x1_S2000x128)) bitsLt_bf16_f32

/-- One 128×128 slab of a stack, as loaded through a [1,128,128] rectangle. -/
def slab (w : Vec F S1x128x128 .f32) : FVec F S128x128 .bf16 :=
  truncf .bf16 (shapeCast S128x128 w shapeCasts_S1x128x128_S128x128) bitsLt_bf16_f32

/-- One bias row, as loaded through a [1,128] rectangle. -/
def biasRow (b : Vec F S1x128 .f32) : FVec F S128 .f32 := shapeCast S128 b shapeCasts_S1x128_S128

/-- The layer output before normalisation on a block: (mean · wl + b) + (x · wr). -/
def hidBlk (mb : FVec F S2000x128 .bf16) (wl wr : FVec F S128x128 .bf16) (b : FVec F S128 .f32) (xb : FVec F S2000x128 .bf16) :
    FVec F S2000x128 .f32 :=
  addf (addf (matmul dot_S2000x128_S128x128_S2000x128_1_0_0_1_n_n none mb wl (constant S2000x128 .f32 0x00000000#32))
      (broadcastTo S2000x128 (shapeCast S1x128 b shapeCasts_S128_S1x128) broadcasts_S1x128_S2000x128))
    (matmul dot_S2000x128_S128x128_S2000x128_1_0_0_1_n_n none xb wr (constant S2000x128 .f32 0x00000000#32))

/-- A block's rows divided by their norms, each norm clamped below at 1e-12. -/
def unitBlk (h : FVec F S2000x128 .f32) : FVec F S2000x128 .f32 :=
  divf h (broadcastTo S2000x128 (maximumf (sqrt (shapeCast S2000x1
      (multiReduction .add [1] S2000 (mulf h h) 0x00000000#32 reduces_S2000x128_S2000 (.inl rfl) rfl) shapeCasts_S2000_S2000x1))
    (broadcast S2000x1 (Scalar.ofBits .f32 0x2B8CBCCC#32))) broadcasts_S2000x1_S2000x128)

/-- The last step: the three normalised blocks side by side, times the output weights, plus the output bias. -/
def combine (u0 u1 u2 : FVec F S2000x128 .f32) (wc : Vec F S384x128 .f32) (bc : Vec F S128 .f32) : FVec F S2000x128 .f32 :=
  addf (matmul dot_S2000x384_S384x128_S2000x128_1_0_0_1_n_n none
      (truncf .bf16 (concatenate S2000x384 1 [⟨S2000x128, u0⟩, ⟨S2000x128, u1⟩, ⟨S2000x128, u2⟩]
        concatenates_S2000x128_S2000x128_S2000x128_S2000x384_d1) bitsLt_bf16_f32)
      (truncf .bf16 (shapeCast S384x128 wc shapeCasts_S384x128_S384x128) bitsLt_bf16_f32) (constant S2000x128 .f32 0x00000000#32))
    (broadcastTo S2000x128 (shapeCast S1x128 bc shapeCasts_S128_S1x128) broadcasts_S1x128_S2000x128)

/-! ## The printed payloads are these pieces composed -/

theorem pay4_eq (v0 : Vec F S2000x128 .f32) (v2 : Vec F S2000x3 .f32) (v5 : Vec F S2000x128 .bf16) (v12 v15 : Vec F S1x128x128 .f32)
    (v18 : Vec F S1x128 .f32) :
    k0_pay4 v0 v2 v5 v12 v15 v18
      = unitBlk (hidBlk (meanBlk 0 slices_S2000x3_o0_0_S2000x1 v5 (k0_pay3 v2)) (slab v12) (slab v15) (biasRow v18) (k0_pay2 v0)) := rfl

theorem pay7_eq (v1 : FVec F S2000x128 .bf16) (v34 : Vec F S2000x128 .bf16) (v2 : Vec F S2000x3 .f32) (v41 v44 : Vec F S1x128x128 .f32)
    (v47 : Vec F S1x128 .f32) :
    k0_pay7 v1 (k0_pay5 v34) (k0_pay6 v2) v41 v44 v47
      = unitBlk (hidBlk (meanBlk 1 slices_S2000x3_o0_1_S2000x1 v34 (k0_pay3 v2)) (slab v41) (slab v44) (biasRow v47) v1) := rfl

theorem pay8_eq (v3 : FVec F S2000x3 .f32) (v63 : Vec F S2000x128 .bf16) :
    k0_pay8 v3 v63 = meanBlk 2 slices_S2000x3_o0_2_S2000x1 v63 v3 := rfl

theorem pay1_eq (v1 : FVec F S2000x128 .bf16) (v4 : Vec F S128 .f32) (v33 v62 : FVec F S2000x128 .f32) (v69 : FVec F S2000x128 .bf16)
    (v70 v73 : Vec F S1x128x128 .f32) (v76 : Vec F S1x128 .f32) (v94 : Vec F S384x128 .f32) :
    k0_pay1 v1 v4 v33 v62 v69 (k0_pay9 v70) (k0_pay10 v73) v76 v94
      = combine v33 v62 (unitBlk (hidBlk v69 (slab v70) (slab v73) (biasRow v76) v1)) v94 v4 := rfl

end AnyInstance

/-! ## The pieces on the extended reals, at an index -/

/-- The mean block at (r, k): the segment sum times row r's reciprocal count of edge type e. -/
theorem meanBlk_apply (o : Nat) (ho : S2000x3.Slices ![0, o] S2000x1) (a : Vec Ideal S2000x128 .bf16) (ic : FVec Ideal S2000x3 .f32)
    (r : Fin 2000) (k : Fin 128) (e : Fin 3) (he : e.val = o) :
    meanBlk o ho a ic (ix2 r k) = a (ix2 r k) * ic (ix2 r e) := by
  unfold meanBlk
  rw [truncf_apply, mulf_apply, extf_apply, shapeCast_self, broadcastTo_a1_ab_apply,
    slice2_axis1_apply o ic ho r (0 : Fin 1) e (by rw [he]; rfl)]

/-- A slab at (k, j): the stack's entry (0, k, j) of the loaded rectangle. -/
theorem slab_apply (w : Vec Ideal S1x128x128 .f32) (k j : Fin 128) : slab w (ix2 k j) = w (ix3 (0 : Fin 1) k j) := by
  unfold slab
  rw [truncf_apply, shapeCast_1ab_ab_apply]

/-- A bias row at j. -/
theorem biasRow_apply (b : Vec Ideal S1x128 .f32) (j : Fin 128) : biasRow b (ix1 j) = b (ix2 (0 : Fin 1) j) := by
  unfold biasRow
  exact shapeCast_1a_a_apply b _ j

end Cert.KernelIdeal.Layer

end
-- ==== Proof.LayerReadIdeal.lean ====
/-
  The normalised rows and the combining step read at an index on the extended reals.

  A product of a 2000-row block with a 128-column matrix, into a zero accumulator, is at (r, j) the
  sum over k of block(r, k) · matrix(k, j). The layer output on a block is therefore, row by row,
  the one-node function `rowHid` of the block's rows; dividing by the clamped norm gives `rowUnit`;
  and the combining product over the 384 concatenated columns gives `rowOutK`: column q of the
  concatenation is column q mod 128 of piece q div 128.
-/
import proofs.«149329_j48928267436146_2_alg».proof.Proof.LayerIdeal

set_option maxRecDepth 16384

noncomputable section

namespace Cert.KernelIdeal.Layer

open Cert.KernelIdeal Cert.KernelIdeal.Gen Cert.SageSpec
open Idealize.ShloMosaic Idealize.ShloMosaic.ValueIdx

theorem rows_lhs0 (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
theorem rows_rhs1 (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- A 2000×128 block times a 128×128 matrix, into zero: at (r, j) the sum over k of a(r,k) · w(k,j). -/
theorem matmul_rows (a : FVec Ideal S2000x128 .bf16) (w : FVec Ideal S128x128 .bf16) (r : Fin 2000) (j : Fin 128) :
    matmul dot_S2000x128_S128x128_S2000x128_1_0_0_1_n_n none a w (constant S2000x128 .f32 0x00000000#32) (ix2 r j)
      = ∑ k : Fin 128, a (ix2 r k) * w (ix2 k j) := by
  refine (Ideal.matmul_constant_zero_apply dot_S2000x128_S128x128_S2000x128_1_0_0_1_n_n none a w (ix2 r j)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r j) ((contrEquiv1 dot_S2000x128_S128x128_S2000x128_1_0_0_1_n_n 128 rfl rfl).symm k) = ix2 r k :=
    funext fun ax => Fin.ext (by
      match ax with
      | ⟨0, _⟩ => exact rows_lhs0 _ _
      | ⟨1, _⟩ => exact (dot_S2000x128_S128x128_S2000x128_1_0_0_1_n_n.lhsIdx_val_of_single rfl _ _).trans hk)
  have er : dot_S2000x128_S128x128_S2000x128_1_0_0_1_n_n.rhsIdx (ix2 r j) ((contrEquiv1 dot_S2000x128_S128x128_S2000x128_1_0_0_1_n_n 128 rfl rfl).symm k) = ix2 k j :=
    funext fun ax => Fin.ext (by
      match ax with
      | ⟨0, _⟩ => exact (dot_S2000x128_S128x128_S2000x128_1_0_0_1_n_n.rhsIdx_val_of_single rfl _ _).trans hk
      | ⟨1, _⟩ => exact rows_rhs1 _ _)
  rw [el, er]

theorem wide_lhs0 (i : S2000x128.Idx) (q : dot_S2000x384_S384x128_S2000x128_1_0_0_1_n_n.contr.Idx) : (dot_S2000x384_S384x128_S2000x128_1_0_0_1_n_n.lhsIdx i q 0).val = (i 0).val := by
  unfold DotDims.lhsIdx
  rw [dif_neg (show ¬(0 : Fin S2000x384.rank) ∈ dot_S2000x384_S384x128_S2000x128_1_0_0_1_n_n.lhsBatch by decide),
    dif_pos (show (0 : Fin S2000x384.rank) ∈ dot_S2000x384_S384x128_S2000x128_1_0_0_1_n_n.lhsNonContracting by decide)]
  rfl
theorem wide_rhs1 (i : S2000x128.Idx) (q : dot_S2000x384_S384x128_S2000x128_1_0_0_1_n_n.contr.Idx) : (dot_S2000x384_S384x128_S2000x128_1_0_0_1_n_n.rhsIdx i q 1).val = (i 1).val := by
  unfold DotDims.rhsIdx
  rw [dif_neg (show ¬(1 : Fin S384x128.rank) ∈ dot_S2000x384_S384x128_S2000x128_1_0_0_1_n_n.rhsBatch by decide),
    dif_pos (show (1 : Fin S384x128.rank) ∈ dot_S2000x384_S384x128_S2000x128_1_0_0_1_n_n.rhsNonContracting by decide)]
  rfl

/-- A 2000×384 block times a 384×128 matrix, into zero: at (r, j) the sum over q of a(r,q) · w(q,j). -/
theorem matmul_wide (a : FVec Ideal S2000x384 .bf16) (w : FVec Ideal S384x128 .bf16) (r : Fin 2000) (j : Fin 128) :
    matmul dot_S2000x384_S384x128_S2000x128_1_0_0_1_n_n none a w (constant S2000x128 .f32 0x00000000#32) (ix2 r j)
      = ∑ k : Fin 384, a (ix2 r k) * w (ix2 k j) := by
  refine (Ideal.matmul_constant_zero_apply dot_S2000x384_S384x128_S2000x128_1_0_0_1_n_n none a w (ix2 r j)).trans ?_
  rw [← Equiv.sum_comp (contrEquiv1 dot_S2000x384_S384x128_S2000x128_1_0_0_1_n_n 384 rfl rfl).symm]
  refine Finset.sum_congr rfl fun k _ => ?_
  have hk := contrEquiv1_symm_val dot_S2000x384_S384x128_S2000x128_1_0_0_1_n_n 384 rfl rfl k
  have el : dot_S2000x384_S384x128_S2000x128_1_0_0_1_n_n.lhsIdx (ix2 r j) ((contrEquiv1 dot_S2000x384_S384x128_S2000x128_1_0_0_1_n_n 384 rfl rfl).symm k) = ix2 r k :=
    funext fun ax => Fin.ext (by
      match ax with
      | ⟨0, _⟩ => exact wide_lhs0 _ _
      | ⟨1, _⟩ => exact (dot_S2000x384_S384x128_S2000x128_1_0_0_1_n_n.lhsIdx_val_of_single rfl _ _).trans hk)
  have er : dot_S2000x384_S384x128_S2000x128_1_0_0_1_n_n.rhsIdx (ix2 r j) ((contrEquiv1 dot_S2000x384_S384x128_S2000x128_1_0_0_1_n_n 384 rfl rfl).symm k) = ix2 k j :=
    funext fun ax => Fin.ext (by
      match ax with
      | ⟨0, _⟩ => exact (dot_S2000x384_S384x128_S2000x128_1_0_0_1_n_n.rhsIdx_val_of_single rfl _ _).trans hk
      | ⟨1, _⟩ => exact wide_rhs1 _ _)
  rw [el, er]

/-- A [128] row shaped [1,128] and broadcast down 2000 rows reads, at (r, j), the row's entry j. -/
theorem biasDown_apply (b : FVec Ideal S128 .f32) (r : Fin 2000) (j : Fin 128) :
    broadcastTo S2000x128 (shapeCast S1x128 b shapeCasts_S128_S1x128) broadcasts_S1x128_S2000x128 (ix2 r j) = b (ix1 j) := by
  rw [broadcastTo_1b_ab_apply, shapeCast_a_1a_apply]

/-- The layer output before normalisation, at (r, j): the one-node function of row r of the blocks. -/
theorem hidBlk_apply (mb : FVec Ideal S2000x128 .bf16) (wl wr : FVec Ideal S128x128 .bf16) (b : FVec Ideal S128 .f32)
    (xb : FVec Ideal S2000x128 .bf16) (r : Fin 2000) (j : Fin 128) :
    hidBlk mb wl wr b xb (ix2 r j)
      = rowHid (fun k => mb (ix2 r k)) (fun k => xb (ix2 r k)) (fun j k => wl (ix2 k j)) (fun j k => wr (ix2 k j))
          (fun j => b (ix1 j)) j := by
  unfold hidBlk rowHid
  rw [addf_apply, addf_apply, matmul_rows, matmul_rows, biasDown_apply]

/-- The lane sum of a block from zero, at row r: the sum of the row. -/
theorem laneSum_apply (v : FVec Ideal S2000x128 .f32) (r : Fin 2000) :
    multiReduction .add [1] S2000 v 0x00000000#32 reduces_S2000x128_S2000 (.inl rfl) rfl (ix1 r) = ∑ k : Fin 128, v (ix2 r k) := by
  refine (Ideal.multiReduction_add_single v 0x00000000#32 reduces_S2000x128_S2000 (.inl rfl) rfl (ix1 r)).trans ?_
  refine Finset.sum_congr rfl fun k _ => ?_
  exact congrArg v (funext fun ax => Fin.ext (by match ax with | ⟨0, _⟩ => rfl | ⟨1, _⟩ => rfl))

/-- A block's rows divided by their clamped norms, at (r, j): the one-node function of row r. -/
theorem unitBlk_apply (h : FVec Ideal S2000x128 .f32) (r : Fin 2000) (j : Fin 128) :
    unitBlk h (ix2 r j) = rowUnit (fun j => h (ix2 r j)) j := by
  unfold unitBlk rowUnit
  rw [divf_apply, broadcastTo_a1_ab_apply, maximumf_apply, broadcast_apply]
  have e : (sqrt (shapeCast S2000x1 (multiReduction .add [1] S2000 (mulf h h) 0x00000000#32 reduces_S2000x128_S2000 (.inl rfl) rfl)
      shapeCasts_S2000_S2000x1) : FVec Ideal S2000x1 .f32) (ix2 r (0 : Fin 1))
      = Ideal.sqrt (∑ j' : Fin 128, h (ix2 r j') * h (ix2 r j')) := by
    show Ideal.sqrt (shapeCast S2000x1 (multiReduction .add [1] S2000 (mulf h h) 0x00000000#32 reduces_S2000x128_S2000 (.inl rfl) rfl)
      shapeCasts_S2000_S2000x1 (ix2 r (0 : Fin 1))) = _
    congr 1
    have hc : shapeCast S2000x1 (multiReduction .add [1] S2000 (mulf h h) 0x00000000#32 reduces_S2000x128_S2000 (.inl rfl) rfl)
        shapeCasts_S2000_S2000x1 (ix2 r (0 : Fin 1))
        = multiReduction .add [1] S2000 (mulf h h) 0x00000000#32 reduces_S2000x128_S2000 (.inl rfl) rfl (ix1 r) :=
      shapeCast_apply _ _ _ _ (by rw [Shape.rowMajor_val_two, Shape.rowMajor_val_one]; show r.val = r.val * 1 + 0; omega)
    rw [hc, laneSum_apply]
    rfl
  rw [e]
  rfl

end Cert.KernelIdeal.Layer

end
-- ==== Proof.LibCovered.lean ====
/-
  Two general facts about reading a staging buffer back, stated over an abstract view and value type.

  A body that keeps an accumulator in a scratch buffer stores the WHOLE buffer again and again, and loads the whole
  buffer between the stores. What such a load reads is what the latest store wrote, whatever the earlier stores
  were: the latest store's rectangle is the whole buffer at zero offsets, so it covers every index the load asks for.
  And a load of a PART of a buffer — a unit-stride rectangle at some offsets — reads the contents at offset + index.
-/
import Idealize.ShloMosaic.Lib.Pipeline.Value

noncomputable section

namespace Idealize.ShloMosaic.View

variable {Val : EltTy → Type} {S : Shape} {e : EltTy}

/-- A load of the whole buffer (the unit rectangle of the buffer's own sizes at zero offsets, however the zeros
    are spelt) after a list of stores whose LATEST is a store of the whole buffer reads that store's payload. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

/-- A load through a unit-stride rectangle reads the contents at offset + index, coordinate by coordinate: the
    caller names the index `k` read and owes one equation per axis. -/
theorem ld_unit_apply {off size : Fin S.rank → Nat} (inb : ∀ a, off a + size a ≤ S.size a) (X : S.Idx → Val e)
    (x : (Rect.unit off size inb).shape.Idx) (k : S.Idx) (hk : ∀ a, (k a).val = off a + (x a).val) :
    View.ld X (Rect.unit off size inb) x = X k := by
  show X ((Rect.unit off size inb).idx x) = X k
  exact congrArg X (funext fun a => Fin.ext (by
    show off a + 1 * (x a).val = (k a).val
    rw [hk a, Nat.one_mul]))

end Idealize.ShloMosaic.View

end
-- ==== Proof.BlockIdeal.lean ====
/-
  The value one grid point stores, at an index, as the one-node function of the rows of its ten
  input blocks.

  Row r of the stored block depends on row r of the three segment-sum blocks, of the reciprocal
  counts and of the node block, and on the whole of the weights: it is `rowOutK` of those rows, the
  transposed weight stacks read with their last two coordinates exchanged.
-/
import proofs.«149329_j48928267436146_2_alg».proof.Proof.LayerReadIdeal
import proofs.«149329_j48928267436146_2_alg».proof.Proof.BodyIdeal
import proofs.«149329_j48928267436146_2_alg».proof.Proof.LibCovered

set_option maxRecDepth 16384

noncomputable section

namespace Cert.KernelIdeal.Layer

open Cert.KernelIdeal Cert.KernelIdeal.Gen Cert.KernelIdeal.Body Cert.SageSpec
open Idealize.ShloMosaic Idealize.ShloMosaic.ValueIdx

/-- Three blocks by edge type. -/
def pick {α : Type} (u0 u1 u2 : α) : Fin 3 → α := fun e => match e with | ⟨0, _⟩ => u0 | ⟨1, _⟩ => u1 | ⟨2, _⟩ => u2

/-- Column q of three 128-column blocks side by side is column q mod 128 of block q div 128. -/
theorem concat_apply (u0 u1 u2 : FVec Ideal S2000x128 .f32) (r : Fin 2000) (q : Fin 384) :
    concatenate S2000x384 1 [⟨S2000x128, u0⟩, ⟨S2000x128, u1⟩, ⟨S2000x128, u2⟩]
        concatenates_S2000x128_S2000x128_S2000x128_S2000x384_d1 (ix2 r q)
      = pick u0 u1 u2 (seg q) (ix2 r (off q)) := by
  have hq := q.isLt
  have hoff : (off q).val = q.val % 128 := rfl
  have hi : ∀ b : Fin S2000x128.rank, b.cast (rfl : S2000x128.rank = S2000x384.rank) ≠ (1 : Fin S2000x384.rank) →
      ((ix2 r (off q) : S2000x128.Idx) b).val = ((ix2 r q : S2000x384.Idx) (b.cast rfl)).val := fun b hb => by
    match b with
    | ⟨0, _⟩ => rfl
    | ⟨1, _⟩ => exact absurd rfl hb
  rcases Nat.lt_or_ge q.val 128 with h0 | h0
  · have hs : seg q = ⟨0, by decide⟩ := Fin.ext (by show q.val / 128 = 0; omega)
    rw [hs]
    exact concatenate_apply_piece 1 _ _ (ix2 r q) 0 (by show 0 < 3; omega) S2000x128 u0 rfl rfl 0 rfl (ix2 r (off q)) hi
      (by show 0 + (off q).val = q.val; rw [hoff]; omega)
  · rcases Nat.lt_or_ge q.val 256 with h1 | h1
    · have hs : seg q = ⟨1, by decide⟩ := Fin.ext (by show q.val / 128 = 1; omega)
      rw [hs]
      exact concatenate_apply_piece 1 _ _ (ix2 r q) 1 (by show 1 < 3; omega) S2000x128 u1 rfl rfl 128 rfl (ix2 r (off q)) hi
        (by show 128 + (off q).val = q.val; rw [hoff]; omega)
    · have hs : seg q = ⟨2, by decide⟩ := Fin.ext (by show q.val / 128 = 2; omega)
      rw [hs]
      exact concatenate_apply_piece 1 _ _ (ix2 r q) 2 (by show 2 < 3; omega) S2000x128 u2 rfl rfl 256 rfl (ix2 r (off q)) hi
        (by show 256 + (off q).val = q.val; rw [hoff]; omega)

/-- The combining step at (r, o): the sum over the 384 concatenated columns, plus the bias. -/
theorem combine_apply (u0 u1 u2 : FVec Ideal S2000x128 .f32) (wc : Vec Ideal S384x128 .f32) (bc : Vec Ideal S128 .f32)
    (r : Fin 2000) (o : Fin 128) :
    combine u0 u1 u2 wc bc (ix2 r o)
      = (∑ q : Fin 384, pick u0 u1 u2 (seg q) (ix2 r (off q)) * wc (ix2 q o)) + bc (ix1 o) := by
  unfold combine
  rw [addf_apply, matmul_wide, biasDown_apply]
  congr 1
  refine Finset.sum_congr rfl fun q _ => ?_
  rw [truncf_apply, truncf_apply, shapeCast_self, concat_apply]

theorem hzero2 : (![0, 0] : Fin 2 → Nat) = fun _ => 0 := funext fun a => by fin_cases a <;> rfl
theorem hzero1 : (![0] : Fin 1 → Nat) = fun _ => 0 := funext fun a => by fin_cases a <;> rfl

/-- The stored value as the pieces composed, the loads as the body makes them. -/
theorem stored_eq (a0 a1 a2 : Vec Ideal S2000x128 .bf16) (ic : Vec Ideal S2000x3 .f32) (x : Vec Ideal S2000x128 .f32)
    (wl : Vec Ideal S3x128x128 .f32) (bl : Vec Ideal S3x128 .f32) (wr : Vec Ideal S3x128x128 .f32) (wc : Vec Ideal S384x128 .f32)
    (bc : Vec Ideal S128 .f32) :
    stored a0 a1 a2 ic x wl bl wr wc bc
      = combine
          (unitBlk (hidBlk (meanBlk 0 slices_S2000x3_o0_0_S2000x1 (View.ld a0 rRows) (k0_pay3 (View.ld ic rInv)))
            (slab (View.ld wl rSlab0)) (slab (View.ld wr rSlab0)) (biasRow (View.ld bl rRow0)) (k0_pay2 (View.ld x rRows))))
          (unitBlk (hidBlk (meanBlk 1 slices_S2000x3_o0_1_S2000x1 (View.ld a1 rRows) (k0_pay3 (View.ld ic rInv)))
            (slab (View.ld wl rSlab1)) (slab (View.ld wr rSlab1)) (biasRow (View.ld bl rRow1)) (k0_pay2 (View.ld x rRows))))
          (unitBlk (hidBlk (meanBlk 2 slices_S2000x3_o0_2_S2000x1 (View.ld a2 rRows) (k0_pay3 (View.ld ic rInv)))
            (slab (View.ld wl rSlab2)) (slab (View.ld wr rSlab2)) (biasRow (View.ld bl rRow2)) (k0_pay2 (View.ld x rRows))))
          (View.ld wc rOutW) (View.ld bc rBias) := rfl

/-- One edge type's normalised rows at (r, j), from the blocks as loaded: the slab and the bias row of edge type `e`
    are the stack's entries (e, ·, ·) and (e, ·). -/
theorem edge_apply (e : Fin 3) (ho : S2000x3.Slices ![0, e.val] S2000x1)
    (inbS : ∀ a, (![e.val, 0, 0] : Fin 3 → Nat) a + S1x128x128.size a ≤ S3x128x128.size a)
    (inbR : ∀ a, (![e.val, 0] : Fin 2 → Nat) a + S1x128.size a ≤ S3x128.size a)
    (a : Vec Ideal S2000x128 .bf16) (ic : Vec Ideal S2000x3 .f32) (x : Vec Ideal S2000x128 .f32)
    (wl : Vec Ideal S3x128x128 .f32) (bl : Vec Ideal S3x128 .f32) (wr : Vec Ideal S3x128x128 .f32) (r : Fin 2000) (j : Fin 128) :
    unitBlk (hidBlk (meanBlk e.val ho a (k0_pay3 ic))
        (slab (View.ld wl (Rect.unit (s := S3x128x128) ![e.val, 0, 0] S1x128x128.size inbS)))
        (slab (View.ld wr (Rect.unit (s := S3x128x128) ![e.val, 0, 0] S1x128x128.size inbS)))
        (biasRow (View.ld bl (Rect.unit (s := S3x128) ![e.val, 0] S1x128.size inbR))) (k0_pay2 x)) (ix2 r j)
      = rowUnit (rowHid (fun k => a (ix2 r k) * ic (ix2 r e)) (fun k => x (ix2 r k)) (fun j k => wl (ix3 e k j))
          (fun j k => wr (ix3 e k j)) (fun j => bl (ix2 e j))) j := by
  rw [unitBlk_apply]
  congr 1
  funext j'
  rw [hidBlk_apply]
  have hm : (fun k => meanBlk e.val ho a (k0_pay3 ic) (ix2 r k)) = fun k => a (ix2 r k) * ic (ix2 r e) := by
    funext k
    rw [meanBlk_apply e.val ho a (k0_pay3 ic) r k e rfl]
    show a (ix2 r k) * shapeCast S2000x3 ic shapeCasts_S2000x3_S2000x3 (ix2 r e) = _
    rw [shapeCast_self]
  have hx : (fun k => k0_pay2 x (ix2 r k)) = fun k => x (ix2 r k) := rfl
  have hl : (fun j k => slab (View.ld wl (Rect.unit (s := S3x128x128) ![e.val, 0, 0] S1x128x128.size inbS)) (ix2 k j))
      = fun j k => wl (ix3 e k j) := by
    funext j k
    rw [slab_apply]
    exact View.ld_unit_apply inbS wl _ (ix3 e k j) (fun ax => by
      match ax with
      | ⟨0, _⟩ => show e.val = e.val + 0; omega
      | ⟨1, _⟩ => show k.val = 0 + k.val; omega
      | ⟨2, _⟩ => show j.val = 0 + j.val; omega)
  have hr : (fun j k => slab (View.ld wr (Rect.unit (s := S3x128x128) ![e.val, 0, 0] S1x128x128.size inbS)) (ix2 k j))
      = fun j k => wr (ix3 e k j) := by
    funext j k
    rw [slab_apply]
    exact View.ld_unit_apply inbS wr _ (ix3 e k j) (fun ax => by
      match ax with
      | ⟨0, _⟩ => show e.val = e.val + 0; omega
      | ⟨1, _⟩ => show k.val = 0 + k.val; omega
      | ⟨2, _⟩ => show j.val = 0 + j.val; omega)
  have hb : (fun j => biasRow (View.ld bl (Rect.unit (s := S3x128) ![e.val, 0] S1x128.size inbR)) (ix1 j)) = fun j => bl (ix2 e j) := by
    funext j
    rw [biasRow_apply]
    exact View.ld_unit_apply inbR bl _ (ix2 e j) (fun ax => by
      match ax with
      | ⟨0, _⟩ => show e.val = e.val + 0; omega
      | ⟨1, _⟩ => show j.val = 0 + j.val; omega)
  rw [hm, hx, hl, hr, hb]

/-- THE STORED VALUE AT (r, o): the one-node result of row r of the segment sums times row r's reciprocal counts,
    row r of the node block, and the weights. -/
theorem stored_apply (a0 a1 a2 : Vec Ideal S2000x128 .bf16) (ic : Vec Ideal S2000x3 .f32) (x : Vec Ideal S2000x128 .f32)
    (wl : Vec Ideal S3x128x128 .f32) (bl : Vec Ideal S3x128 .f32) (wr : Vec Ideal S3x128x128 .f32) (wc : Vec Ideal S384x128 .f32)
    (bc : Vec Ideal S128 .f32) (r : Fin 2000) (o : Fin 128) :
    stored a0 a1 a2 ic x wl bl wr wc bc (ix2 r o)
      = rowOutK (fun e k => pick a0 a1 a2 e (ix2 r k) * ic (ix2 r e)) (fun k => x (ix2 r k))
          (fun e j k => wl (ix3 e k j)) (fun e j k => wr (ix3 e k j)) (fun e j => bl (ix2 e j))
          (fun q o => wc (ix2 q o)) (fun o => bc (ix1 o)) o := by
  rw [stored_eq]
  simp only [View.ld_unit_zero (S := S2000x128) hzero2, View.ld_unit_zero (S := S2000x3) hzero2,
    View.ld_unit_zero (S := S384x128) hzero2, View.ld_unit_zero (S := S128) hzero1]
  rw [combine_apply]
  unfold rowOutK
  congr 1
  refine Finset.sum_congr rfl fun q _ => ?_
  congr 1
  generalize seg q = e
  generalize off q = j
  match e with
  | ⟨0, _⟩ => exact edge_apply ⟨0, by decide⟩ slices_S2000x3_o0_0_S2000x1 inb_S3x128x128_S1x128x128_0_0_0 inb_S3x128_S1x128_0_0 a0 ic x wl bl wr r j
  | ⟨1, _⟩ => exact edge_apply ⟨1, by decide⟩ slices_S2000x3_o0_1_S2000x1 inb_S3x128x128_S1x128x128_1_0_0 inb_S3x128_S1x128_1_0 a1 ic x wl bl wr r j
  | ⟨2, _⟩ => exact edge_apply ⟨2, by decide⟩ slices_S2000x3_o0_2_S2000x1 inb_S3x128x128_S1x128x128_2_0_0 inb_S3x128_S1x128_2_0 a2 ic x wl bl wr r j

end Cert.KernelIdeal.Layer

end
-- ==== Proof.ArrayIdeal.lean ====
/-
  From the blocks to the array.

  Grid point t works on rows 2000·t … 2000·t + 1999: the five row-blocked inputs (the three segment
  sums, the reciprocal counts, the node features) and the output all have block index (t, 0), and
  the five weight windows always have block index zero, that is the whole array. Row r of the
  block stored at point t is the one-node result of row 2000·t + r of the arrays the region
  finds. The 25 points' blocks cover all 50000 rows, so after the run the output array holds, at
  every (n, o), the one-node result of row n.
-/
import proofs.«149329_j48928267436146_2_alg».proof.Proof.RunIdeal
import proofs.«149329_j48928267436146_2_alg».proof.Proof.BlockIdeal

set_option maxRecDepth 16384

noncomputable section

namespace Cert.KernelIdeal.Array

open Cert.KernelIdeal Cert.KernelIdeal.Gen Cert.KernelIdeal.Entry Cert.KernelIdeal.Body Cert.KernelIdeal.Run
open Cert.KernelIdeal.Layer Cert.SageSpec
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The output array as one function of the arrays the region finds: at (n, o) the one-node result of row n. -/
def outArr (g0 g1 g2 : S50000x128.Idx → EReal) (inv : S50000x3.Idx → EReal) (x : S50000x128.Idx → EReal)
    (wl : S3x128x128.Idx → EReal) (bl : S3x128.Idx → EReal) (wr : S3x128x128.Idx → EReal) (wc : S384x128.Idx → EReal)
    (bc : S128.Idx → EReal) : S50000x128.Idx → EReal := fun i =>
  rowOutK (fun e k => pick g0 g1 g2 e (ix2 (i 0) k) * inv (ix2 (i 0) e)) (fun k => x (ix2 (i 0) k))
    (fun e j k => wl (ix3 e k j)) (fun e j k => wr (ix3 e k j)) (fun e j => bl (ix2 e j))
    (fun q o => wc (ix2 q o)) (fun o => bc (ix1 o)) (i 1)

/-- That function of the region-entry arrays on core c. -/
def outOf (c : Dev nD) : S50000x128.Idx → EReal :=
  outArr (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))
    (V m c (Pipeline.arrRef spec0 6)) (V m c (Pipeline.arrRef spec0 7)) (V m c (Pipeline.arrRef spec0 8))
    (V m c (Pipeline.arrRef spec0 9))

/-- The index maps over the grid: the row-blocked windows and the output are at block (t, 0); the weight windows at
    block zero. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_10.index t (0 : Fin 2) = t.val ∧ win0_10.index t (1 : Fin 2) = 0) :=
  (by decide +kernel : ∀ t : Fin grid0.N, _)

theorem idx_whole : ∀ t : Fin cfg0.N,
    (win0_5.index t (0 : Fin 3) = 0 ∧ win0_5.index t (1 : Fin 3) = 0 ∧ win0_5.index t (2 : Fin 3) = 0)
    ∧ (win0_6.index t (0 : Fin 2) = 0 ∧ win0_6.index t (1 : Fin 2) = 0)
    ∧ (win0_7.index t (0 : Fin 3) = 0 ∧ win0_7.index t (1 : Fin 3) = 0 ∧ win0_7.index t (2 : Fin 3) = 0)
    ∧ (win0_8.index t (0 : Fin 2) = 0 ∧ win0_8.index t (1 : Fin 2) = 0)
    ∧ win0_9.index t (0 : Fin 1) = 0 :=
  (by decide +kernel : ∀ t : Fin grid0.N, _)

/-- Row r of point t's blocks is row 2000·t + r of the arrays. -/
def rowAt (t : Fin cfg0.N) (r : Fin 2000) : Fin 50000 :=
  ⟨t.val * 2000 + r.val, by have h : t.val < 25 := t.isLt; have := r.isLt; omega⟩

/-! ## A block read off an array -/

/-- Window 0's block at point t of an array X, at (r, k): X at row 2000·t + r, column k. -/
theorem rd0 (X : S50000x128.Idx → EReal) (t : Fin cfg0.N) (r : Fin 2000) (k : Fin 128) :
    ((cfg0.win 0).blk t).view.read (Elt Ideal) X (ix2 r k) = X (ix2 (rowAt t r) k) := by
  show X (((cfg0.win 0).blk t).view.emb (ix2 r k)) = _
  refine congrArg X (funext fun ax => Fin.ext ?_)
  obtain ⟨e0, e1⟩ := (idx_rows t).1
  match ax with
  | ⟨0, _⟩ => show win0_0.index t (0 : Fin 2) * 2000 + 1 * r.val = t.val * 2000 + r.val; rw [e0]; omega
  | ⟨1, _⟩ => show win0_0.index t (1 : Fin 2) * 128 + 1 * k.val = k.val; rw [e1]; omega

/-- Window 1's block at point t of an array X, at (r, k): X at row 2000·t + r, column k. -/
theorem rd1 (X : S50000x128.Idx → EReal) (t : Fin cfg0.N) (r : Fin 2000) (k : Fin 128) :
    ((cfg0.win 1).blk t).view.read (Elt Ideal) X (ix2 r k) = X (ix2 (rowAt t r) k) := by
  show X (((cfg0.win 1).blk t).view.emb (ix2 r k)) = _
  refine congrArg X (funext fun ax => Fin.ext ?_)
  obtain ⟨e0, e1⟩ := (idx_rows t).2.1
  match ax with
  | ⟨0, _⟩ => show win0_1.index t (0 : Fin 2) * 2000 + 1 * r.val = t.val * 2000 + r.val; rw [e0]; omega
  | ⟨1, _⟩ => show win0_1.index t (1 : Fin 2) * 128 + 1 * k.val = k.val; rw [e1]; omega

/-- Window 2's block at point t of an array X, at (r, k): X at row 2000·t + r, column k. -/
theorem rd2 (X : S50000x128.Idx → EReal) (t : Fin cfg0.N) (r : Fin 2000) (k : Fin 128) :
    ((cfg0.win 2).blk t).view.read (Elt Ideal) X (ix2 r k) = X (ix2 (rowAt t r) k) := by
  show X (((cfg0.win 2).blk t).view.emb (ix2 r k)) = _
  refine congrArg X (funext fun ax => Fin.ext ?_)
  obtain ⟨e0, e1⟩ := (idx_rows t).2.2.1
  match ax with
  | ⟨0, _⟩ => show win0_2.index t (0 : Fin 2) * 2000 + 1 * r.val = t.val * 2000 + r.val; rw [e0]; omega
  | ⟨1, _⟩ => show win0_2.index t (1 : Fin 2) * 128 + 1 * k.val = k.val; rw [e1]; omega

/-- Window 3's block at point t of an array X, at (r, k): X at row 2000·t + r, column k. -/
theorem rd3 (X : S50000x3.Idx → EReal) (t : Fin cfg0.N) (r : Fin 2000) (k : Fin 3) :
    ((cfg0.win 3).blk t).view.read (Elt Ideal) X (ix2 r k) = X (ix2 (rowAt t r) k) := by
  show X (((cfg0.win 3).blk t).view.emb (ix2 r k)) = _
  refine congrArg X (funext fun ax => Fin.ext ?_)
  obtain ⟨e0, e1⟩ := (idx_rows t).2.2.2.1
  match ax with
  | ⟨0, _⟩ => show win0_3.index t (0 : Fin 2) * 2000 + 1 * r.val = t.val * 2000 + r.val; rw [e0]; omega
  | ⟨1, _⟩ => show win0_3.index t (1 : Fin 2) * 3 + 1 * k.val = k.val; rw [e1]; omega

/-- Window 4's block at point t of an array X, at (r, k): X at row 2000·t + r, column k. -/
theorem rd4 (X : S50000x128.Idx → EReal) (t : Fin cfg0.N) (r : Fin 2000) (k : Fin 128) :
    ((cfg0.win 4).blk t).view.read (Elt Ideal) X (ix2 r k) = X (ix2 (rowAt t r) k) := by
  show X (((cfg0.win 4).blk t).view.emb (ix2 r k)) = _
  refine congrArg X (funext fun ax => Fin.ext ?_)
  obtain ⟨e0, e1⟩ := (idx_rows t).2.2.2.2.1
  match ax with
  | ⟨0, _⟩ => show win0_4.index t (0 : Fin 2) * 2000 + 1 * r.val = t.val * 2000 + r.val; rw [e0]; omega
  | ⟨1, _⟩ => show win0_4.index t (1 : Fin 2) * 128 + 1 * k.val = k.val; rw [e1]; omega

/-- The weight windows' blocks are their whole arrays. -/
theorem rd5 (X : S3x128x128.Idx → EReal) (t : Fin cfg0.N) (e : Fin 3) (k j : Fin 128) :
    ((cfg0.win 5).blk t).view.read (Elt Ideal) X (ix3 e k j) = X (ix3 e k j) := by
  show X (((cfg0.win 5).blk t).view.emb (ix3 e k j)) = _
  refine congrArg X (funext fun ax => Fin.ext ?_)
  obtain ⟨e0, e1, e2⟩ := (idx_whole t).1
  match ax with
  | ⟨0, _⟩ => show win0_5.index t (0 : Fin 3) * 3 + 1 * e.val = e.val; rw [e0]; omega
  | ⟨1, _⟩ => show win0_5.index t (1 : Fin 3) * 128 + 1 * k.val = k.val; rw [e1]; omega
  | ⟨2, _⟩ => show win0_5.index t (2 : Fin 3) * 128 + 1 * j.val = j.val; rw [e2]; omega

theorem rd6 (X : S3x128.Idx → EReal) (t : Fin cfg0.N) (e : Fin 3) (j : Fin 128) :
    ((cfg0.win 6).blk t).view.read (Elt Ideal) X (ix2 e j) = X (ix2 e j) := by
  show X (((cfg0.win 6).blk t).view.emb (ix2 e j)) = _
  refine congrArg X (funext fun ax => Fin.ext ?_)
  obtain ⟨e0, e1⟩ := (idx_whole t).2.1
  match ax with
  | ⟨0, _⟩ => show win0_6.index t (0 : Fin 2) * 3 + 1 * e.val = e.val; rw [e0]; omega
  | ⟨1, _⟩ => show win0_6.index t (1 : Fin 2) * 128 + 1 * j.val = j.val; rw [e1]; omega

theorem rd7 (X : S3x128x128.Idx → EReal) (t : Fin cfg0.N) (e : Fin 3) (k j : Fin 128) :
    ((cfg0.win 7).blk t).view.read (Elt Ideal) X (ix3 e k j) = X (ix3 e k j) := by
  show X (((cfg0.win 7).blk t).view.emb (ix3 e k j)) = _
  refine congrArg X (funext fun ax => Fin.ext ?_)
  obtain ⟨e0, e1, e2⟩ := (idx_whole t).2.2.1
  match ax with
  | ⟨0, _⟩ => show win0_7.index t (0 : Fin 3) * 3 + 1 * e.val = e.val; rw [e0]; omega
  | ⟨1, _⟩ => show win0_7.index t (1 : Fin 3) * 128 + 1 * k.val = k.val; rw [e1]; omega
  | ⟨2, _⟩ => show win0_7.index t (2 : Fin 3) * 128 + 1 * j.val = j.val; rw [e2]; omega

theorem rd8 (X : S384x128.Idx → EReal) (t : Fin cfg0.N) (q : Fin 384) (o : Fin 128) :
    ((cfg0.win 8).blk t).view.read (Elt Ideal) X (ix2 q o) = X (ix2 q o) := by
  show X (((cfg0.win 8).blk t).view.emb (ix2 q o)) = _
  refine congrArg X (funext fun ax => Fin.ext ?_)
  obtain ⟨e0, e1⟩ := (idx_whole t).2.2.2.1
  match ax with
  | ⟨0, _⟩ => show win0_8.index t (0 : Fin 2) * 384 + 1 * q.val = q.val; rw [e0]; omega
  | ⟨1, _⟩ => show win0_8.index t (1 : Fin 2) * 128 + 1 * o.val = o.val; rw [e1]; omega

theorem rd9 (X : S128.Idx → EReal) (t : Fin cfg0.N) (o : Fin 128) :
    ((cfg0.win 9).blk t).view.read (Elt Ideal) X (ix1 o) = X (ix1 o) := by
  show X (((cfg0.win 9).blk t).view.emb (ix1 o)) = _
  refine congrArg X (funext fun ax => Fin.ext ?_)
  have e0 := (idx_whole t).2.2.2.2
  match ax with
  | ⟨0, _⟩ => show win0_9.index t (0 : Fin 1) * 128 + 1 * o.val = o.val; rw [e0]; omega

/-- Row r of the output's block at point t is row 2000·t + r of the output array. -/
theorem emb10 (t : Fin cfg0.N) (r : Fin 2000) (o : Fin 128) :
    ((cfg0.win 10).blk t).view.emb (ix2 r o) = (ix2 (rowAt t r) o : S50000x128.Idx) := by
  funext ax; apply Fin.ext
  obtain ⟨e0, e1⟩ := (idx_rows t).2.2.2.2.2
  match ax with
  | ⟨0, _⟩ => show win0_10.index t (0 : Fin 2) * 2000 + 1 * r.val = t.val * 2000 + r.val; rw [e0]; omega
  | ⟨1, _⟩ => show win0_10.index t (1 : Fin 2) * 128 + 1 * o.val = o.val; rw [e1]; omega

end Cert.KernelIdeal.Array

end
-- ==== Proof.WrittenIdeal.lean ====
/-
  What a grid point writes back, and the output array after the run.

  For ANY ten arrays, the value the body stores at point t from their blocks is block t of the
  whole-array function of those arrays. The blocks of the 25 points cover the output array, so the
  array ends at that function of the arrays the region finds.
-/
import proofs.«149329_j48928267436146_2_alg».proof.Proof.ArrayIdeal

set_option maxRecDepth 16384

noncomputable section

namespace Cert.KernelIdeal.Array

open Cert.KernelIdeal Cert.KernelIdeal.Gen Cert.KernelIdeal.Entry Cert.KernelIdeal.Body Cert.KernelIdeal.Run
open Cert.KernelIdeal.Layer Cert.SageSpec
open Idealize.ShloMosaic Idealize.ShloMosaic.TcCoe Idealize.ShloMosaic.ValueIdx
open Idealize.SL.Sem
open Idealize.ShloMosaic.Pipeline (Dat)

-- the region-entry arrays are a fold over the host operations: nothing here looks inside them
set_option allowUnsafeReducibility true in
attribute [local irreducible] Cert.KernelIdeal.Entry.V

/-- The stored block at (r, o), from ten blocks each of which reads its array at row 2000·t + r (the weights: at the same
    index): the whole-array function at row 2000·t + r. -/
theorem written_apply (t : Fin cfg0.N)
    (g0 : S50000x128.Idx → EReal)
    (g1 : S50000x128.Idx → EReal)
    (g2 : S50000x128.Idx → EReal)
    (g3 : S50000x3.Idx → EReal)
    (g4 : S50000x128.Idx → EReal)
    (g5 : S3x128x128.Idx → EReal)
    (g6 : S3x128.Idx → EReal)
    (g7 : S3x128x128.Idx → EReal)
    (g8 : S384x128.Idx → EReal)
    (g9 : S128.Idx → EReal)
    (b0 : Vec Ideal S2000x128 .bf16)
    (b1 : Vec Ideal S2000x128 .bf16)
    (b2 : Vec Ideal S2000x128 .bf16)
    (b3 : Vec Ideal S2000x3 .f32)
    (b4 : Vec Ideal S2000x128 .f32)
    (b5 : Vec Ideal S3x128x128 .f32)
    (b6 : Vec Ideal S3x128 .f32)
    (b7 : Vec Ideal S3x128x128 .f32)
    (b8 : Vec Ideal S384x128 .f32)
    (b9 : Vec Ideal S128 .f32)
    (h0 : ∀ (r : Fin 2000) (k : Fin 128), b0 (ix2 r k) = g0 (ix2 (rowAt t r) k))
    (h1 : ∀ (r : Fin 2000) (k : Fin 128), b1 (ix2 r k) = g1 (ix2 (rowAt t r) k))
    (h2 : ∀ (r : Fin 2000) (k : Fin 128), b2 (ix2 r k) = g2 (ix2 (rowAt t r) k))
    (h3 : ∀ (r : Fin 2000) (e : Fin 3), b3 (ix2 r e) = g3 (ix2 (rowAt t r) e))
    (h4 : ∀ (r : Fin 2000) (k : Fin 128), b4 (ix2 r k) = g4 (ix2 (rowAt t r) k))
    (h5 : ∀ (e : Fin 3) (k j : Fin 128), b5 (ix3 e k j) = g5 (ix3 e k j))
    (h6 : ∀ (e : Fin 3) (j : Fin 128), b6 (ix2 e j) = g6 (ix2 e j))
    (h7 : ∀ (e : Fin 3) (k j : Fin 128), b7 (ix3 e k j) = g7 (ix3 e k j))
    (h8 : ∀ (q : Fin 384) (o : Fin 128), b8 (ix2 q o) = g8 (ix2 q o))
    (h9 : ∀ o : Fin 128, b9 (ix1 o) = g9 (ix1 o))
    (r : Fin 2000) (o : Fin 128) :
    stored b0 b1 b2 b3 b4 b5 b6 b7 b8 b9 (ix2 r o) = outArr g0 g1 g2 g3 g4 g5 g6 g7 g8 g9 (ix2 (rowAt t r) o) := by
  refine (stored_apply b0 b1 b2 b3 b4 b5 b6 b7 b8 b9 r o).trans ?_
  unfold outArr
  show _ = rowOutK (fun e k => pick g0 g1 g2 e (ix2 (rowAt t r) k) * g3 (ix2 (rowAt t r) e))
    (fun k => g4 (ix2 (rowAt t r) k)) (fun e j k => g5 (ix3 e k j)) (fun e j k => g7 (ix3 e k j))
    (fun e j => g6 (ix2 e j)) (fun q o => g8 (ix2 q o)) (fun o => g9 (ix1 o)) o
  have e1 : (fun (e : Fin 3) (k : Fin 128) => pick b0 b1 b2 e (ix2 r k) * b3 (ix2 r e))
      = fun e k => pick g0 g1 g2 e (ix2 (rowAt t r) k) * g3 (ix2 (rowAt t r) e) := by
    funext e k
    rw [h3]
    match e with
    | ⟨0, _⟩ => show b0 (ix2 r k) * _ = g0 (ix2 (rowAt t r) k) * _; rw [h0]
    | ⟨1, _⟩ => show b1 (ix2 r k) * _ = g1 (ix2 (rowAt t r) k) * _; rw [h1]
    | ⟨2, _⟩ => show b2 (ix2 r k) * _ = g2 (ix2 (rowAt t r) k) * _; rw [h2]
  have e2 : (fun k : Fin 128 => b4 (ix2 r k)) = fun k => g4 (ix2 (rowAt t r) k) := funext fun k => h4 r k
  have e3 : (fun (e : Fin 3) (j k : Fin 128) => b5 (ix3 e k j)) = fun e j k => g5 (ix3 e k j) :=
    funext fun e => funext fun j => funext fun k => h5 e k j
  have e4 : (fun (e : Fin 3) (j k : Fin 128) => b7 (ix3 e k j)) = fun e j k => g7 (ix3 e k j) :=
    funext fun e => funext fun j => funext fun k => h7 e k j
  have e5 : (fun (e : Fin 3) (j : Fin 128) => b6 (ix2 e j)) = fun e j => g6 (ix2 e j) :=
    funext fun e => funext fun j => h6 e j
  have e6 : (fun (q : Fin 384) (o : Fin 128) => b8 (ix2 q o)) = fun q o => g8 (ix2 q o) :=
    funext fun q => funext fun o => h8 q o
  have e7 : (fun o : Fin 128 => b9 (ix1 o)) = fun o => g9 (ix1 o) := funext fun o => h9 o
  rw [e1, e2, e3, e4, e5, e6, e7]

/-- The stored block of ANY ten arrays is block t of the whole-array function. -/
theorem written_eq (t : Fin cfg0.N)
    (g0 : S50000x128.Idx → EReal)
    (g1 : S50000x128.Idx → EReal)
    (g2 : S50000x128.Idx → EReal)
    (g3 : S50000x3.Idx → EReal)
    (g4 : S50000x128.Idx → EReal)
    (g5 : S3x128x128.Idx → EReal)
    (g6 : S3x128.Idx → EReal)
    (g7 : S3x128x128.Idx → EReal)
    (g8 : S384x128.Idx → EReal)
    (g9 : S128.Idx → EReal) :
    out10 (((cfg0.win 0).blk t).view.read (Elt Ideal) g0)
        (((cfg0.win 1).blk t).view.read (Elt Ideal) g1)
        (((cfg0.win 2).blk t).view.read (Elt Ideal) g2)
        (((cfg0.win 3).blk t).view.read (Elt Ideal) g3)
        (((cfg0.win 4).blk t).view.read (Elt Ideal) g4)
        (((cfg0.win 5).blk t).view.read (Elt Ideal) g5)
        (((cfg0.win 6).blk t).view.read (Elt Ideal) g6)
        (((cfg0.win 7).blk t).view.read (Elt Ideal) g7)
        (((cfg0.win 8).blk t).view.read (Elt Ideal) g8)
        (((cfg0.win 9).blk t).view.read (Elt Ideal) g9)
      = ((cfg0.win 10).blk t).view.read (Elt Ideal) (outArr g0 g1 g2 g3 g4 g5 g6 g7 g8 g9) := by
  unfold out10
  rw [View.canon_unit_zero hzero2]
  funext y
  obtain ⟨r, o, rfl⟩ : ∃ (r : Fin 2000) (o : Fin 128), y = ix2 r o := ⟨y 0, y 1, eq_ix2 y⟩
  refine (written_apply t g0 g1 g2 g3 g4 g5 g6 g7 g8 g9 _ _ _ _ _ _ _ _ _ _ (rd0 g0 t) (rd1 g1 t) (rd2 g2 t) (rd3 g3 t) (rd4 g4 t)
    (rd5 g5 t) (rd6 g6 t) (rd7 g7 t) (rd8 g8 t) (rd9 g9 t) r o).trans ?_
  show _ = outArr g0 g1 g2 g3 g4 g5 g6 g7 g8 g9 (((cfg0.win 10).blk t).view.emb (ix2 r o))
  rw [emb10]

variable (m : (ℓ : Loc nD τ sig) → Buf (Elt Ideal) ℓ) (ρ : Dev nD → PrngReg)

/-- WHAT POINT t WRITES BACK is block t of the whole-array function of the arrays the region finds. -/
theorem flushed_eq (c : Dev nD) (t : Fin cfg0.N) :
    (dats m 0 c).flushed 10 t = ((cfg0.win 10).blk t).view.read (Elt Ideal) (outOf m c) := by
  show (cfg0.win 10).cut (grid0.coords t) ((dats m 0 c).after 10 t) = _
  rw [after_10]
  exact written_eq t (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)) (V m c (Pipeline.arrRef spec0 8)) (V m c (Pipeline.arrRef spec0 9))

/-- An index of the output array is in point t's block iff each coordinate is in the block's range. -/
theorem mem_blk (t : Fin cfg0.N) (i : S50000x128.Idx) :
    i ∈ ((cfg0.win 10).blk t).view.set ↔ ∀ a : Fin 2, win0_10.index t a * S2000x128.size a ≤ (i a).val
      ∧ (i a).val < win0_10.index t a * S2000x128.size a + S2000x128.size a := by
  show i ∈ ((View.whole main_v85).slice (win0_10.rect t)).set ↔ _
  rw [View.set_slice_whole, Rect.mem_set_unit]
  exact Iff.rfl

/-- Every row is in the block of the point its row number over 2000 names. -/
theorem cover (i : S50000x128.Idx) : ∃ t : Fin cfg0.N, (cfg0.win 10).flush t = true ∧ i ∈ ((cfg0.win 10).blk t).view.set := by
  have hi0 : (i 0).val < 50000 := (i 0).isLt
  have hi1 : (i 1).val < 128 := (i 1).isLt
  let t : Fin cfg0.N := ⟨(i 0).val / 2000, by show (i 0).val / 2000 < 25; omega⟩
  refine ⟨t, flush0_10 t, ?_⟩
  rw [mem_blk]
  obtain ⟨e0, e1⟩ := (idx_rows t).2.2.2.2.2
  have ht : t.val = (i 0).val / 2000 := rfl
  intro a
  match a with
  | ⟨0, _⟩ => show win0_10.index t (0 : Fin 2) * 2000 ≤ (i 0).val ∧ (i 0).val < win0_10.index t (0 : Fin 2) * 2000 + 2000; rw [e0, ht]; omega
  | ⟨1, _⟩ => show win0_10.index t (1 : Fin 2) * 128 ≤ (i 1).val ∧ (i 1).val < win0_10.index t (1 : Fin 2) * 128 + 128; rw [e1]; omega

/-- THE OUTPUT ARRAY after the run: the whole-array function of the arrays the region finds. -/
theorem final (c : Dev nD) : (dats m 0 c).arrAt 10 cfg0.N = outOf m c :=
  (dats m 0 c).arrAt_eq_of_cover 10 (outOf m c) (fun t _ => flushed_eq m c t) cover

end Cert.KernelIdeal.Array

end
-- ==== Proof.KernelRunIdeal.lean ====
/-
  The idealized kernel's run with its result named: every weakly fair execution terminates, the
  result array ends at the whole-array function of the arrays the region finds, and the arguments
  end as launched.
-/
import proofs.«149329_j48928267436146_2_alg».proof.Proof.WrittenIdeal

set_option maxRecDepth 16384

noncomputable section

namespace Cert.KernelIdeal.Array

open Cert.KernelIdeal Cert.KernelIdeal.Gen Cert.KernelIdeal.Entry Cert.KernelIdeal.Body Cert.KernelIdeal.Run
open Idealize.ShloMosaic Idealize.ShloMosaic.TcCoe Idealize.ShloMosaic.ValueIdx
open Idealize.SL.Sem
open Idealize.ShloMosaic.Pipeline (Dat)

set_option allowUnsafeReducibility true in
attribute [local irreducible] Cert.KernelIdeal.Entry.V

variable (m : (ℓ : Loc nD τ sig) → Buf (Elt Ideal) ℓ) (ρ : Dev nD → PrngReg)

/-- The run, read: the result at `outOf`, the ten arguments unchanged. -/
theorem run : θ_run defs (onTc (τ := τ) (main (F := Ideal))) ⟨m, fun _ => 0, ρ⟩ (fun r => ∀ c : Dev nD,
      r.2.mem ((c.tc : Thread nD τ).loc main_v85) = outOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 10).trans (final m c),
      ((h c).1 4).trans ((((dats m) 0 c).arrAt_in 4 rfl _).trans ((A_eq m c 4).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 6).trans ((((dats m) 0 c).arrAt_in 6 rfl _).trans ((A_eq m c 6).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 9).trans ((((dats m) 0 c).arrAt_in 9 rfl _).trans ((A_eq m c 9).trans (V_main_arg9 m c)))⟩) (run_main m ρ)

end Cert.KernelIdeal.Array

end
-- ==== Proof.RefStages.lean ====
/-
  The data the relational-graph layer is a function of, read off the reference program's arguments.

  For each of the three edge types the reference first adds, for every node, the feature rows of the
  sources of the edges that end in it, and counts those edges. Both are sums over an edge list whose
  membership depends on the list's values; they are kept here as the named stages that compute them
  and never opened: every later stage reads them only element by element.
-/
import proofs.«149329_j48928267436146_2_alg».proof.Proof.Gen.ReferenceIdeal.Read
import proofs.«149329_j48928267436146_2_alg».proof.Proof.SageSpec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

noncomputable section

namespace Cert.ReferenceIdeal.RefValue

open Cert.ReferenceIdeal Cert.ReferenceIdeal.Read Cert.SageSpec Idealize.ShloMosaic Idealize.ShloMosaic.ValueIdx

/-- The sum, over the edges of type `e` that end in node `n`, of feature `k` of the edge's source node. -/
def aggOf (x0 : (⟨S50000x128, .f32⟩ : BufTy).Contents (Elt Ideal))
    (x1 x2 x3 : (⟨S2x512000, .i32⟩ : BufTy).Contents (Elt Ideal)) : Fin 3 → Fin 50000 → Fin 128 → EReal :=
  fun e n k => match e with
    | ⟨0, _⟩ => val_main_v19 (F := Ideal) x0 x1 (ix2 n k)
    | ⟨1, _⟩ => val_main_v65 (F := Ideal) x0 x2 (ix2 n k)
    | ⟨2, _⟩ => val_main_v111 (F := Ideal) x0 x3 (ix2 n k)

/-- The number of edges of type `e` that end in node `n`. -/
def cntOf (x1 x2 x3 : (⟨S2x512000, .i32⟩ : BufTy).Contents (Elt Ideal)) : Fin 3 → Fin 50000 → EReal :=
  fun e n => match e with
    | ⟨0, _⟩ => val_main_v23 (F := Ideal) x1 (ix1 n)
    | ⟨1, _⟩ => val_main_v69 (F := Ideal) x2 (ix1 n)
    | ⟨2, _⟩ => val_main_v115 (F := Ideal) x3 (ix1 n)

end Cert.ReferenceIdeal.RefValue

end
-- ==== Proof.RefLayer0.lean ====
/-
  The first edge type's branch of the reference, read element by element.

  For node `n` the branch divides the summed source features by the clamped in-degree, maps the mean by
  this edge type's neighbour weights (row `j` of the weight matrix against the mean: the program
  transposes the matrix and contracts its first axis), adds the bias and the root term, divides the
  row by its Euclidean norm clamped below, and scales by this edge type's attention factor. Each
  stage's element is named from its operands' elements; the weights, bias and attention factor are
  slices of the stacked arguments at leading coordinate 0.
-/
import proofs.«149329_j48928267436146_2_alg».proof.Proof.Gen.ReferenceIdeal.Read
import proofs.«149329_j48928267436146_2_alg».proof.Proof.SageSpec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost
import proofs.«149329_j48928267436146_2_alg».proof.Proof.RefStages

noncomputable section

namespace Cert.ReferenceIdeal.RefValue

open Cert.ReferenceIdeal Cert.ReferenceIdeal.Gen Cert.ReferenceIdeal.Read Cert.SageSpec Idealize.ShloMosaic Idealize.ShloMosaic.ValueIdx

section
variable (x0 : (⟨S50000x128, .f32⟩ : BufTy).Contents (Elt Ideal))
  (x1 x2 x3 : (⟨S2x512000, .i32⟩ : BufTy).Contents (Elt Ideal))
  (x4 : (⟨S3x128x128, .f32⟩ : BufTy).Contents (Elt Ideal)) (x5 : (⟨S3x128, .f32⟩ : BufTy).Contents (Elt Ideal))
  (x6 : (⟨S3x128x128, .f32⟩ : BufTy).Contents (Elt Ideal)) (x7 : (⟨S3, .f32⟩ : BufTy).Contents (Elt Ideal))

/-- The mean of the incoming features: the sum over the in-degree clamped below at one. -/
theorem mean0_apply (n : Fin 50000) (k : Fin 128) :
    val_main_v28 (F := Ideal) x0 x1 (ix2 n k)
      = Ideal.div (val_main_v19 (F := Ideal) x0 x1 (ix2 n k)) (max (val_main_v23 (F := Ideal) x1 (ix1 n)) 1) := by
  have e : idx_main_v26 (idx_main_v27 (ix2 n k)) = ix1 n :=
    funext fun a => Fin.ext (by match a with | ⟨0, _⟩ => rfl)
  rw [val_main_v28_apply, val_main_v27_apply, val_main_v26_apply, val_main_v25_apply, val_main_v24_apply, val_main_cst_3_apply, e]
  simp only [Ideal.hostDivf_def, Ideal.maximumf_def, Ideal.ofBits_def, Ideal.ofBits_one_f32]

/-- The transposed neighbour weights at `(k, j)` are entry `(j, k)` of this edge type's matrix. -/
theorem wl0_apply (k j : Fin 128) :
    val_main_v29 (F := Ideal) x4 (ix2 k j) = x4 (ix3 (0 : Fin 3) j k) := by
  have e1 : idx_main_v29 (ix2 k j) = ix2 j k :=
    funext fun a => Fin.ext (by match a with | ⟨0, _⟩ => rfl | ⟨1, _⟩ => rfl)
  have e2 : idx_main_v1 (ix2 j k) = ix3 (0 : Fin 1) j k :=
    funext fun a => Fin.ext (by
      have hj := j.isLt
      have hk := k.isLt
      match a with
      | ⟨0, _⟩ => rfl
      | ⟨1, _⟩ => show (j.val * 128 + k.val) / 128 % 128 = j.val; omega
      | ⟨2, _⟩ => show (j.val * 128 + k.val) % 128 = k.val; omega)
  have e3 : idx_main_v0 (ix3 (0 : Fin 1) j k) = ix3 (0 : Fin 3) j k :=
    funext fun a => Fin.ext (by match a with | ⟨0, _⟩ => rfl | ⟨1, _⟩ => rfl | ⟨2, _⟩ => rfl)
  rw [val_main_v29_apply, e1, val_main_v1_apply, e2, val_main_v0_apply, e3]

/-- The transposed root weights at `(k, j)` are entry `(j, k)` of this edge type's matrix. -/
theorem wr0_apply (k j : Fin 128) :
    val_main_v34 (F := Ideal) x6 (ix2 k j) = x6 (ix3 (0 : Fin 3) j k) := by
  have e1 : idx_main_v34 (ix2 k j) = ix2 j k :=
    funext fun a => Fin.ext (by match a with | ⟨0, _⟩ => rfl | ⟨1, _⟩ => rfl)
  have e2 : idx_main_v5 (ix2 j k) = ix3 (0 : Fin 1) j k :=
    funext fun a => Fin.ext (by
      have hj := j.isLt
      have hk := k.isLt
      match a with
      | ⟨0, _⟩ => rfl
      | ⟨1, _⟩ => show (j.val * 128 + k.val) / 128 % 128 = j.val; omega
      | ⟨2, _⟩ => show (j.val * 128 + k.val) % 128 = k.val; omega)
  have e3 : idx_main_v4 (ix3 (0 : Fin 1) j k) = ix3 (0 : Fin 3) j k :=
    funext fun a => Fin.ext (by match a with | ⟨0, _⟩ => rfl | ⟨1, _⟩ => rfl | ⟨2, _⟩ => rfl)
  rw [val_main_v34_apply, e1, val_main_v5_apply, e2, val_main_v4_apply, e3]

/-- The bias, broadcast over the nodes, is this edge type's row of the stacked biases. -/
theorem bias0_apply (n : Fin 50000) (j : Fin 128) :
    val_main_v32 (F := Ideal) x5 (ix2 n j) = x5 (ix2 (0 : Fin 3) j) := by
  have e : idx_main_v2 (idx_main_v3 (idx_main_v31 (idx_main_v32 (ix2 n j)))) = ix2 (0 : Fin 3) j :=
    funext fun a => Fin.ext (by
      have hj := j.isLt
      match a with
      | ⟨0, _⟩ => rfl
      | ⟨1, _⟩ => show j.val % 128 = j.val; omega)
  rw [val_main_v32_apply, val_main_v31_apply, val_main_v3_apply, val_main_v2_apply, e]

/-- The row before normalisation: the mean against the neighbour weights, plus the bias, plus the node's
    own features against the root weights. -/
theorem hid0_apply (n : Fin 50000) (j : Fin 128) :
    val_main_v36 (F := Ideal) x0 x1 x4 x5 x6 (ix2 n j)
      = ((∑ k : Fin 128, Ideal.div (val_main_v19 (F := Ideal) x0 x1 (ix2 n k)) (max (val_main_v23 (F := Ideal) x1 (ix1 n)) 1)
              * x4 (ix3 (0 : Fin 3) j k)) + x5 (ix2 (0 : Fin 3) j))
          + ∑ k : Fin 128, x0 (ix2 n k) * x6 (ix3 (0 : Fin 3) j k) := by
  have el : ∀ k : Fin 128, lidx_main_v30 (ix2 n j) k = ix2 n k := fun k =>
    funext fun a => Fin.ext (by match a with | ⟨0, _⟩ => rfl | ⟨1, _⟩ => rfl)
  have er : ∀ k : Fin 128, ridx_main_v30 (ix2 n j) k = ix2 k j := fun k =>
    funext fun a => Fin.ext (by match a with | ⟨0, _⟩ => rfl | ⟨1, _⟩ => rfl)
  have el' : ∀ k : Fin 128, lidx_main_v35 (ix2 n j) k = ix2 n k := fun k =>
    funext fun a => Fin.ext (by match a with | ⟨0, _⟩ => rfl | ⟨1, _⟩ => rfl)
  have er' : ∀ k : Fin 128, ridx_main_v35 (ix2 n j) k = ix2 k j := fun k =>
    funext fun a => Fin.ext (by match a with | ⟨0, _⟩ => rfl | ⟨1, _⟩ => rfl)
  rw [val_main_v36_apply, val_main_v33_apply, val_main_v30_apply, val_main_v35_apply, bias0_apply]
  simp only [Ideal.addf_def]
  have h1 : ∀ k : Fin 128, val_main_v28 (F := Ideal) x0 x1 (lidx_main_v30 (ix2 n j) k) * val_main_v29 (F := Ideal) x4 (ridx_main_v30 (ix2 n j) k)
      = Ideal.div (val_main_v19 (F := Ideal) x0 x1 (ix2 n k)) (max (val_main_v23 (F := Ideal) x1 (ix1 n)) 1) * x4 (ix3 (0 : Fin 3) j k) := fun k => by
    rw [el, er, mean0_apply, wl0_apply]
  have h2 : ∀ k : Fin 128, x0 (lidx_main_v35 (ix2 n j) k) * val_main_v34 (F := Ideal) x6 (ridx_main_v35 (ix2 n j) k)
      = x0 (ix2 n k) * x6 (ix3 (0 : Fin 3) j k) := fun k => by
    rw [el', er', wr0_apply]
  rw [Finset.sum_congr rfl fun k _ => h1 k, Finset.sum_congr rfl fun k _ => h2 k]

/-- The clamped norm of a node's row: the square root of the sum of its squares, at least the small
    constant. -/
theorem norm0_apply (n : Fin 50000) :
    val_main_v39 (F := Ideal) x0 x1 x4 x5 x6 (ix2 n (0 : Fin 1))
      = max (Ideal.sqrt (∑ j' : Fin 128, val_main_v36 (F := Ideal) x0 x1 x4 x5 x6 (ix2 n j') * val_main_v36 (F := Ideal) x0 x1 x4 x5 x6 (ix2 n j')))
          (Ideal.ofBits .f32 0x2B8CBCCC#32) := by
  have e : ∀ k : Fin 128, idx_main_call0_v1 (idx_main_call0_v2 (ix2 n (0 : Fin 1))) k = ix2 n k := fun k =>
    funext fun a => Fin.ext (by match a with | ⟨0, _⟩ => rfl | ⟨1, _⟩ => rfl)
  rw [val_main_v39_apply, val_main_v37_apply, val_main_call0_v2_apply, val_main_call0_v1_apply, val_main_call0_cst_apply, val_main_v38_apply, val_main_cst_4_apply]
  simp only [Ideal.maximumf_def, Ideal.hostUnary_sqrt_def, Ideal.ofBits_def, Ideal.ofBits_zero_f32, zero_add]
  have h : ∀ k : Fin 128, val_main_call0_v0 (F := Ideal) x0 x1 x4 x5 x6 (idx_main_call0_v1 (idx_main_call0_v2 (ix2 n (0 : Fin 1))) k)
      = val_main_v36 (F := Ideal) x0 x1 x4 x5 x6 (ix2 n k) * val_main_v36 (F := Ideal) x0 x1 x4 x5 x6 (ix2 n k) := fun k => by
    rw [e, val_main_call0_v0_apply]
    rfl
  rw [Finset.sum_congr rfl fun k _ => h k]

/-- The normalised row: each entry over the row's clamped norm. -/
theorem unit0_apply (n : Fin 50000) (j : Fin 128) :
    val_main_v41 (F := Ideal) x0 x1 x4 x5 x6 (ix2 n j)
      = Ideal.div (val_main_v36 (F := Ideal) x0 x1 x4 x5 x6 (ix2 n j)) (val_main_v39 (F := Ideal) x0 x1 x4 x5 x6 (ix2 n (0 : Fin 1))) := by
  have e : idx_main_v40 (ix2 n j) = ix2 n (0 : Fin 1) :=
    funext fun a => Fin.ext (by match a with | ⟨0, _⟩ => rfl | ⟨1, _⟩ => rfl)
  rw [val_main_v41_apply, val_main_v40_apply, e]
  rfl

/-- The attention factor, a scalar broadcast over the array, is this edge type's entry of the argument. -/
theorem att0_apply (n : Fin 50000) (j : Fin 128) :
    val_main_v44 (F := Ideal) x7 (ix2 n j) = x7 (ix1 (0 : Fin 3)) := by
  have e : idx_main_v42 (ix1 (0 : Fin 1)) = ix1 (0 : Fin 3) :=
    funext fun a => Fin.ext (by match a with | ⟨0, _⟩ => rfl)
  rw [val_main_v44_apply]
  unfold val_main_v43
  refine (shapeCast_apply (val_main_v42 (F := Ideal) x7) shapeCasts_S1_S_ _ (ix1 (0 : Fin 1)) ?_).trans ?_
  · rw [Shape.rowMajor_val_one]
    exact (Shape.rowMajorPi_zero _ _).symm
  · rw [val_main_v42_apply, e]

/-- The branch's output in the layer's own terms: the normalised row of the hidden features built
    on the reference's mean, times the attention factor. -/
theorem scaled0_apply (n : Fin 50000) (j : Fin 128) :
    val_main_v45 (F := Ideal) x0 x1 x4 x5 x6 x7 (ix2 n j)
      = unit (hid (fun n k => x0 (ix2 n k)) (fun e j k => x4 (ix3 e j k)) (fun e j k => x6 (ix3 e j k))
            (fun e j => x5 (ix2 e j)) (meanR (aggOf x0 x1 x2 x3) (cntOf x1 x2 x3))) (0 : Fin 3) n j
          * x7 (ix1 (0 : Fin 3)) := by
  rw [val_main_v45_apply, unit0_apply, norm0_apply, att0_apply]
  simp only [hid0_apply, Ideal.mulf_def]
  rfl

end

end Cert.ReferenceIdeal.RefValue

end
-- ==== Proof.RefLayer1.lean ====
/-
  The second edge type's branch of the reference, read element by element.

  For node `n` the branch divides the summed source features by the clamped in-degree, maps the mean by
  this edge type's neighbour weights (row `j` of the weight matrix against the mean: the program
  transposes the matrix and contracts its first axis), adds the bias and the root term, divides the
  row by its Euclidean norm clamped below, and scales by this edge type's attention factor. Each
  stage's element is named from its operands' elements; the weights, bias and attention factor are
  slices of the stacked arguments at leading coordinate 1.
-/
import proofs.«149329_j48928267436146_2_alg».proof.Proof.Gen.ReferenceIdeal.Read
import proofs.«149329_j48928267436146_2_alg».proof.Proof.SageSpec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost
import proofs.«149329_j48928267436146_2_alg».proof.Proof.RefStages

noncomputable section

namespace Cert.ReferenceIdeal.RefValue

open Cert.ReferenceIdeal Cert.ReferenceIdeal.Gen Cert.ReferenceIdeal.Read Cert.SageSpec Idealize.ShloMosaic Idealize.ShloMosaic.ValueIdx

section
variable (x0 : (⟨S50000x128, .f32⟩ : BufTy).Contents (Elt Ideal))
  (x1 x2 x3 : (⟨S2x512000, .i32⟩ : BufTy).Contents (Elt Ideal))
  (x4 : (⟨S3x128x128, .f32⟩ : BufTy).Contents (Elt Ideal)) (x5 : (⟨S3x128, .f32⟩ : BufTy).Contents (Elt Ideal))
  (x6 : (⟨S3x128x128, .f32⟩ : BufTy).Contents (Elt Ideal)) (x7 : (⟨S3, .f32⟩ : BufTy).Contents (Elt Ideal))

/-- The mean of the incoming features: the sum over the in-degree clamped below at one. -/
theorem mean1_apply (n : Fin 50000) (k : Fin 128) :
    val_main_v74 (F := Ideal) x0 x2 (ix2 n k)
      = Ideal.div (val_main_v65 (F := Ideal) x0 x2 (ix2 n k)) (max (val_main_v69 (F := Ideal) x2 (ix1 n)) 1) := by
  have e : idx_main_v72 (idx_main_v73 (ix2 n k)) = ix1 n :=
    funext fun a => Fin.ext (by match a with | ⟨0, _⟩ => rfl)
  rw [val_main_v74_apply, val_main_v73_apply, val_main_v72_apply, val_main_v71_apply, val_main_v70_apply, val_main_cst_10_apply, e]
  simp only [Ideal.hostDivf_def, Ideal.maximumf_def, Ideal.ofBits_def, Ideal.ofBits_one_f32]

/-- The transposed neighbour weights at `(k, j)` are entry `(j, k)` of this edge type's matrix. -/
theorem wl1_apply (k j : Fin 128) :
    val_main_v75 (F := Ideal) x4 (ix2 k j) = x4 (ix3 (1 : Fin 3) j k) := by
  have e1 : idx_main_v75 (ix2 k j) = ix2 j k :=
    funext fun a => Fin.ext (by match a with | ⟨0, _⟩ => rfl | ⟨1, _⟩ => rfl)
  have e2 : idx_main_v47 (ix2 j k) = ix3 (0 : Fin 1) j k :=
    funext fun a => Fin.ext (by
      have hj := j.isLt
      have hk := k.isLt
      match a with
      | ⟨0, _⟩ => rfl
      | ⟨1, _⟩ => show (j.val * 128 + k.val) / 128 % 128 = j.val; omega
      | ⟨2, _⟩ => show (j.val * 128 + k.val) % 128 = k.val; omega)
  have e3 : idx_main_v46 (ix3 (0 : Fin 1) j k) = ix3 (1 : Fin 3) j k :=
    funext fun a => Fin.ext (by match a with | ⟨0, _⟩ => rfl | ⟨1, _⟩ => rfl | ⟨2, _⟩ => rfl)
  rw [val_main_v75_apply, e1, val_main_v47_apply, e2, val_main_v46_apply, e3]

/-- The transposed root weights at `(k, j)` are entry `(j, k)` of this edge type's matrix. -/
theorem wr1_apply (k j : Fin 128) :
    val_main_v80 (F := Ideal) x6 (ix2 k j) = x6 (ix3 (1 : Fin 3) j k) := by
  have e1 : idx_main_v80 (ix2 k j) = ix2 j k :=
    funext fun a => Fin.ext (by match a with | ⟨0, _⟩ => rfl | ⟨1, _⟩ => rfl)
  have e2 : idx_main_v51 (ix2 j k) = ix3 (0 : Fin 1) j k :=
    funext fun a => Fin.ext (by
      have hj := j.isLt
      have hk := k.isLt
      match a with
      | ⟨0, _⟩ => rfl
      | ⟨1, _⟩ => show (j.val * 128 + k.val) / 128 % 128 = j.val; omega
      | ⟨2, _⟩ => show (j.val * 128 + k.val) % 128 = k.val; omega)
  have e3 : idx_main_v50 (ix3 (0 : Fin 1) j k) = ix3 (1 : Fin 3) j k :=
    funext fun a => Fin.ext (by match a with | ⟨0, _⟩ => rfl | ⟨1, _⟩ => rfl | ⟨2, _⟩ => rfl)
  rw [val_main_v80_apply, e1, val_main_v51_apply, e2, val_main_v50_apply, e3]

/-- The bias, broadcast over the nodes, is this edge type's row of the stacked biases. -/
theorem bias1_apply (n : Fin 50000) (j : Fin 128) :
    val_main_v78 (F := Ideal) x5 (ix2 n j) = x5 (ix2 (1 : Fin 3) j) := by
  have e : idx_main_v48 (idx_main_v49 (idx_main_v77 (idx_main_v78 (ix2 n j)))) = ix2 (1 : Fin 3) j :=
    funext fun a => Fin.ext (by
      have hj := j.isLt
      match a with
      | ⟨0, _⟩ => rfl
      | ⟨1, _⟩ => show j.val % 128 = j.val; omega)
  rw [val_main_v78_apply, val_main_v77_apply, val_main_v49_apply, val_main_v48_apply, e]

/-- The row before normalisation: the mean against the neighbour weights, plus the bias, plus the node's
    own features against the root weights. -/
theorem hid1_apply (n : Fin 50000) (j : Fin 128) :
    val_main_v82 (F := Ideal) x0 x2 x4 x5 x6 (ix2 n j)
      = ((∑ k : Fin 128, Ideal.div (val_main_v65 (F := Ideal) x0 x2 (ix2 n k)) (max (val_main_v69 (F := Ideal) x2 (ix1 n)) 1)
              * x4 (ix3 (1 : Fin 3) j k)) + x5 (ix2 (1 : Fin 3) j))
          + ∑ k : Fin 128, x0 (ix2 n k) * x6 (ix3 (1 : Fin 3) j k) := by
  have el : ∀ k : Fin 128, lidx_main_v76 (ix2 n j) k = ix2 n k := fun k =>
    funext fun a => Fin.ext (by match a with | ⟨0, _⟩ => rfl | ⟨1, _⟩ => rfl)
  have er : ∀ k : Fin 128, ridx_main_v76 (ix2 n j) k = ix2 k j := fun k =>
    funext fun a => Fin.ext (by match a with | ⟨0, _⟩ => rfl | ⟨1, _⟩ => rfl)
  have el' : ∀ k : Fin 128, lidx_main_v81 (ix2 n j) k = ix2 n k := fun k =>
    funext fun a => Fin.ext (by match a with | ⟨0, _⟩ => rfl | ⟨1, _⟩ => rfl)
  have er' : ∀ k : Fin 128, ridx_main_v81 (ix2 n j) k = ix2 k j := fun k =>
    funext fun a => Fin.ext (by match a with | ⟨0, _⟩ => rfl | ⟨1, _⟩ => rfl)
  rw [val_main_v82_apply, val_main_v79_apply, val_main_v76_apply, val_main_v81_apply, bias1_apply]
  simp only [Ideal.addf_def]
  have h1 : ∀ k : Fin 128, val_main_v74 (F := Ideal) x0 x2 (lidx_main_v76 (ix2 n j) k) * val_main_v75 (F := Ideal) x4 (ridx_main_v76 (ix2 n j) k)
      = Ideal.div (val_main_v65 (F := Ideal) x0 x2 (ix2 n k)) (max (val_main_v69 (F := Ideal) x2 (ix1 n)) 1) * x4 (ix3 (1 : Fin 3) j k) := fun k => by
    rw [el, er, mean1_apply, wl1_apply]
  have h2 : ∀ k : Fin 128, x0 (lidx_main_v81 (ix2 n j) k) * val_main_v80 (F := Ideal) x6 (ridx_main_v81 (ix2 n j) k)
      = x0 (ix2 n k) * x6 (ix3 (1 : Fin 3) j k) := fun k => by
    rw [el', er', wr1_apply]
  rw [Finset.sum_congr rfl fun k _ => h1 k, Finset.sum_congr rfl fun k _ => h2 k]

/-- The clamped norm of a node's row: the square root of the sum of its squares, at least the small
    constant. -/
theorem norm1_apply (n : Fin 50000) :
    val_main_v85 (F := Ideal) x0 x2 x4 x5 x6 (ix2 n (0 : Fin 1))
      = max (Ideal.sqrt (∑ j' : Fin 128, val_main_v82 (F := Ideal) x0 x2 x4 x5 x6 (ix2 n j') * val_main_v82 (F := Ideal) x0 x2 x4 x5 x6 (ix2 n j')))
          (Ideal.ofBits .f32 0x2B8CBCCC#32) := by
  have e : ∀ k : Fin 128, idx_main_call1_v1 (idx_main_call1_v2 (ix2 n (0 : Fin 1))) k = ix2 n k := fun k =>
    funext fun a => Fin.ext (by match a with | ⟨0, _⟩ => rfl | ⟨1, _⟩ => rfl)
  rw [val_main_v85_apply, val_main_v83_apply, val_main_call1_v2_apply, val_main_call1_v1_apply, val_main_call1_cst_apply, val_main_v84_apply, val_main_cst_11_apply]
  simp only [Ideal.maximumf_def, Ideal.hostUnary_sqrt_def, Ideal.ofBits_def, Ideal.ofBits_zero_f32, zero_add]
  have h : ∀ k : Fin 128, val_main_call1_v0 (F := Ideal) x0 x2 x4 x5 x6 (idx_main_call1_v1 (idx_main_call1_v2 (ix2 n (0 : Fin 1))) k)
      = val_main_v82 (F := Ideal) x0 x2 x4 x5 x6 (ix2 n k) * val_main_v82 (F := Ideal) x0 x2 x4 x5 x6 (ix2 n k) := fun k => by
    rw [e, val_main_call1_v0_apply]
    rfl
  rw [Finset.sum_congr rfl fun k _ => h k]

/-- The normalised row: each entry over the row's clamped norm. -/
theorem unit1_apply (n : Fin 50000) (j : Fin 128) :
    val_main_v87 (F := Ideal) x0 x2 x4 x5 x6 (ix2 n j)
      = Ideal.div (val_main_v82 (F := Ideal) x0 x2 x4 x5 x6 (ix2 n j)) (val_main_v85 (F := Ideal) x0 x2 x4 x5 x6 (ix2 n (0 : Fin 1))) := by
  have e : idx_main_v86 (ix2 n j) = ix2 n (0 : Fin 1) :=
    funext fun a => Fin.ext (by match a with | ⟨0, _⟩ => rfl | ⟨1, _⟩ => rfl)
  rw [val_main_v87_apply, val_main_v86_apply, e]
  rfl

/-- The attention factor, a scalar broadcast over the array, is this edge type's entry of the argument. -/
theorem att1_apply (n : Fin 50000) (j : Fin 128) :
    val_main_v90 (F := Ideal) x7 (ix2 n j) = x7 (ix1 (1 : Fin 3)) := by
  have e : idx_main_v88 (ix1 (0 : Fin 1)) = ix1 (1 : Fin 3) :=
    funext fun a => Fin.ext (by match a with | ⟨0, _⟩ => rfl)
  rw [val_main_v90_apply]
  unfold val_main_v89
  refine (shapeCast_apply (val_main_v88 (F := Ideal) x7) shapeCasts_S1_S_ _ (ix1 (0 : Fin 1)) ?_).trans ?_
  · rw [Shape.rowMajor_val_one]
    exact (Shape.rowMajorPi_zero _ _).symm
  · rw [val_main_v88_apply, e]

/-- The branch's output in the layer's own terms: the normalised row of the hidden features built
    on the reference's mean, times the attention factor. -/
theorem scaled1_apply (n : Fin 50000) (j : Fin 128) :
    val_main_v91 (F := Ideal) x0 x2 x4 x5 x6 x7 (ix2 n j)
      = unit (hid (fun n k => x0 (ix2 n k)) (fun e j k => x4 (ix3 e j k)) (fun e j k => x6 (ix3 e j k))
            (fun e j => x5 (ix2 e j)) (meanR (aggOf x0 x1 x2 x3) (cntOf x1 x2 x3))) (1 : Fin 3) n j
          * x7 (ix1 (1 : Fin 3)) := by
  rw [val_main_v91_apply, unit1_apply, norm1_apply, att1_apply]
  simp only [hid1_apply, Ideal.mulf_def]
  rfl

end

end Cert.ReferenceIdeal.RefValue

end
-- ==== Proof.RefLayer2.lean ====
/-
  The third edge type's branch of the reference, read element by element.

  For node `n` the branch divides the summed source features by the clamped in-degree, maps the mean by
  this edge type's neighbour weights (row `j` of the weight matrix against the mean: the program
  transposes the matrix and contracts its first axis), adds the bias and the root term, divides the
  row by its Euclidean norm clamped below, and scales by this edge type's attention factor. Each
  stage's element is named from its operands' elements; the weights, bias and attention factor are
  slices of the stacked arguments at leading coordinate 2.
-/
import proofs.«149329_j48928267436146_2_alg».proof.Proof.Gen.ReferenceIdeal.Read
import proofs.«149329_j48928267436146_2_alg».proof.Proof.SageSpec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost
import proofs.«149329_j48928267436146_2_alg».proof.Proof.RefStages

noncomputable section

namespace Cert.ReferenceIdeal.RefValue

open Cert.ReferenceIdeal Cert.ReferenceIdeal.Gen Cert.ReferenceIdeal.Read Cert.SageSpec Idealize.ShloMosaic Idealize.ShloMosaic.ValueIdx

section
variable (x0 : (⟨S50000x128, .f32⟩ : BufTy).Contents (Elt Ideal))
  (x1 x2 x3 : (⟨S2x512000, .i32⟩ : BufTy).Contents (Elt Ideal))
  (x4 : (⟨S3x128x128, .f32⟩ : BufTy).Contents (Elt Ideal)) (x5 : (⟨S3x128, .f32⟩ : BufTy).Contents (Elt Ideal))
  (x6 : (⟨S3x128x128, .f32⟩ : BufTy).Contents (Elt Ideal)) (x7 : (⟨S3, .f32⟩ : BufTy).Contents (Elt Ideal))

/-- The mean of the incoming features: the sum over the in-degree clamped below at one. -/
theorem mean2_apply (n : Fin 50000) (k : Fin 128) :
    val_main_v120 (F := Ideal) x0 x3 (ix2 n k)
      = Ideal.div (val_main_v111 (F := Ideal) x0 x3 (ix2 n k)) (max (val_main_v115 (F := Ideal) x3 (ix1 n)) 1) := by
  have e : idx_main_v118 (idx_main_v119 (ix2 n k)) = ix1 n :=
    funext fun a => Fin.ext (by match a with | ⟨0, _⟩ => rfl)
  rw [val_main_v120_apply, val_main_v119_apply, val_main_v118_apply, val_main_v117_apply, val_main_v116_apply, val_main_cst_17_apply, e]
  simp only [Ideal.hostDivf_def, Ideal.maximumf_def, Ideal.ofBits_def, Ideal.ofBits_one_f32]

/-- The transposed neighbour weights at `(k, j)` are entry `(j, k)` of this edge type's matrix. -/
theorem wl2_apply (k j : Fin 128) :
    val_main_v121 (F := Ideal) x4 (ix2 k j) = x4 (ix3 (2 : Fin 3) j k) := by
  have e1 : idx_main_v121 (ix2 k j) = ix2 j k :=
    funext fun a => Fin.ext (by match a with | ⟨0, _⟩ => rfl | ⟨1, _⟩ => rfl)
  have e2 : idx_main_v93 (ix2 j k) = ix3 (0 : Fin 1) j k :=
    funext fun a => Fin.ext (by
      have hj := j.isLt
      have hk := k.isLt
      match a with
      | ⟨0, _⟩ => rfl
      | ⟨1, _⟩ => show (j.val * 128 + k.val) / 128 % 128 = j.val; omega
      | ⟨2, _⟩ => show (j.val * 128 + k.val) % 128 = k.val; omega)
  have e3 : idx_main_v92 (ix3 (0 : Fin 1) j k) = ix3 (2 : Fin 3) j k :=
    funext fun a => Fin.ext (by match a with | ⟨0, _⟩ => rfl | ⟨1, _⟩ => rfl | ⟨2, _⟩ => rfl)
  rw [val_main_v121_apply, e1, val_main_v93_apply, e2, val_main_v92_apply, e3]

/-- The transposed root weights at `(k, j)` are entry `(j, k)` of this edge type's matrix. -/
theorem wr2_apply (k j : Fin 128) :
    val_main_v126 (F := Ideal) x6 (ix2 k j) = x6 (ix3 (2 : Fin 3) j k) := by
  have e1 : idx_main_v126 (ix2 k j) = ix2 j k :=
    funext fun a => Fin.ext (by match a with | ⟨0, _⟩ => rfl | ⟨1, _⟩ => rfl)
  have e2 : idx_main_v97 (ix2 j k) = ix3 (0 : Fin 1) j k :=
    funext fun a => Fin.ext (by
      have hj := j.isLt
      have hk := k.isLt
      match a with
      | ⟨0, _⟩ => rfl
      | ⟨1, _⟩ => show (j.val * 128 + k.val) / 128 % 128 = j.val; omega
      | ⟨2, _⟩ => show (j.val * 128 + k.val) % 128 = k.val; omega)
  have e3 : idx_main_v96 (ix3 (0 : Fin 1) j k) = ix3 (2 : Fin 3) j k :=
    funext fun a => Fin.ext (by match a with | ⟨0, _⟩ => rfl | ⟨1, _⟩ => rfl | ⟨2, _⟩ => rfl)
  rw [val_main_v126_apply, e1, val_main_v97_apply, e2, val_main_v96_apply, e3]

/-- The bias, broadcast over the nodes, is this edge type's row of the stacked biases. -/
theorem bias2_apply (n : Fin 50000) (j : Fin 128) :
    val_main_v124 (F := Ideal) x5 (ix2 n j) = x5 (ix2 (2 : Fin 3) j) := by
  have e : idx_main_v94 (idx_main_v95 (idx_main_v123 (idx_main_v124 (ix2 n j)))) = ix2 (2 : Fin 3) j :=
    funext fun a => Fin.ext (by
      have hj := j.isLt
      match a with
      | ⟨0, _⟩ => rfl
      | ⟨1, _⟩ => show j.val % 128 = j.val; omega)
  rw [val_main_v124_apply, val_main_v123_apply, val_main_v95_apply, val_main_v94_apply, e]

/-- The row before normalisation: the mean against the neighbour weights, plus the bias, plus the node's
    own features against the root weights. -/
theorem hid2_apply (n : Fin 50000) (j : Fin 128) :
    val_main_v128 (F := Ideal) x0 x3 x4 x5 x6 (ix2 n j)
      = ((∑ k : Fin 128, Ideal.div (val_main_v111 (F := Ideal) x0 x3 (ix2 n k)) (max (val_main_v115 (F := Ideal) x3 (ix1 n)) 1)
              * x4 (ix3 (2 : Fin 3) j k)) + x5 (ix2 (2 : Fin 3) j))
          + ∑ k : Fin 128, x0 (ix2 n k) * x6 (ix3 (2 : Fin 3) j k) := by
  have el : ∀ k : Fin 128, lidx_main_v122 (ix2 n j) k = ix2 n k := fun k =>
    funext fun a => Fin.ext (by match a with | ⟨0, _⟩ => rfl | ⟨1, _⟩ => rfl)
  have er : ∀ k : Fin 128, ridx_main_v122 (ix2 n j) k = ix2 k j := fun k =>
    funext fun a => Fin.ext (by match a with | ⟨0, _⟩ => rfl | ⟨1, _⟩ => rfl)
  have el' : ∀ k : Fin 128, lidx_main_v127 (ix2 n j) k = ix2 n k := fun k =>
    funext fun a => Fin.ext (by match a with | ⟨0, _⟩ => rfl | ⟨1, _⟩ => rfl)
  have er' : ∀ k : Fin 128, ridx_main_v127 (ix2 n j) k = ix2 k j := fun k =>
    funext fun a => Fin.ext (by match a with | ⟨0, _⟩ => rfl | ⟨1, _⟩ => rfl)
  rw [val_main_v128_apply, val_main_v125_apply, val_main_v122_apply, val_main_v127_apply, bias2_apply]
  simp only [Ideal.addf_def]
  have h1 : ∀ k : Fin 128, val_main_v120 (F := Ideal) x0 x3 (lidx_main_v122 (ix2 n j) k) * val_main_v121 (F := Ideal) x4 (ridx_main_v122 (ix2 n j) k)
      = Ideal.div (val_main_v111 (F := Ideal) x0 x3 (ix2 n k)) (max (val_main_v115 (F := Ideal) x3 (ix1 n)) 1) * x4 (ix3 (2 : Fin 3) j k) := fun k => by
    rw [el, er, mean2_apply, wl2_apply]
  have h2 : ∀ k : Fin 128, x0 (lidx_main_v127 (ix2 n j) k) * val_main_v126 (F := Ideal) x6 (ridx_main_v127 (ix2 n j) k)
      = x0 (ix2 n k) * x6 (ix3 (2 : Fin 3) j k) := fun k => by
    rw [el', er', wr2_apply]
  rw [Finset.sum_congr rfl fun k _ => h1 k, Finset.sum_congr rfl fun k _ => h2 k]

/-- The clamped norm of a node's row: the square root of the sum of its squares, at least the small
    constant. -/
theorem norm2_apply (n : Fin 50000) :
    val_main_v131 (F := Ideal) x0 x3 x4 x5 x6 (ix2 n (0 : Fin 1))
      = max (Ideal.sqrt (∑ j' : Fin 128, val_main_v128 (F := Ideal) x0 x3 x4 x5 x6 (ix2 n j') * val_main_v128 (F := Ideal) x0 x3 x4 x5 x6 (ix2 n j')))
          (Ideal.ofBits .f32 0x2B8CBCCC#32) := by
  have e : ∀ k : Fin 128, idx_main_call2_v1 (idx_main_call2_v2 (ix2 n (0 : Fin 1))) k = ix2 n k := fun k =>
    funext fun a => Fin.ext (by match a with | ⟨0, _⟩ => rfl | ⟨1, _⟩ => rfl)
  rw [val_main_v131_apply, val_main_v129_apply, val_main_call2_v2_apply, val_main_call2_v1_apply, val_main_call2_cst_apply, val_main_v130_apply, val_main_cst_18_apply]
  simp only [Ideal.maximumf_def, Ideal.hostUnary_sqrt_def, Ideal.ofBits_def, Ideal.ofBits_zero_f32, zero_add]
  have h : ∀ k : Fin 128, val_main_call2_v0 (F := Ideal) x0 x3 x4 x5 x6 (idx_main_call2_v1 (idx_main_call2_v2 (ix2 n (0 : Fin 1))) k)
      = val_main_v128 (F := Ideal) x0 x3 x4 x5 x6 (ix2 n k) * val_main_v128 (F := Ideal) x0 x3 x4 x5 x6 (ix2 n k) := fun k => by
    rw [e, val_main_call2_v0_apply]
    rfl
  rw [Finset.sum_congr rfl fun k _ => h k]

/-- The normalised row: each entry over the row's clamped norm. -/
theorem unit2_apply (n : Fin 50000) (j : Fin 128) :
    val_main_v133 (F := Ideal) x0 x3 x4 x5 x6 (ix2 n j)
      = Ideal.div (val_main_v128 (F := Ideal) x0 x3 x4 x5 x6 (ix2 n j)) (val_main_v131 (F := Ideal) x0 x3 x4 x5 x6 (ix2 n (0 : Fin 1))) := by
  have e : idx_main_v132 (ix2 n j) = ix2 n (0 : Fin 1) :=
    funext fun a => Fin.ext (by match a with | ⟨0, _⟩ => rfl | ⟨1, _⟩ => rfl)
  rw [val_main_v133_apply, val_main_v132_apply, e]
  rfl

/-- The attention factor, a scalar broadcast over the array, is this edge type's entry of the argument. -/
theorem att2_apply (n : Fin 50000) (j : Fin 128) :
    val_main_v136 (F := Ideal) x7 (ix2 n j) = x7 (ix1 (2 : Fin 3)) := by
  have e : idx_main_v134 (ix1 (0 : Fin 1)) = ix1 (2 : Fin 3) :=
    funext fun a => Fin.ext (by match a with | ⟨0, _⟩ => rfl)
  rw [val_main_v136_apply]
  unfold val_main_v135
  refine (shapeCast_apply (val_main_v134 (F := Ideal) x7) shapeCasts_S1_S_ _ (ix1 (0 : Fin 1)) ?_).trans ?_
  · rw [Shape.rowMajor_val_one]
    exact (Shape.rowMajorPi_zero _ _).symm
  · rw [val_main_v134_apply, e]

/-- The branch's output in the layer's own terms: the normalised row of the hidden features built
    on the reference's mean, times the attention factor. -/
theorem scaled2_apply (n : Fin 50000) (j : Fin 128) :
    val_main_v137 (F := Ideal) x0 x3 x4 x5 x6 x7 (ix2 n j)
      = unit (hid (fun n k => x0 (ix2 n k)) (fun e j k => x4 (ix3 e j k)) (fun e j k => x6 (ix3 e j k))
            (fun e j => x5 (ix2 e j)) (meanR (aggOf x0 x1 x2 x3) (cntOf x1 x2 x3))) (2 : Fin 3) n j
          * x7 (ix1 (2 : Fin 3)) := by
  rw [val_main_v137_apply, unit2_apply, norm2_apply, att2_apply]
  simp only [hid2_apply, Ideal.mulf_def]
  rfl

end

end Cert.ReferenceIdeal.RefValue

end
-- ==== Proof.RefResult.lean ====
/-
  The reference's result, element by element, is the layer's specification.

  The three branches' outputs are laid side by side along the feature axis: column `q` of the
  384-wide array is column `q mod 128` of branch `q div 128`. The result contracts that axis
  against the transposed combining weights — entry `(q, o)` of the transpose is entry `(o, q)` of the
  argument — and adds the bias. With each branch's element already in the layer's terms, the sum over
  the 384 columns is the specification's sum term by term.
-/
import proofs.«149329_j48928267436146_2_alg».proof.Proof.Gen.ReferenceIdeal.Read
import proofs.«149329_j48928267436146_2_alg».proof.Proof.SageSpec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost
import proofs.«149329_j48928267436146_2_alg».proof.Proof.RefStages
import proofs.«149329_j48928267436146_2_alg».proof.Proof.RefLayer0
import proofs.«149329_j48928267436146_2_alg».proof.Proof.RefLayer1
import proofs.«149329_j48928267436146_2_alg».proof.Proof.RefLayer2

noncomputable section

namespace Cert.ReferenceIdeal.RefValue

open Cert.ReferenceIdeal Cert.ReferenceIdeal.Gen Cert.ReferenceIdeal.Read Cert.SageSpec Idealize.ShloMosaic Idealize.ShloMosaic.ValueIdx

section
variable (x0 : (⟨S50000x128, .f32⟩ : BufTy).Contents (Elt Ideal))
  (x1 x2 x3 : (⟨S2x512000, .i32⟩ : BufTy).Contents (Elt Ideal))
  (x4 : (⟨S3x128x128, .f32⟩ : BufTy).Contents (Elt Ideal)) (x5 : (⟨S3x128, .f32⟩ : BufTy).Contents (Elt Ideal))
  (x6 : (⟨S3x128x128, .f32⟩ : BufTy).Contents (Elt Ideal)) (x7 : (⟨S3, .f32⟩ : BufTy).Contents (Elt Ideal))
  (x8 : (⟨S128x384, .f32⟩ : BufTy).Contents (Elt Ideal)) (x9 : (⟨S128, .f32⟩ : BufTy).Contents (Elt Ideal))

/-- Column `q` of the concatenated array is column `off q` of branch `seg q`: the branch whose span of
    128 columns holds `q`. -/
theorem cat_apply (n : Fin 50000) (q : Fin 384) :
    val_main_v138 (F := Ideal) x0 x1 x2 x3 x4 x5 x6 x7 (ix2 n q)
      = unit (hid (fun n k => x0 (ix2 n k)) (fun e j k => x4 (ix3 e j k)) (fun e j k => x6 (ix3 e j k))
            (fun e j => x5 (ix2 e j)) (meanR (aggOf x0 x1 x2 x3) (cntOf x1 x2 x3))) (seg q) n (off q)
          * x7 (ix1 (seg q)) := by
  have hq := q.isLt
  unfold val_main_v138
  rcases Nat.lt_or_ge q.val 128 with h0 | h0
  ·
    have hs : seg q = (0 : Fin 3) := Fin.ext (by show q.val / 128 = 0; omega)
    rw [hs, ← scaled0_apply x0 x1 x2 x3 x4 x5 x6 x7 n (off q)]
    refine concatenate_apply_piece (t := S50000x384) (1 : Fin S50000x384.rank)
      [⟨S50000x128, (val_main_v45 (F := Ideal) x0 x1 x4 x5 x6 x7)⟩, ⟨S50000x128, (val_main_v91 (F := Ideal) x0 x2 x4 x5 x6 x7)⟩, ⟨S50000x128, (val_main_v137 (F := Ideal) x0 x3 x4 x5 x6 x7)⟩]
      concatenates_S50000x128_S50000x128_S50000x128_S50000x384_d1 (ix2 n q) 0 (by show (0 : Nat) < 3; decide) S50000x128 (val_main_v45 (F := Ideal) x0 x1 x4 x5 x6 x7) rfl rfl 0 rfl
      (ix2 n (off q)) (fun b hb => ?_) ?_
    · match b with
      | ⟨0, _⟩ => rfl
      | ⟨1, _⟩ => exact absurd rfl hb
    · show 0 + q.val % 128 = q.val
      omega
  rcases Nat.lt_or_ge q.val 256 with h1 | h1
  ·
    have hs : seg q = (1 : Fin 3) := Fin.ext (by show q.val / 128 = 1; omega)
    rw [hs, ← scaled1_apply x0 x1 x2 x3 x4 x5 x6 x7 n (off q)]
    refine concatenate_apply_piece (t := S50000x384) (1 : Fin S50000x384.rank)
      [⟨S50000x128, (val_main_v45 (F := Ideal) x0 x1 x4 x5 x6 x7)⟩, ⟨S50000x128, (val_main_v91 (F := Ideal) x0 x2 x4 x5 x6 x7)⟩, ⟨S50000x128, (val_main_v137 (F := Ideal) x0 x3 x4 x5 x6 x7)⟩]
      concatenates_S50000x128_S50000x128_S50000x128_S50000x384_d1 (ix2 n q) 1 (by show (1 : Nat) < 3; decide) S50000x128 (val_main_v91 (F := Ideal) x0 x2 x4 x5 x6 x7) rfl rfl 128 rfl
      (ix2 n (off q)) (fun b hb => ?_) ?_
    · match b with
      | ⟨0, _⟩ => rfl
      | ⟨1, _⟩ => exact absurd rfl hb
    · show 128 + q.val % 128 = q.val
      omega
  ·
    have hs : seg q = (2 : Fin 3) := Fin.ext (by show q.val / 128 = 2; omega)
    rw [hs, ← scaled2_apply x0 x1 x2 x3 x4 x5 x6 x7 n (off q)]
    refine concatenate_apply_piece (t := S50000x384) (1 : Fin S50000x384.rank)
      [⟨S50000x128, (val_main_v45 (F := Ideal) x0 x1 x4 x5 x6 x7)⟩, ⟨S50000x128, (val_main_v91 (F := Ideal) x0 x2 x4 x5 x6 x7)⟩, ⟨S50000x128, (val_main_v137 (F := Ideal) x0 x3 x4 x5 x6 x7)⟩]
      concatenates_S50000x128_S50000x128_S50000x128_S50000x384_d1 (ix2 n q) 2 (by show (2 : Nat) < 3; decide) S50000x128 (val_main_v137 (F := Ideal) x0 x3 x4 x5 x6 x7) rfl rfl 256 rfl
      (ix2 n (off q)) (fun b hb => ?_) ?_
    · match b with
      | ⟨0, _⟩ => rfl
      | ⟨1, _⟩ => exact absurd rfl hb
    · show 256 + q.val % 128 = q.val
      omega

/-- The transposed combining weights at `(q, o)` are entry `(o, q)` of the argument. -/
theorem wc_apply (q : Fin 384) (o : Fin 128) :
    val_main_v139 (F := Ideal) x8 (ix2 q o) = x8 (ix2 o q) := by
  have e : idx_main_v139 (ix2 q o) = ix2 o q :=
    funext fun a => Fin.ext (by match a with | ⟨0, _⟩ => rfl | ⟨1, _⟩ => rfl)
  rw [val_main_v139_apply, e]

/-- The combining bias, broadcast over the nodes, is the argument's entry at the output column. -/
theorem bc_apply (n : Fin 50000) (o : Fin 128) :
    val_main_v142 (F := Ideal) x9 (ix2 n o) = x9 (ix1 o) := by
  have e : idx_main_v141 (idx_main_v142 (ix2 n o)) = ix1 o :=
    funext fun a => Fin.ext (by match a with | ⟨0, _⟩ => rfl)
  rw [val_main_v142_apply, val_main_v141_apply, e]

/-- The reference's result at node `n`, output column `o`, is the layer's specification of the
    reference's own segment sums and counts and the arguments' entries. -/
theorem result_apply (n : Fin 50000) (o : Fin 128) :
    val_main_v143 (F := Ideal) x0 x1 x2 x3 x4 x5 x6 x7 x8 x9 (ix2 n o)
      = outR (aggOf x0 x1 x2 x3) (cntOf x1 x2 x3) (fun n k => x0 (ix2 n k)) (fun e j k => x4 (ix3 e j k))
          (fun e j k => x6 (ix3 e j k)) (fun e j => x5 (ix2 e j)) (fun e => x7 (ix1 e)) (fun o q => x8 (ix2 o q))
          (fun o => x9 (ix1 o)) n o := by
  have el : ∀ q : Fin 384, lidx_main_v140 (ix2 n o) q = ix2 n q := fun q =>
    funext fun a => Fin.ext (by match a with | ⟨0, _⟩ => rfl | ⟨1, _⟩ => rfl)
  have er : ∀ q : Fin 384, ridx_main_v140 (ix2 n o) q = ix2 q o := fun q =>
    funext fun a => Fin.ext (by match a with | ⟨0, _⟩ => rfl | ⟨1, _⟩ => rfl)
  have h : ∀ q : Fin 384,
      val_main_v138 (F := Ideal) x0 x1 x2 x3 x4 x5 x6 x7 (lidx_main_v140 (ix2 n o) q)
          * val_main_v139 (F := Ideal) x8 (ridx_main_v140 (ix2 n o) q)
        = (unit (hid (fun n k => x0 (ix2 n k)) (fun e j k => x4 (ix3 e j k)) (fun e j k => x6 (ix3 e j k))
            (fun e j => x5 (ix2 e j)) (meanR (aggOf x0 x1 x2 x3) (cntOf x1 x2 x3))) (seg q) n (off q)
            * x7 (ix1 (seg q))) * x8 (ix2 o q) := fun q => by
    rw [el, er, cat_apply, wc_apply]
  rw [val_main_v143_apply, val_main_v140_apply, bc_apply, Finset.sum_congr rfl fun q _ => h q]
  rfl

end

end Cert.ReferenceIdeal.RefValue

end
-- ==== Proof.EntryArgsIdeal.lean ====
/-
  The kernel program's ten argument arrays as launched on a core, each as a function of its index.
-/
import proofs.«149329_j48928267436146_2_alg».proof.Proof.EntryIdeal
import Idealize.ShloMosaic.Lib.ValueIdx
import Idealize.ShloMosaic.Lib.StableHlo.Run

noncomputable section

namespace Cert.KernelIdeal.EntryRead

open Cert.KernelIdeal Cert.KernelIdeal.Gen Cert.KernelIdeal.Entry
open Idealize.ShloMosaic Idealize.ShloMosaic.TcCoe Idealize.ShloMosaic.StableHlo Idealize.ShloMosaic.ValueIdx

variable (m : (ℓ : Loc nD τ sig) → Buf (Elt Ideal) ℓ) (c : Dev nD)

/-- Argument 0's contents at launch. -/
abbrev arg0 : S50000x128.Idx → EReal := m ((c : Thread nD τ).loc main_arg0)
/-- Argument 1's contents at launch. -/
abbrev arg1 : S2x512000.Idx → BitVec 32 := m ((c : Thread nD τ).loc main_arg1)
/-- Argument 2's contents at launch. -/
abbrev arg2 : S2x512000.Idx → BitVec 32 := m ((c : Thread nD τ).loc main_arg2)
/-- Argument 3's contents at launch. -/
abbrev arg3 : S2x512000.Idx → BitVec 32 := m ((c : Thread nD τ).loc main_arg3)
/-- Argument 4's contents at launch. -/
abbrev arg4 : S3x128x128.Idx → EReal := m ((c : Thread nD τ).loc main_arg4)
/-- Argument 5's contents at launch. -/
abbrev arg5 : S3x128.Idx → EReal := m ((c : Thread nD τ).loc main_arg5)
/-- Argument 6's contents at launch. -/
abbrev arg6 : S3x128x128.Idx → EReal := m ((c : Thread nD τ).loc main_arg6)
/-- Argument 7's contents at launch. -/
abbrev arg7 : S3.Idx → EReal := m ((c : Thread nD τ).loc main_arg7)
/-- Argument 8's contents at launch. -/
abbrev arg8 : S128x384.Idx → EReal := m ((c : Thread nD τ).loc main_arg8)
/-- Argument 9's contents at launch. -/
abbrev arg9 : S128.Idx → EReal := m ((c : Thread nD τ).loc main_arg9)

end Cert.KernelIdeal.EntryRead

end
-- ==== Proof.EntryAggIdeal.lean ====
/-
  The segment sums and reciprocal in-degrees the kernel's region finds, read against the reference's stages.

  Before its region the kernel's program computes, for each edge type, the same two sums over the edge
  list as the reference — the gathered source rows added per destination node, and the number of
  edges per destination node —, the first passed through the narrow float format (no change on
  extended reals), the second clamped below at one, inverted, and packed with the other two edge
  types' as the three columns of one array. The sums themselves are never opened: each is shown to
  be the reference's stage by matching the operands of the two programs' identical operations.
-/
import proofs.«149329_j48928267436146_2_alg».proof.Proof.EntryIdeal
import proofs.«149329_j48928267436146_2_alg».proof.Proof.EntryArgsIdeal
import proofs.«149329_j48928267436146_2_alg».proof.Proof.RefStages
import proofs.«149329_j48928267436146_2_alg».proof.Proof.SageSpec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost
import Idealize.ShloMosaic.Lib.StableHlo.Run

noncomputable section

namespace Cert.KernelIdeal.EntryRead

open Cert.KernelIdeal Cert.KernelIdeal.Gen Cert.KernelIdeal.Entry
open Idealize.ShloMosaic Idealize.ShloMosaic.TcCoe Idealize.ShloMosaic.StableHlo Idealize.ShloMosaic.ValueIdx

variable (m : (ℓ : Loc nD τ sig) → Buf (Elt Ideal) ℓ) (c : Dev nD)

/-! ## Conversions of format are the identity; the two opaque sums respect equal operands -/

theorem truncf_id {s : Shape} {φ ψ : FTy} (a : FVec Ideal s φ) (h : ψ.bits < φ.bits) :
    (truncf ψ a h : s.Idx → EReal) = a := rfl

theorem extf_id {s : Shape} {φ ψ : FTy} (a : FVec Ideal s φ) (h : φ.bits < ψ.bits) :
    (extf ψ a h : s.Idx → EReal) = a := rfl

theorem scatterAdd_congr {s si u : Shape} {w : Nat} {φ : FTy} {d d' : ScatterDims s si u} {x x' : FVec Ideal s φ}
    {i i' : IVec si w} {v v' : FVec Ideal u φ} (hd : d = d') (hx : x = x') (hi : i = i') (hv : v = v') :
    Host.scatterAdd d x i v = Host.scatterAdd d' x' i' v' := by
  subst hd hx hi hv; rfl

theorem gather_congr {α : Type} {s si t : Shape} {w : Nat} {d d' : GatherDims s si t} {x x' : s.Idx → α}
    {i i' : IVec si w} (hd : d = d') (hx : x = x') (hi : i = i') :
    Host.gather d x i = Host.gather d' x' i' := by
  subst hd hx hi; rfl

/-! ## The three segment sums -/

/-- The stored segment sum of edge type 0 is the reference's own: the same sum of the same gathered rows over
    the same edge list; the two roundings on its way, to the narrow format and back, are the identity
    on extended reals. -/
theorem seg0_arr : (V m c main_v24 : S50000x128.Idx → EReal)
    = Cert.ReferenceIdeal.Read.val_main_v19 (F := Ideal) (arg0 m c) (arg1 m c) := by
  dsimp only [V, hostOps0]
  after_results_simp
  first | refine (truncf_id (φ := .f32) (ψ := .bf16) _ bitsLt_bf16_f32).trans ?_ | fail "the outer conversion"
  unfold Cert.ReferenceIdeal.Read.val_main_v19
  first | refine scatterAdd_congr rfl rfl rfl ?_ | fail "the sum's operands"
  first | refine (extf_id (φ := .bf16) (ψ := .f32) _ bitsLt_bf16_f32).trans ?_ | fail "the inner conversion"
  unfold Cert.ReferenceIdeal.Read.val_main_v16
  first | exact gather_congr rfl (truncf_id (φ := .f32) (ψ := .bf16) _ bitsLt_bf16_f32) rfl | fail "the gathered rows"

theorem seg0 (n : Fin 50000) (k : Fin 128) :
    (V m c main_v24 : S50000x128.Idx → EReal) (ix2 n k)
      = Cert.ReferenceIdeal.RefValue.aggOf (arg0 m c) (arg1 m c) (arg2 m c) (arg3 m c) (0 : Fin 3) n k :=
  congrFun (seg0_arr m c) (ix2 n k)

/-- The stored segment sum of edge type 1 is the reference's own: the same sum of the same gathered rows over
    the same edge list; the two roundings on its way, to the narrow format and back, are the identity
    on extended reals. -/
theorem seg1_arr : (V m c main_v48 : S50000x128.Idx → EReal)
    = Cert.ReferenceIdeal.Read.val_main_v65 (F := Ideal) (arg0 m c) (arg2 m c) := by
  dsimp only [V, hostOps0]
  after_results_simp
  first | refine (truncf_id (φ := .f32) (ψ := .bf16) _ bitsLt_bf16_f32).trans ?_ | fail "the outer conversion"
  unfold Cert.ReferenceIdeal.Read.val_main_v65
  first | refine scatterAdd_congr rfl rfl rfl ?_ | fail "the sum's operands"
  first | refine (extf_id (φ := .bf16) (ψ := .f32) _ bitsLt_bf16_f32).trans ?_ | fail "the inner conversion"
  unfold Cert.ReferenceIdeal.Read.val_main_v62
  first | exact gather_congr rfl (truncf_id (φ := .f32) (ψ := .bf16) _ bitsLt_bf16_f32) rfl | fail "the gathered rows"

theorem seg1 (n : Fin 50000) (k : Fin 128) :
    (V m c main_v48 : S50000x128.Idx → EReal) (ix2 n k)
      = Cert.ReferenceIdeal.RefValue.aggOf (arg0 m c) (arg1 m c) (arg2 m c) (arg3 m c) (1 : Fin 3) n k :=
  congrFun (seg1_arr m c) (ix2 n k)

/-- The stored segment sum of edge type 2 is the reference's own: the same sum of the same gathered rows over
    the same edge list; the two roundings on its way, to the narrow format and back, are the identity
    on extended reals. -/
theorem seg2_arr : (V m c main_v72 : S50000x128.Idx → EReal)
    = Cert.ReferenceIdeal.Read.val_main_v111 (F := Ideal) (arg0 m c) (arg3 m c) := by
  dsimp only [V, hostOps0]
  after_results_simp
  first | refine (truncf_id (φ := .f32) (ψ := .bf16) _ bitsLt_bf16_f32).trans ?_ | fail "the outer conversion"
  unfold Cert.ReferenceIdeal.Read.val_main_v111
  first | refine scatterAdd_congr rfl rfl rfl ?_ | fail "the sum's operands"
  first | refine (extf_id (φ := .bf16) (ψ := .f32) _ bitsLt_bf16_f32).trans ?_ | fail "the inner conversion"
  unfold Cert.ReferenceIdeal.Read.val_main_v108
  first | exact gather_congr rfl (truncf_id (φ := .f32) (ψ := .bf16) _ bitsLt_bf16_f32) rfl | fail "the gathered rows"

theorem seg2 (n : Fin 50000) (k : Fin 128) :
    (V m c main_v72 : S50000x128.Idx → EReal) (ix2 n k)
      = Cert.ReferenceIdeal.RefValue.aggOf (arg0 m c) (arg1 m c) (arg2 m c) (arg3 m c) (2 : Fin 3) n k :=
  congrFun (seg2_arr m c) (ix2 n k)

end Cert.KernelIdeal.EntryRead

end
-- ==== Proof.EntryInvIdeal.lean ====
/-
  The packed reciprocal in-degrees the kernel's region finds, read against the reference's counts.

  For each edge type the program counts the edges per destination node (the same sum over the same
  edge list as the reference's count), clamps the count below at one and inverts it; the three
  results are laid side by side as the three columns of one array. Entry `(n, e)` is therefore one
  over the clamped count of edge type `e` at node `n`.
-/
import proofs.«149329_j48928267436146_2_alg».proof.Proof.EntryIdeal
import proofs.«149329_j48928267436146_2_alg».proof.Proof.EntryArgsIdeal
import proofs.«149329_j48928267436146_2_alg».proof.Proof.RefStages
import proofs.«149329_j48928267436146_2_alg».proof.Proof.SageSpec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost
import Idealize.ShloMosaic.Lib.StableHlo.Run
import proofs.«149329_j48928267436146_2_alg».proof.Proof.EntryAggIdeal

noncomputable section

namespace Cert.KernelIdeal.EntryRead

open Cert.KernelIdeal Cert.KernelIdeal.Gen Cert.KernelIdeal.Entry
open Idealize.ShloMosaic Idealize.ShloMosaic.TcCoe Idealize.ShloMosaic.StableHlo Idealize.ShloMosaic.ValueIdx

variable (m : (ℓ : Loc nD τ sig) → Buf (Elt Ideal) ℓ) (c : Dev nD)

/-- An operation of three operands writes its function of the three operands' contents, each read at its own
    buffer. -/
theorem nary3_result' {x a b y : Ref sig .tc}
    (f : ((k : Fin 3) → ((![x, a, b] : Fin 3 → Ref sig .tc) k).ty.Contents (Elt Ideal)) → y.ty.Contents (Elt Ideal)) (hxs hy)
    (F : Valuation τ sig (Elt Ideal)) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- One over a count clamped below at one, as a column. -/
def recipCol (cnt : S50000.Idx → EReal) : S50000x1.Idx → EReal :=
  broadcastInDim S50000x1 ![0] bcast_S50000_S50000x1_0
    (Host.divf (F := Ideal) (φ := .f32) (broadcastInDim S50000 ![] bcast_S_S50000 (constant (F := Ideal) S_ .f32 0x3F800000#32))
      (maximumf (F := Ideal) (φ := .f32) cnt (broadcastInDim S50000 ![] bcast_S_S50000 (constant (F := Ideal) S_ .f32 0x3F800000#32))))

theorem recipCol_apply (cnt : S50000.Idx → EReal) (n : Fin 50000) :
    recipCol cnt (ix2 n (0 : Fin 1)) = Ideal.div 1 (max (cnt (ix1 n)) 1) := by
  unfold recipCol
  refine (broadcastInDim_apply _ bcast_S50000_S50000x1_0 _ (ix2 n (0 : Fin 1)) (ix1 n) (fun a => match a with
    | ⟨0, _⟩ => by show n.val = if (50000 : Nat) = 1 then 0 else n.val; rw [if_neg (by decide)])).trans ?_
  refine (hostDivf_apply _ _ _).trans ?_
  rw [maximumf_apply, broadcastInDim_scalar_apply, constant_apply, Ideal.ofBits_one_f32]

/-- Three such columns side by side. -/
def pack (a b d : S50000.Idx → EReal) : S50000x3.Idx → EReal :=
  concatenate S50000x3 1 [⟨S50000x1, recipCol a⟩, ⟨S50000x1, recipCol b⟩, ⟨S50000x1, recipCol d⟩]
    concatenates_S50000x1_S50000x1_S50000x1_S50000x3_d1

theorem pack_congr {a a' b b' d d' : S50000.Idx → EReal} (ha : a = a') (hb : b = b') (hd : d = d') :
    pack a b d = pack a' b' d' := by
  subst ha hb hd; rfl

theorem pack_apply0 (a b d : S50000.Idx → EReal) (n : Fin 50000) :
    pack a b d (ix2 n (0 : Fin 3)) = recipCol a (ix2 n (0 : Fin 1)) := by
  unfold pack
  refine concatenate_apply_piece (t := S50000x3) (1 : Fin S50000x3.rank)
    [⟨S50000x1, recipCol a⟩, ⟨S50000x1, recipCol b⟩, ⟨S50000x1, recipCol d⟩]
    concatenates_S50000x1_S50000x1_S50000x1_S50000x3_d1 (ix2 n (0 : Fin 3)) 0 (by show (0 : Nat) < 3; decide) S50000x1
    (recipCol a) rfl rfl 0 rfl (ix2 n (0 : Fin 1)) (fun r hr => ?_) rfl
  match r with
  | ⟨0, _⟩ => rfl
  | ⟨1, _⟩ => exact absurd rfl hr

theorem pack_apply1 (a b d : S50000.Idx → EReal) (n : Fin 50000) :
    pack a b d (ix2 n (1 : Fin 3)) = recipCol b (ix2 n (0 : Fin 1)) := by
  unfold pack
  refine concatenate_apply_piece (t := S50000x3) (1 : Fin S50000x3.rank)
    [⟨S50000x1, recipCol a⟩, ⟨S50000x1, recipCol b⟩, ⟨S50000x1, recipCol d⟩]
    concatenates_S50000x1_S50000x1_S50000x1_S50000x3_d1 (ix2 n (1 : Fin 3)) 1 (by show (1 : Nat) < 3; decide) S50000x1
    (recipCol b) rfl rfl 1 rfl (ix2 n (0 : Fin 1)) (fun r hr => ?_) rfl
  match r with
  | ⟨0, _⟩ => rfl
  | ⟨1, _⟩ => exact absurd rfl hr

theorem pack_apply2 (a b d : S50000.Idx → EReal) (n : Fin 50000) :
    pack a b d (ix2 n (2 : Fin 3)) = recipCol d (ix2 n (0 : Fin 1)) := by
  unfold pack
  refine concatenate_apply_piece (t := S50000x3) (1 : Fin S50000x3.rank)
    [⟨S50000x1, recipCol a⟩, ⟨S50000x1, recipCol b⟩, ⟨S50000x1, recipCol d⟩]
    concatenates_S50000x1_S50000x1_S50000x1_S50000x3_d1 (ix2 n (2 : Fin 3)) 2 (by show (2 : Nat) < 3; decide) S50000x1
    (recipCol d) rfl rfl 2 rfl (ix2 n (0 : Fin 1)) (fun r hr => ?_) rfl
  match r with
  | ⟨0, _⟩ => rfl
  | ⟨1, _⟩ => exact absurd rfl hr

/-- The packed array is the three reciprocal clamped counts of the reference's own counts. -/
theorem inv_arr : (V m c main_v76 : S50000x3.Idx → EReal)
    = pack (Cert.ReferenceIdeal.Read.val_main_v23 (F := Ideal) (arg1 m c)) (Cert.ReferenceIdeal.Read.val_main_v69 (F := Ideal) (arg2 m c))
        (Cert.ReferenceIdeal.Read.val_main_v115 (F := Ideal) (arg3 m c)) := by
  dsimp only [V, hostOps0]
  simp (disch := decide) only [after_cons, after_nil,
      nullary_result', unary_result', binary_result', ternary_result', reshape_result', nary3_result',
      nullary_result_ne', unary_result_ne', binary_result_ne', ternary_result_ne', reshape_result_ne', nary_result_ne']
  first | refine pack_congr ?_ ?_ ?_ | fail "the three columns"
  · unfold Cert.ReferenceIdeal.Read.val_main_v23
    first | exact scatterAdd_congr rfl rfl rfl rfl | fail "count 0"
  · unfold Cert.ReferenceIdeal.Read.val_main_v69
    first | exact scatterAdd_congr rfl rfl rfl rfl | fail "count 1"
  · unfold Cert.ReferenceIdeal.Read.val_main_v115
    first | exact scatterAdd_congr rfl rfl rfl rfl | fail "count 2"

/-- Entry `(n, e)` of the packed array: one over the clamped in-degree of node `n` for edge type `e`. -/
theorem inv (n : Fin 50000) (e : Fin 3) :
    (V m c main_v76 : S50000x3.Idx → EReal) (ix2 n e)
      = Ideal.div 1 (max (Cert.ReferenceIdeal.RefValue.cntOf (arg1 m c) (arg2 m c) (arg3 m c) e n) 1) := by
  rw [inv_arr]
  match e with
  | ⟨0, _⟩ => exact (pack_apply0 _ _ _ n).trans (recipCol_apply _ n)
  | ⟨1, _⟩ => exact (pack_apply1 _ _ _ n).trans (recipCol_apply _ n)
  | ⟨2, _⟩ => exact (pack_apply2 _ _ _ n).trans (recipCol_apply _ n)

end Cert.KernelIdeal.EntryRead

end
-- ==== Proof.EntryWeightsIdeal.lean ====
/-
  The weight arrays the kernel's region finds, read element by element against the arguments.

  Before the region the program transposes each edge type's neighbour and root weight matrices
  (entry `(e, k, j)` of the result is entry `(e, j, k)` of the argument), and prepares the combining
  weights: the argument transposed, every row `q` of the 384 scaled by the attention factor of the
  edge type whose 128 columns hold `q`. That factor reaches row `q` by repeating each of the three
  factors 128 times and laying the 3×128 table out as one row of 384: position `q` holds entry
  `(q div 128, q mod 128)` of the table, which is factor `q div 128`.
-/
import proofs.«149329_j48928267436146_2_alg».proof.Proof.EntryIdeal
import proofs.«149329_j48928267436146_2_alg».proof.Proof.EntryArgsIdeal
import proofs.«149329_j48928267436146_2_alg».proof.Proof.RefStages
import proofs.«149329_j48928267436146_2_alg».proof.Proof.SageSpec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost
import Idealize.ShloMosaic.Lib.StableHlo.Run

noncomputable section

namespace Cert.KernelIdeal.EntryRead

open Cert.KernelIdeal Cert.KernelIdeal.Gen Cert.KernelIdeal.Entry
open Idealize.ShloMosaic Idealize.ShloMosaic.TcCoe Idealize.ShloMosaic.StableHlo Idealize.ShloMosaic.ValueIdx

variable (m : (ℓ : Loc nD τ sig) → Buf (Elt Ideal) ℓ) (c : Dev nD)

/-- The transposed neighbour weights at `(e, k, j)` are the argument's entry `(e, j, k)`. -/
theorem wlT (e : Fin 3) (k j : Fin 128) :
    (V m c main_v77 : S3x128x128.Idx → EReal) (ix3 e k j)
      = arg4 m c (ix3 e j k) := by
  have h : (V m c main_v77 : S3x128x128.Idx → EReal)
      = transpose S3x128x128 [0, 2, 1] (arg4 m c) transposes_S3x128x128_S3x128x128_0_2_1 := by
    dsimp only [V, hostOps0]; after_results_simp
  rw [h]
  exact transpose_ix3_021_apply _ _ e k j

/-- The transposed root weights at `(e, k, j)` are the argument's entry `(e, j, k)`. -/
theorem wrT (e : Fin 3) (k j : Fin 128) :
    (V m c main_v78 : S3x128x128.Idx → EReal) (ix3 e k j)
      = arg6 m c (ix3 e j k) := by
  have h : (V m c main_v78 : S3x128x128.Idx → EReal)
      = transpose S3x128x128 [0, 2, 1] (arg6 m c) transposes_S3x128x128_S3x128x128_0_2_1 := by
    dsimp only [V, hostOps0]; after_results_simp
  rw [h]
  exact transpose_ix3_021_apply _ _ e k j

/-- The scaled combining weights at `(q, o)`: the argument's entry `(o, q)` times the attention factor of the
    edge type whose columns hold `q`. -/
theorem wcs (q : Fin 384) (o : Fin 128) :
    (V m c main_v84 : S384x128.Idx → EReal) (ix2 q o)
      = arg8 m c (ix2 o q)
          * arg7 m c (ix1 (Cert.SageSpec.seg q)) := by
  have h : @Eq (S384x128.Idx → EReal) (V m c main_v84)
      (mulf (F := Ideal) (φ := .f32) (transpose S384x128 [1, 0] (arg8 m c) transposes_S128x384_S384x128_1_0)
          (broadcastInDim S384x128 ![0, 1] bcast_S384x1_S384x128_0_1
            (broadcastInDim S384x1 ![0] bcast_S384_S384x1_0
              (shapeCast S384 (broadcastInDim S3x128 ![0] bcast_S3_S3x128_0 (arg7 m c))
                shapeCasts_S3x128_S384)))) := by
    dsimp only [V, hostOps0]; after_results_simp; rfl
  have hq := q.isLt
  rw [h]
  refine (mulf_apply _ _ _).trans ?_
  refine congrArg₂ (· * ·) ?_ ?_
  · exact transpose_apply [1, 0] _ transposes_S128x384_S384x128_1_0 (ix2 q o) (ix2 o q)
      (fun b => match b with | ⟨0, _⟩ => rfl | ⟨1, _⟩ => rfl)
  · refine (broadcastInDim_apply _ bcast_S384x1_S384x128_0_1 _ (ix2 q o) (ix2 q (0 : Fin 1)) (fun a => match a with
      | ⟨0, _⟩ => by show q.val = if (384 : Nat) = 1 then 0 else q.val; rw [if_neg (by decide)]
      | ⟨1, _⟩ => by show 0 = if (1 : Nat) = 1 then 0 else o.val; rw [if_pos rfl])).trans ?_
    refine (broadcastInDim_apply _ bcast_S384_S384x1_0 _ (ix2 q (0 : Fin 1)) (ix1 q) (fun a => match a with
      | ⟨0, _⟩ => by show q.val = if (384 : Nat) = 1 then 0 else q.val; rw [if_neg (by decide)])).trans ?_
    refine (shapeCast_apply _ shapeCasts_S3x128_S384 (ix1 q) (ix2 (Cert.SageSpec.seg q) (Cert.SageSpec.off q)) (by
      rw [Shape.rowMajor_val_two, Shape.rowMajor_val_one]
      show q.val / 128 * 128 + q.val % 128 = q.val
      omega)).trans ?_
    exact broadcastInDim_apply _ bcast_S3_S3x128_0 _ (ix2 (Cert.SageSpec.seg q) (Cert.SageSpec.off q)) (ix1 (Cert.SageSpec.seg q)) (fun a => match a with
      | ⟨0, _⟩ => by show q.val / 128 = if (3 : Nat) = 1 then 0 else q.val / 128; rw [if_neg (by decide)])

end Cert.KernelIdeal.EntryRead

end
-- ==== Proof.Meet.lean ====
/-
  The two programs meet.

  The kernel's result array is the one-node result of each row of the arrays its region finds;
  those arrays, read at an index, are the reference's own segment sums and counts (the same sums
  over the same edge lists), the reciprocal of the clamped count, the transposed weights and the
  attention-scaled combining weights. So the kernel's result is `outK` of the same data of which
  the reference's is `outR`, and the two are one function.
-/
import proofs.«149329_j48928267436146_2_alg».proof.Defs
import proofs.«149329_j48928267436146_2_alg».proof.Proof.KernelRunIdeal
import proofs.«149329_j48928267436146_2_alg».proof.Proof.RefResult
import proofs.«149329_j48928267436146_2_alg».proof.Proof.Gen.Pre_finite_inputs
import proofs.«149329_j48928267436146_2_alg».proof.Proof.Run
import proofs.«149329_j48928267436146_2_alg».proof.Proof.EntryInvIdeal
import proofs.«149329_j48928267436146_2_alg».proof.Proof.EntryWeightsIdeal

set_option maxRecDepth 16384

noncomputable section

namespace Cert.KernelIdeal.Meet

open Cert.KernelIdeal Cert.KernelIdeal.Gen Cert.KernelIdeal.Entry Cert.KernelIdeal.Array Cert.KernelIdeal.Layer
open Cert.KernelIdeal.EntryRead Cert.ReferenceIdeal.RefValue Cert.SageSpec
open Idealize.ShloMosaic Idealize.ShloMosaic.TcCoe Idealize.ShloMosaic.ValueIdx
open Idealize.SL.Sem

set_option allowUnsafeReducibility true in
attribute [local irreducible] Cert.KernelIdeal.Entry.V

/-- An array of extended reals, its element type spelt as such. -/
abbrev rl {ι : Type} (f : ι → EReal) : ι → EReal := f

variable (m : (ℓ : Loc nD τ sig) → Buf (Elt Ideal) ℓ) (c : Dev nD)

/-- The kernel's result at (n, o): the kernel-shaped specification of the reference's segment sums and counts and the
    arguments' entries. -/
theorem outOf_apply (n : Fin 50000) (o : Fin 128) :
    outOf m c (ix2 n o)
      = outK (aggOf (m ((c : Thread nD τ).loc main_arg0)) (m ((c : Thread nD τ).loc main_arg1)) (m ((c : Thread nD τ).loc main_arg2)) (m ((c : Thread nD τ).loc main_arg3))) (cntOf (m ((c : Thread nD τ).loc main_arg1)) (m ((c : Thread nD τ).loc main_arg2)) (m ((c : Thread nD τ).loc main_arg3)))
          (fun n k => (rl (m ((c : Thread nD τ).loc main_arg0))) (ix2 n k)) (fun e j k => (rl (m ((c : Thread nD τ).loc main_arg4))) (ix3 e j k)) (fun e j k => (rl (m ((c : Thread nD τ).loc main_arg6))) (ix3 e j k))
          (fun e j => (rl (m ((c : Thread nD τ).loc main_arg5))) (ix2 e j)) (fun e => (rl (m ((c : Thread nD τ).loc main_arg7))) (ix1 e)) (fun o q => (rl (m ((c : Thread nD τ).loc main_arg8))) (ix2 o q))
          (fun o => (rl (m ((c : Thread nD τ).loc main_arg9))) (ix1 o)) n o := by
  rw [outK_eq_row]
  show rowOutK (fun e k => pick (rl (V m c main_v24)) (rl (V m c main_v48)) (rl (V m c main_v72)) e (ix2 n k) * (rl (V m c main_v76)) (ix2 n e))
      (fun k => (rl (V m c main_arg0)) (ix2 n k)) (fun e j k => (rl (V m c main_v77)) (ix3 e k j)) (fun e j k => (rl (V m c main_v78)) (ix3 e k j))
      (fun e j => (rl (V m c main_arg5)) (ix2 e j)) (fun q o => (rl (V m c main_v84)) (ix2 q o)) (fun o => (rl (V m c main_arg9)) (ix1 o)) o = _
  have s : ∀ (e : Fin 3) (k : Fin 128),
      pick (rl (V m c main_v24)) (rl (V m c main_v48)) (rl (V m c main_v72)) e (ix2 n k) = aggOf (m ((c : Thread nD τ).loc main_arg0)) (m ((c : Thread nD τ).loc main_arg1)) (m ((c : Thread nD τ).loc main_arg2)) (m ((c : Thread nD τ).loc main_arg3)) e n k := by
    intro e k
    match e with
    | ⟨0, _⟩ => exact seg0 m c n k
    | ⟨1, _⟩ => exact seg1 m c n k
    | ⟨2, _⟩ => exact seg2 m c n k
  have e1 : (fun (e : Fin 3) (k : Fin 128) => pick (rl (V m c main_v24)) (rl (V m c main_v48)) (rl (V m c main_v72)) e (ix2 n k) * (rl (V m c main_v76)) (ix2 n e))
      = fun e k => aggOf (m ((c : Thread nD τ).loc main_arg0)) (m ((c : Thread nD τ).loc main_arg1)) (m ((c : Thread nD τ).loc main_arg2)) (m ((c : Thread nD τ).loc main_arg3)) e n k * Ideal.div 1 (max (cntOf (m ((c : Thread nD τ).loc main_arg1)) (m ((c : Thread nD τ).loc main_arg2)) (m ((c : Thread nD τ).loc main_arg3)) e n) 1) := by
    funext e k
    rw [s e k]
    exact congrArg (fun z : EReal => aggOf (m ((c : Thread nD τ).loc main_arg0)) (m ((c : Thread nD τ).loc main_arg1)) (m ((c : Thread nD τ).loc main_arg2)) (m ((c : Thread nD τ).loc main_arg3)) e n k * z) (inv m c n e)
  have e2 : (fun k : Fin 128 => (rl (V m c main_arg0)) (ix2 n k)) = fun k => (rl (m ((c : Thread nD τ).loc main_arg0))) (ix2 n k) :=
    funext fun k => congrFun (V_main_arg0 m c) (ix2 n k)
  have e3 : (fun (e : Fin 3) (j k : Fin 128) => (rl (V m c main_v77)) (ix3 e k j)) = fun e j k => (rl (m ((c : Thread nD τ).loc main_arg4))) (ix3 e j k) :=
    funext fun e => funext fun j => funext fun k => wlT m c e k j
  have e4 : (fun (e : Fin 3) (j k : Fin 128) => (rl (V m c main_v78)) (ix3 e k j)) = fun e j k => (rl (m ((c : Thread nD τ).loc main_arg6))) (ix3 e j k) :=
    funext fun e => funext fun j => funext fun k => wrT m c e k j
  have e5 : (fun (e : Fin 3) (j : Fin 128) => (rl (V m c main_arg5)) (ix2 e j)) = fun e j => (rl (m ((c : Thread nD τ).loc main_arg5))) (ix2 e j) :=
    funext fun e => funext fun j => congrFun (V_main_arg5 m c) (ix2 e j)
  have e6 : (fun (q : Fin 384) (o : Fin 128) => (rl (V m c main_v84)) (ix2 q o))
      = fun q o => (rl (m ((c : Thread nD τ).loc main_arg8))) (ix2 o q) * (rl (m ((c : Thread nD τ).loc main_arg7))) (ix1 (seg q)) :=
    funext fun q => funext fun o => wcs m c q o
  have e7 : (fun o : Fin 128 => (rl (V m c main_arg9)) (ix1 o)) = fun o => (rl (m ((c : Thread nD τ).loc main_arg9))) (ix1 o) :=
    funext fun o => congrFun (V_main_arg9 m c) (ix1 o)
  rw [e1, e2, e3, e4, e5, e6, e7]

end Cert.KernelIdeal.Meet

/-! ## The claims -/

namespace Cert.Proof.Claims

open Idealize.ShloMosaic Idealize.ShloMosaic.TcCoe Idealize.ShloMosaic.ValueIdx Idealize.SL.Sem

theorem frame_k : Cert.frame_Kernel := fun m ρ _ => Cert.Kernel.Run.frame m ρ
theorem frame_ki : Cert.frame_KernelIdeal := fun m ρ _ => Cert.KernelIdeal.Run.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs run to the end; the kernel's result array is the kernel-shaped specification, the reference's the
    reference-shaped one, of the same data read off arguments that agree: one function. -/
theorem algebraic : Cert.algebraic_KernelIdeal_ReferenceIdeal := by
  intro m ρ m' ρ' _ hagree
  refine ⟨fun c => Cert.KernelIdeal.Array.outOf m c, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v143_eq]
  obtain ⟨a0, a1, a2, a3, a4, a5, a6, a7, a8, a9⟩ := hagree c
  rw [a0, a1, a2, a3, a4, a5, a6, a7, a8, a9]
  funext i
  obtain ⟨n, o, rfl⟩ : ∃ (n : Fin 50000) (o : Fin 128), i = ix2 n o := ⟨i 0, i 1, eq_ix2 i⟩
  rw [Cert.ReferenceIdeal.RefValue.result_apply, ← Cert.SageSpec.outK_eq_outR]
  exact (Cert.KernelIdeal.Meet.outOf_apply m c n o).symm

end Cert.Proof.Claims

end
-- ==== Proof.lean ====
/-
  The proof of `Cert.Claim`: a relational-graph layer (three edge types: mean of the incoming
  features, two linear maps and a bias, row normalisation; then one combining linear map) as a
  pipelined kernel after host gather / segment-sum operations, against the plain array program.

  Frames. The kernel's @main is host operations and one region over 25 grid points; the body loads
  its windows, computes, and stores one whole output block. Proof/Entry*, Body*, Run* give, for
  the word-level program and for the idealized one, the arrays the region finds, the body's
  triple, and the run: it terminates without a fault and leaves the arguments as launched. The
  reference has no kernel: its frame is its generated run with the result dropped.

  Preservation. The ideal pass rewrote nothing, so the idealized kernel is the kernel's own text
  read on the extended reals: the conjunct is `True`.

  Equality on the extended reals. Proof/Layer*, Block*, Array*, Written*, KernelRun* read the
  kernel's result array as the kernel-shaped specification `outK` of each row (Proof/SageSpec,
  SageRow); Proof/Ref* read the reference's result as the reference-shaped `outR` of the same
  segment sums and counts; Proof/Entry*Ideal identify the arrays the region finds; Proof/Meet joins
  them by `outK = outR`: a clamped count is never zero, where a quotient is the product with the
  reciprocal, and the attention factor moves across a product. No finiteness is used.
-/
import proofs.«149329_j48928267436146_2_alg».proof.Defs
import proofs.«149329_j48928267436146_2_alg».proof.Proof.Gen.Kernel
import proofs.«149329_j48928267436146_2_alg».proof.Proof.Gen.Kernel.Skeleton
import proofs.«149329_j48928267436146_2_alg».proof.Proof.Gen.Kernel.Launch
import proofs.«149329_j48928267436146_2_alg».proof.Proof.Gen.Kernel.Points
import proofs.«149329_j48928267436146_2_alg».proof.Proof.Gen.KernelIdeal
import proofs.«149329_j48928267436146_2_alg».proof.Proof.Gen.KernelIdeal.Skeleton
import proofs.«149329_j48928267436146_2_alg».proof.Proof.Gen.KernelIdeal.Launch
import proofs.«149329_j48928267436146_2_alg».proof.Proof.Gen.KernelIdeal.Points
import proofs.«149329_j48928267436146_2_alg».proof.Proof.Gen.ReferenceIdeal
import proofs.«149329_j48928267436146_2_alg».proof.Proof.Gen.ReferenceIdeal.Run
import proofs.«149329_j48928267436146_2_alg».proof.Proof.Gen.ReferenceIdeal.Read
import proofs.«149329_j48928267436146_2_alg».proof.Proof.Gen.Pre_finite_inputs
import proofs.«149329_j48928267436146_2_alg».proof.Proof.Run
import proofs.«149329_j48928267436146_2_alg».proof.Proof.Meet
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
